-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64 : Shape := ⟨2, ![4096, 64]⟩
abbrev S64x64 : Shape := ⟨2, ![64, 64]⟩
abbrev S64 : Shape := ⟨1, ![64]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S64 .f32) (main_arg12 : FVec F S64x64 .f32) (main_arg13 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg12
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg10
  let main_cst_18 : FVec F S_ .f32 := constant S_ .f32 0x7F800000#32
  let main_v50 : FVec F S64x64 .f32 := broadcastInDim S64x64 ![] bcast_S_S64x64 main_cst_18
  fn_part3 (F := F) main_arg11 main_arg12 main_arg13 main_v48 main_v49 main_v50

def fn_part1 {F : FTy → Type} [FloatOps F] (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S4096x64 .f32) (main_arg1 : FVec F S4096x64 .f32) (main_arg2 : FVec F S64x64 .f32) (main_arg3 : FVec F S64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_arg12 main_arg13 main_v13 main_v16
-- ==== Kernel.lean ====
abbrev S4096x64 : Shape := ⟨2, ![4096, 64]⟩
abbrev S64x64 : Shape := ⟨2, ![64, 64]⟩
abbrev S64 : Shape := ⟨1, ![64]⟩
abbrev S512x64 : Shape := ⟨2, ![512, 64]⟩
abbrev S1x64 : Shape := ⟨2, ![1, 64]⟩
abbrev S4096x4224 : Shape := ⟨2, ![4096, 4224]⟩
abbrev S256x64 : Shape := ⟨2, ![256, 64]⟩
abbrev S256x4224 : Shape := ⟨2, ![256, 4224]⟩
abbrev S256x4096 : Shape := ⟨2, ![256, 4096]⟩
abbrev S256 : Shape := ⟨1, ![256]⟩
abbrev S256x1 : Shape := ⟨2, ![256, 1]⟩
abbrev S256x128 : Shape := ⟨2, ![256, 128]⟩

abbrev nBuf : Space → Nat
  | .hbm => 21
  | .vmem => 42
  | .smem => 0
  | _ => 0

abbrev bufTy : (tb : Table) → Fin (tcTables nBuf tb) → BufTy
  | .hbm, ⟨0, _⟩ => ⟨S4096x64, .f32⟩
  | .hbm, ⟨1, _⟩ => ⟨S4096x64, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S4096x64, .bf16⟩
  | .hbm, ⟨15, _⟩ => ⟨S4096x64, .bf16⟩
  | .hbm, ⟨16, _⟩ => ⟨S4096x64, .bf16⟩
  | .hbm, ⟨17, _⟩ => ⟨S4096x64, .bf16⟩
  | .hbm, ⟨18, _⟩ => ⟨S4096x64, .bf16⟩
  | .hbm, ⟨19, _⟩ => ⟨S4096x64, .bf16⟩
  | .hbm, ⟨20, _⟩ => ⟨S4096x4224, .f32⟩
  | .local _ .vmem, ⟨0, _⟩ => ⟨S512x64, .f32⟩
  | .local _ .vmem, ⟨1, _⟩ => ⟨S512x64, .f32⟩
  | .local _ .vmem, ⟨2, _⟩ => ⟨S512x64, .f32⟩
  | .local _ .vmem, ⟨3, _⟩ => ⟨S512x64, .f32⟩
  | .local _ .vmem, ⟨4, _⟩ => ⟨S64x64, .f32⟩
  | .local _ .vmem, ⟨5, _⟩ => ⟨S64, .f32⟩
  | .local _ .vmem, ⟨6, _⟩ => ⟨S64x64, .f32⟩
  | .local _ .vmem, ⟨7, _⟩ => ⟨S64, .f32⟩
  | .local _ .vmem, ⟨8, _⟩ => ⟨S64x64, .f32⟩
  | .local _ .vmem, ⟨9, _⟩ => ⟨S64, .f32⟩
  | .local _ .vmem, ⟨10, _⟩ => ⟨S64x64, .f32⟩
  | .local _ .vmem, ⟨11, _⟩ => ⟨S64, .f32⟩
  | .local _ .vmem, ⟨12, _⟩ => ⟨S64x64, .f32⟩
  | .local _ .vmem, ⟨13, _⟩ => ⟨S64, .f32⟩
  | .local _ .vmem, ⟨14, _⟩ => ⟨S64x64, .f32⟩
  | .local _ .vmem, ⟨15, _⟩ => ⟨S64, .f32⟩
  | .local _ .vmem, ⟨16, _⟩ => ⟨S512x64, .bf16⟩
  | .local _ .vmem, ⟨17, _⟩ => ⟨S512x64, .bf16⟩
  | .local _ .vmem, ⟨18, _⟩ => ⟨S512x64, .bf16⟩
  | .local _ .vmem, ⟨19, _⟩ => ⟨S512x64, .bf16⟩
  | .local _ .vmem, ⟨20, _⟩ => ⟨S512x64, .bf16⟩
  | .local _ .vmem, ⟨21, _⟩ => ⟨S512x64, .bf16⟩
  | .local _ .vmem, ⟨22, _⟩ => ⟨S512x64, .bf16⟩
  | .local _ .vmem, ⟨23, _⟩ => ⟨S512x64, .bf16⟩
  | .local _ .vmem, ⟨24, _⟩ => ⟨S512x64, .bf16⟩
  | .local _ .vmem, ⟨25, _⟩ => ⟨S512x64, .bf16⟩
  | .local _ .vmem, ⟨26, _⟩ => ⟨S512x64, .bf16⟩
  | .local _ .vmem, ⟨27, _⟩ => ⟨S512x64, .bf16⟩
  | .local _ .vmem, ⟨28, _⟩ => ⟨S256x64, .bf16⟩
  | .local _ .vmem, ⟨29, _⟩ => ⟨S256x64, .bf16⟩
  | .local _ .vmem, ⟨30, _⟩ => ⟨S256x64, .bf16⟩
  | .local _ .vmem, ⟨31, _⟩ => ⟨S256x64, .bf16⟩
  | .local _ .vmem, ⟨32, _⟩ => ⟨S4096x64, .bf16⟩
  | .local _ .vmem, ⟨33, _⟩ => ⟨S4096x64, .bf16⟩
  | .local _ .vmem, ⟨34, _⟩ => ⟨S4096x64, .bf16⟩
  | .local _ .vmem, ⟨35, _⟩ => ⟨S4096x64, .bf16⟩
  | .local _ .vmem, ⟨36, _⟩ => ⟨S256x64, .f32⟩
  | .local _ .vmem, ⟨37, _⟩ => ⟨S256x64, .f32⟩
  | .local _ .vmem, ⟨38, _⟩ => ⟨S256x64, .f32⟩
  | .local _ .vmem, ⟨39, _⟩ => ⟨S256x64, .f32⟩
  | .local _ .vmem, ⟨40, _⟩ => ⟨S256x4224, .f32⟩
  | .local _ .vmem, ⟨41, _⟩ => ⟨S256x4224, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev main_v0_3 : Ref sig .tc := ⟨.hbm, 17, rfl⟩
abbrev main_v0_4 : Ref sig .tc := ⟨.hbm, 18, rfl⟩
abbrev main_v0_5 : Ref sig .tc := ⟨.hbm, 19, rfl⟩
abbrev main_v1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc1_stg0_0 : Ref sig .tc := ⟨.vmem, 28, rfl⟩
abbrev cc1_stg0_1 : Ref sig .tc := ⟨.vmem, 29, rfl⟩
abbrev cc1_stg1_0 : Ref sig .tc := ⟨.vmem, 30, rfl⟩
abbrev cc1_stg1_1 : Ref sig .tc := ⟨.vmem, 31, rfl⟩
abbrev cc1_stg2_0 : Ref sig .tc := ⟨.vmem, 32, rfl⟩
abbrev cc1_stg3_0 : Ref sig .tc := ⟨.vmem, 33, rfl⟩
abbrev cc1_stg4_0 : Ref sig .tc := ⟨.vmem, 34, rfl⟩
abbrev cc1_stg5_0 : Ref sig .tc := ⟨.vmem, 35, rfl⟩
abbrev cc1_stg6_0 : Ref sig .tc := ⟨.vmem, 36, rfl⟩
abbrev cc1_stg6_1 : Ref sig .tc := ⟨.vmem, 37, rfl⟩
abbrev cc1_stg7_0 : Ref sig .tc := ⟨.vmem, 38, rfl⟩
abbrev cc1_stg7_1 : Ref sig .tc := ⟨.vmem, 39, rfl⟩
abbrev cc1_stg8_0 : Ref sig .tc := ⟨.vmem, 40, rfl⟩
abbrev cc1_stg8_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc1_sem0_0 : DmaSem sig := 28
abbrev cc1_sem0_1 : DmaSem sig := 29
abbrev cc1_sem1_0 : DmaSem sig := 30
abbrev cc1_sem1_1 : DmaSem sig := 31
abbrev cc1_sem2_0 : DmaSem sig := 32
abbrev cc1_sem3_0 : DmaSem sig := 33
abbrev cc1_sem4_0 : DmaSem sig := 34
abbrev cc1_sem5_0 : DmaSem sig := 35
abbrev cc1_sem6_0 : DmaSem sig := 36
abbrev cc1_sem6_1 : DmaSem sig := 37
abbrev cc1_sem7_0 : DmaSem sig := 38
abbrev cc1_sem7_1 : DmaSem sig := 39
abbrev cc1_sem8_0 : DmaSem sig := 40
abbrev cc1_sem8_1 : DmaSem sig := 41

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x64 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x64 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x64 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x64 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x64 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x64 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4096x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4096x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4096x64 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S4096x64 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x4224 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  inb_S512x64_S512x64_0_0 : ∀ a, (![0, 0] : Fin 2 → Nat) a + S512x64.size a ≤ S512x64.size a
  h_S512x64 : 0 < S512x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S512x64 : S1x64.Broadcasts S512x64
  packedbf16_S512x64_S512x64_0_0 : (Rect.unit (s := S512x64) ![0, 0] S512x64.size inb_S512x64_S512x64_0_0).PackedRows (EltTy.packing .bf16)
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  reduces_S256x4096_S256 : S256x4096.Reduces [1] S256
  shapeCasts_S256_S256x1 : S256.ShapeCasts S256x1
  broadcasts_S256x1_S256x4096 : S256x1.Broadcasts S256x4096
  broadcasts_S256x1_S256x64 : S256x1.Broadcasts S256x64
  concatenates_S256x64_S256x64_S256x128_d1 : Shape.Concatenates [S256x64, S256x64] S256x128 1
  inb_S256x4224_S256x128_0_0 : ∀ a, (![0, 0] : Fin 2 → Nat) a + S256x128.size a ≤ S256x4224.size a
  h_S256x128 : 0 < S256x128.numel
  slices_S256x64_o0_0_S256x1 : S256x64.Slices ![0, 0] S256x1
  slices_S256x64_o0_1_S256x1 : S256x64.Slices ![0, 1] S256x1
  inb_S256x4224_S256x128_0_128 : ∀ a, (![0, 128] : Fin 2 → Nat) a + S256x128.size a ≤ S256x4224.size a
  slices_S256x64_o0_2_S256x1 : S256x64.Slices ![0, 2] S256x1
  slices_S256x64_o0_3_S256x1 : S256x64.Slices ![0, 3] S256x1
  inb_S256x4224_S256x128_0_256 : ∀ a, (![0, 256] : Fin 2 → Nat) a + S256x128.size a ≤ S256x4224.size a
  slices_S256x64_o0_4_S256x1 : S256x64.Slices ![0, 4] S256x1
  slices_S256x64_o0_5_S256x1 : S256x64.Slices ![0, 5] S256x1
  inb_S256x4224_S256x128_0_384 : ∀ a, (![0, 384] : Fin 2 → Nat) a + S256x128.size a ≤ S256x4224.size a
  slices_S256x64_o0_6_S256x1 : S256x64.Slices ![0, 6] S256x1
  slices_S256x64_o0_7_S256x1 : S256x64.Slices ![0, 7] S256x1
  inb_S256x4224_S256x128_0_512 : ∀ a, (![0, 512] : Fin 2 → Nat) a + S256x128.size a ≤ S256x4224.size a
  slices_S256x64_o0_8_S256x1 : S256x64.Slices ![0, 8] S256x1
  slices_S256x64_o0_9_S256x1 : S256x64.Slices ![0, 9] S256x1
  inb_S256x4224_S256x128_0_640 : ∀ a, (![0, 640] : Fin 2 → Nat) a + S256x128.size a ≤ S256x4224.size a
  slices_S256x64_o0_10_S256x1 : S256x64.Slices ![0, 10] S256x1
  slices_S256x64_o0_11_S256x1 : S256x64.Slices ![0, 11] S256x1
  inb_S256x4224_S256x128_0_768 : ∀ a, (![0, 768] : Fin 2 → Nat) a + S256x128.size a ≤ S256x4224.size a
  slices_S256x64_o0_12_S256x1 : S256x64.Slices ![0, 12] S256x1
  slices_S256x64_o0_13_S256x1 : S256x64.Slices ![0, 13] S256x1
  inb_S256x4224_S256x128_0_896 : ∀ a, (![0, 896] : Fin 2 → Nat) a + S256x128.size a ≤ S256x4224.size a
  slices_S256x64_o0_14_S256x1 : S256x64.Slices ![0, 14] S256x1
  slices_S256x64_o0_15_S256x1 : S256x64.Slices ![0, 15] S256x1
  inb_S256x4224_S256x128_0_1024 : ∀ a, (![0, 1024] : Fin 2 → Nat) a + S256x128.size a ≤ S256x4224.size a
  slices_S256x64_o0_16_S256x1 : S256x64.Slices ![0, 16] S256x1
  slices_S256x64_o0_17_S256x1 : S256x64.Slices ![0, 17] S256x1
  inb_S256x4224_S256x128_0_1152 : ∀ a, (![0, 1152] : Fin 2 → Nat) a + S256x128.size a ≤ S256x4224.size a
  slices_S256x64_o0_18_S256x1 : S256x64.Slices ![0, 18] S256x1
  slices_S256x64_o0_19_S256x1 : S256x64.Slices ![0, 19] S256x1
  inb_S256x4224_S256x128_0_1280 : ∀ a, (![0, 1280] : Fin 2 → Nat) a + S256x128.size a ≤ S256x4224.size a
  slices_S256x64_o0_20_S256x1 : S256x64.Slices ![0, 20] S256x1
  slices_S256x64_o0_21_S256x1 : S256x64.Slices ![0, 21] S256x1
  inb_S256x4224_S256x128_0_1408 : ∀ a, (![0, 1408] : Fin 2 → Nat) a + S256x128.size a ≤ S256x4224.size a
  slices_S256x64_o0_22_S256x1 : S256x64.Slices ![0, 22] S256x1
  slices_S256x64_o0_23_S256x1 : S256x64.Slices ![0, 23] S256x1
  inb_S256x4224_S256x128_0_1536 : ∀ a, (![0, 1536] : Fin 2 → Nat) a + S256x128.size a ≤ S256x4224.size a
  slices_S256x64_o0_24_S256x1 : S256x64.Slices ![0, 24] S256x1
  slices_S256x64_o0_25_S256x1 : S256x64.Slices ![0, 25] S256x1
  inb_S256x4224_S256x128_0_1664 : ∀ a, (![0, 1664] : Fin 2 → Nat) a + S256x128.size a ≤ S256x4224.size a
  slices_S256x64_o0_26_S256x1 : S256x64.Slices ![0, 26] S256x1
  slices_S256x64_o0_27_S256x1 : S256x64.Slices ![0, 27] S256x1
  inb_S256x4224_S256x128_0_1792 : ∀ a, (![0, 1792] : Fin 2 → Nat) a + S256x128.size a ≤ S256x4224.size a
  slices_S256x64_o0_28_S256x1 : S256x64.Slices ![0, 28] S256x1
  slices_S256x64_o0_29_S256x1 : S256x64.Slices ![0, 29] S256x1
  inb_S256x4224_S256x128_0_1920 : ∀ a, (![0, 1920] : Fin 2 → Nat) a + S256x128.size a ≤ S256x4224.size a
  slices_S256x64_o0_30_S256x1 : S256x64.Slices ![0, 30] S256x1
  slices_S256x64_o0_31_S256x1 : S256x64.Slices ![0, 31] S256x1
  inb_S256x4224_S256x128_0_2048 : ∀ a, (![0, 2048] : Fin 2 → Nat) a + S256x128.size a ≤ S256x4224.size a
  slices_S256x64_o0_32_S256x1 : S256x64.Slices ![0, 32] S256x1
  slices_S256x64_o0_33_S256x1 : S256x64.Slices ![0, 33] S256x1
  inb_S256x4224_S256x128_0_2176 : ∀ a, (![0, 2176] : Fin 2 → Nat) a + S256x128.size a ≤ S256x4224.size a
  slices_S256x64_o0_34_S256x1 : S256x64.Slices ![0, 34] S256x1
  slices_S256x64_o0_35_S256x1 : S256x64.Slices ![0, 35] S256x1
  inb_S256x4224_S256x128_0_2304 : ∀ a, (![0, 2304] : Fin 2 → Nat) a + S256x128.size a ≤ S256x4224.size a
  slices_S256x64_o0_36_S256x1 : S256x64.Slices ![0, 36] S256x1
  slices_S256x64_o0_37_S256x1 : S256x64.Slices ![0, 37] S256x1
  inb_S256x4224_S256x128_0_2432 : ∀ a, (![0, 2432] : Fin 2 → Nat) a + S256x128.size a ≤ S256x4224.size a
  slices_S256x64_o0_38_S256x1 : S256x64.Slices ![0, 38] S256x1
  slices_S256x64_o0_39_S256x1 : S256x64.Slices ![0, 39] S256x1
  inb_S256x4224_S256x128_0_2560 : ∀ a, (![0, 2560] : Fin 2 → Nat) a + S256x128.size a ≤ S256x4224.size a
  slices_S256x64_o0_40_S256x1 : S256x64.Slices ![0, 40] S256x1
  slices_S256x64_o0_41_S256x1 : S256x64.Slices ![0, 41] S256x1
  inb_S256x4224_S256x128_0_2688 : ∀ a, (![0, 2688] : Fin 2 → Nat) a + S256x128.size a ≤ S256x4224.size a
  slices_S256x64_o0_42_S256x1 : S256x64.Slices ![0, 42] S256x1
  slices_S256x64_o0_43_S256x1 : S256x64.Slices ![0, 43] S256x1
  inb_S256x4224_S256x128_0_2816 : ∀ a, (![0, 2816] : Fin 2 → Nat) a + S256x128.size a ≤ S256x4224.size a
  slices_S256x64_o0_44_S256x1 : S256x64.Slices ![0, 44] S256x1
  slices_S256x64_o0_45_S256x1 : S256x64.Slices ![0, 45] S256x1
  inb_S256x4224_S256x128_0_2944 : ∀ a, (![0, 2944] : Fin 2 → Nat) a + S256x128.size a ≤ S256x4224.size a
  slices_S256x64_o0_46_S256x1 : S256x64.Slices ![0, 46] S256x1
  slices_S256x64_o0_47_S256x1 : S256x64.Slices ![0, 47] S256x1
  inb_S256x4224_S256x128_0_3072 : ∀ a, (![0, 3072] : Fin 2 → Nat) a + S256x128.size a ≤ S256x4224.size a
  slices_S256x64_o0_48_S256x1 : S256x64.Slices ![0, 48] S256x1
  slices_S256x64_o0_49_S256x1 : S256x64.Slices ![0, 49] S256x1
  inb_S256x4224_S256x128_0_3200 : ∀ a, (![0, 3200] : Fin 2 → Nat) a + S256x128.size a ≤ S256x4224.size a
  slices_S256x64_o0_50_S256x1 : S256x64.Slices ![0, 50] S256x1
  slices_S256x64_o0_51_S256x1 : S256x64.Slices ![0, 51] S256x1
  inb_S256x4224_S256x128_0_3328 : ∀ a, (![0, 3328] : Fin 2 → Nat) a + S256x128.size a ≤ S256x4224.size a
  slices_S256x64_o0_52_S256x1 : S256x64.Slices ![0, 52] S256x1
  slices_S256x64_o0_53_S256x1 : S256x64.Slices ![0, 53] S256x1
  inb_S256x4224_S256x128_0_3456 : ∀ a, (![0, 3456] : Fin 2 → Nat) a + S256x128.size a ≤ S256x4224.size a
  slices_S256x64_o0_54_S256x1 : S256x64.Slices ![0, 54] S256x1
  slices_S256x64_o0_55_S256x1 : S256x64.Slices ![0, 55] S256x1
  inb_S256x4224_S256x128_0_3584 : ∀ a, (![0, 3584] : Fin 2 → Nat) a + S256x128.size a ≤ S256x4224.size a
  slices_S256x64_o0_56_S256x1 : S256x64.Slices ![0, 56] S256x1
  slices_S256x64_o0_57_S256x1 : S256x64.Slices ![0, 57] S256x1
  inb_S256x4224_S256x128_0_3712 : ∀ a, (![0, 3712] : Fin 2 → Nat) a + S256x128.size a ≤ S256x4224.size a
  slices_S256x64_o0_58_S256x1 : S256x64.Slices ![0, 58] S256x1
  slices_S256x64_o0_59_S256x1 : S256x64.Slices ![0, 59] S256x1
  inb_S256x4224_S256x128_0_3840 : ∀ a, (![0, 3840] : Fin 2 → Nat) a + S256x128.size a ≤ S256x4224.size a
  slices_S256x64_o0_60_S256x1 : S256x64.Slices ![0, 60] S256x1
  slices_S256x64_o0_61_S256x1 : S256x64.Slices ![0, 61] S256x1
  inb_S256x4224_S256x128_0_3968 : ∀ a, (![0, 3968] : Fin 2 → Nat) a + S256x128.size a ≤ S256x4224.size a
  slices_S256x64_o0_62_S256x1 : S256x64.Slices ![0, 62] S256x1
  slices_S256x64_o0_63_S256x1 : S256x64.Slices ![0, 63] S256x1
  inb_S256x4224_S256x128_0_4096 : ∀ a, (![0, 4096] : Fin 2 → Nat) a + S256x128.size a ≤ S256x4224.size a
  dot_S512x64_S64x64_S512x64_1_0_0_1_n_n_wf : DotDims.WF S512x64 S64x64 S512x64 [1] [0] [0] [1] [] []
  dot_S256x64_S4096x64_S256x4096_1_1_0_0_n_n_wf : DotDims.WF S256x64 S4096x64 S256x4096 [1] [1] [0] [0] [] []
  dot_S256x4096_S4096x64_S256x64_1_0_0_1_n_n_wf : DotDims.WF S256x4096 S4096x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S4096x64.size a
  hwx0_0 : ∀ i : grid0.Coords, EltTy.bits .f32 = 32 ∨ (Rect.block (s := S4096x64) S512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S4096x64.size a
  hwx0_1 : ∀ i : grid0.Coords, EltTy.bits .f32 = 32 ∨ (Rect.block (s := S4096x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64.size a ≤ S64.size a
  hwx0_9 : ∀ i : grid0.Coords, EltTy.bits .f32 = 32 ∨ (Rect.block (s := S64) S64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x64.size a ≤ S64x64.size a
  hwx0_10 : ∀ i : grid0.Coords, EltTy.bits .f32 = 32 ∨ (Rect.block (s := S64x64) S64x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64.size a ≤ S64.size a
  hwx0_11 : ∀ i : grid0.Coords, EltTy.bits .f32 = 32 ∨ (Rect.block (s := S64) S64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64x64.size a ≤ S64x64.size a
  hwx0_12 : ∀ i : grid0.Coords, EltTy.bits .f32 = 32 ∨ (Rect.block (s := S64x64) S64x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64.size a ≤ S64.size a
  hwx0_13 : ∀ i : grid0.Coords, EltTy.bits .f32 = 32 ∨ (Rect.block (s := S64) S64.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S512x64.size a ≤ S4096x64.size a
  hwx0_14 : ∀ i : grid0.Coords, EltTy.bits .bf16 = 32 ∨ (Rect.block (s := S4096x64) S512x64.size (cc0_transform_14 i) (hinb0_14 i)).WholeWords (EltTy.packing .bf16)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S512x64.size a ≤ S4096x64.size a
  hwx0_15 : ∀ i : grid0.Coords, EltTy.bits .bf16 = 32 ∨ (Rect.block (s := S4096x64) S512x64.size (cc0_transform_15 i) (hinb0_15 i)).WholeWords (EltTy.packing .bf16)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S512x64.size a ≤ S4096x64.size a
  hwx0_16 : ∀ i : grid0.Coords, EltTy.bits .bf16 = 32 ∨ (Rect.block (s := S4096x64) S512x64.size (cc0_transform_16 i) (hinb0_16 i)).WholeWords (EltTy.packing .bf16)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S512x64.size a ≤ S4096x64.size a
  hwx0_17 : ∀ i : grid0.Coords, EltTy.bits .bf16 = 32 ∨ (Rect.block (s := S4096x64) S512x64.size (cc0_transform_17 i) (hinb0_17 i)).WholeWords (EltTy.packing .bf16)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S512x64.size a ≤ S4096x64.size a
  hwx0_18 : ∀ i : grid0.Coords, EltTy.bits .bf16 = 32 ∨ (Rect.block (s := S4096x64) S512x64.size (cc0_transform_18 i) (hinb0_18 i)).WholeWords (EltTy.packing .bf16)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S512x64.size a ≤ S4096x64.size a
  hwx0_19 : ∀ i : grid0.Coords, EltTy.bits .bf16 = 32 ∨ (Rect.block (s := S4096x64) S512x64.size (cc0_transform_19 i) (hinb0_19 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x64.size a ≤ S4096x64.size a
  hwx1_0 : ∀ i : grid1.Coords, EltTy.bits .bf16 = 32 ∨ (Rect.block (s := S4096x64) S256x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x64.size a ≤ S4096x64.size a
  hwx1_1 : ∀ i : grid1.Coords, EltTy.bits .bf16 = 32 ∨ (Rect.block (s := S4096x64) S256x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x64.size a ≤ S4096x64.size a
  hwx1_2 : ∀ i : grid1.Coords, EltTy.bits .bf16 = 32 ∨ (Rect.block (s := S4096x64) S4096x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x64.size a ≤ S4096x64.size a
  hwx1_3 : ∀ i : grid1.Coords, EltTy.bits .bf16 = 32 ∨ (Rect.block (s := S4096x64) S4096x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4096x64.size a ≤ S4096x64.size a
  hwx1_4 : ∀ i : grid1.Coords, EltTy.bits .bf16 = 32 ∨ (Rect.block (s := S4096x64) S4096x64.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S4096x64.size a ≤ S4096x64.size a
  hwx1_5 : ∀ i : grid1.Coords, EltTy.bits .bf16 = 32 ∨ (Rect.block (s := S4096x64) S4096x64.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x64.size a ≤ S4096x64.size a
  hwx1_6 : ∀ i : grid1.Coords, EltTy.bits .f32 = 32 ∨ (Rect.block (s := S4096x64) S256x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S256x64.size a ≤ S4096x64.size a
  hwx1_7 : ∀ i : grid1.Coords, EltTy.bits .f32 = 32 ∨ (Rect.block (s := S4096x64) S256x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S256x4224.size a ≤ S4096x4224.size a
  hwx1_8 : ∀ i : grid1.Coords, EltTy.bits .f32 = 32 ∨ (Rect.block (s := S4096x4224) S256x4224.size (cc1_transform_8 i) (hinb1_8 i)).WholeWords (EltTy.packing .f32)

variable [Facts₀]

def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S256x64_S4096x64_S256x4096_1_1_0_0_n_n : DotDims S256x64 S4096x64 S256x4096 where
  lhsContracting := [1]
  rhsContracting := [1]
  lhsNonContracting := [0]
  rhsNonContracting := [0]
  lhsBatch := []
  rhsBatch := []
  wf := dot_S256x64_S4096x64_S256x4096_1_1_0_0_n_n_wf
def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf

abbrev win0_0 : Pipeline.Window sig grid0 :=
  Pipeline.Window.ofSpec (Memref.whole main_arg0) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S64x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S64x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v0_0) S512x64.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v0_1) S512x64.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v0_2) S512x64.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v0_3) S512x64.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v0_4) S512x64.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v0_5) S512x64.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

abbrev win1_0 : Pipeline.Window sig grid1 :=
  Pipeline.Window.ofSpec (Memref.whole main_v0_0) S256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_3) S256x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S4096x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0_2) S4096x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v0_4) S4096x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v0_5) S4096x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg0) S256x64.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_arg1) S256x64.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v1) S256x4224.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S4096x64 : Shape := ⟨2, ![4096, 64]⟩
abbrev S64x64 : Shape := ⟨2, ![64, 64]⟩
abbrev S64 : Shape := ⟨1, ![64]⟩
abbrev S1x64 : Shape := ⟨2, ![1, 64]⟩
abbrev S_ : Shape := ⟨0, ![]⟩
abbrev S64x4096 : Shape := ⟨2, ![64, 4096]⟩
abbrev S4096x4096 : Shape := ⟨2, ![4096, 4096]⟩
abbrev S4096 : Shape := ⟨1, ![4096]⟩
abbrev S4096x1 : Shape := ⟨2, ![4096, 1]⟩
abbrev S4096x64x1 : Shape := ⟨3, ![4096, 64, 1]⟩
abbrev S4096x1x64 : Shape := ⟨3, ![4096, 1, 64]⟩
abbrev S4096x64x64 : Shape := ⟨3, ![4096, 64, 64]⟩
abbrev S4096x4224 : Shape := ⟨2, ![4096, 4224]⟩

abbrev nBuf : Space → Nat
  | .hbm => 93
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S4096x64, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S4096x64, .f32⟩
  | .hbm, ⟨15, _⟩ => ⟨S1x64, .f32⟩
  | .hbm, ⟨16, _⟩ => ⟨S4096x64, .f32⟩
  | .hbm, ⟨17, _⟩ => ⟨S4096x64, .f32⟩
  | .hbm, ⟨18, _⟩ => ⟨S4096x64, .f32⟩
  | .hbm, ⟨19, _⟩ => ⟨S1x64, .f32⟩
  | .hbm, ⟨20, _⟩ => ⟨S4096x64, .f32⟩
  | .hbm, ⟨21, _⟩ => ⟨S4096x64, .f32⟩
  | .hbm, ⟨22, _⟩ => ⟨S4096x64, .f32⟩
  | .hbm, ⟨23, _⟩ => ⟨S1x64, .f32⟩
  | .hbm, ⟨24, _⟩ => ⟨S4096x64, .f32⟩
  | .hbm, ⟨25, _⟩ => ⟨S4096x64, .f32⟩
  | .hbm, ⟨26, _⟩ => ⟨S4096x64, .f32⟩
  | .hbm, ⟨27, _⟩ => ⟨S1x64, .f32⟩
  | .hbm, ⟨28, _⟩ => ⟨S4096x64, .f32⟩
  | .hbm, ⟨29, _⟩ => ⟨S4096x64, .f32⟩
  | .hbm, ⟨30, _⟩ => ⟨S4096x64, .f32⟩
  | .hbm, ⟨31, _⟩ => ⟨S1x64, .f32⟩
  | .hbm, ⟨32, _⟩ => ⟨S4096x64, .f32⟩
  | .hbm, ⟨33, _⟩ => ⟨S4096x64, .f32⟩
  | .hbm, ⟨34, _⟩ => ⟨S4096x64, .f32⟩
  | .hbm, ⟨35, _⟩ => ⟨S1x64, .f32⟩
  | .hbm, ⟨36, _⟩ => ⟨S4096x64, .f32⟩
  | .hbm, ⟨37, _⟩ => ⟨S4096x64, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S64x4096, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S64x4096, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S_, .f32⟩
  | .hbm, ⟨51, _⟩ => ⟨S4096, .f32⟩
  | .hbm, ⟨52, _⟩ => ⟨S_, .f32⟩
  | .hbm, ⟨53, _⟩ => ⟨S4096, .f32⟩
  | .hbm, ⟨54, _⟩ => ⟨S4096, .f32⟩
  | .hbm, ⟨55, _⟩ => ⟨S4096x1, .f32⟩
  | .hbm, ⟨56, _⟩ => ⟨S4096x4096, .f32⟩
  | .hbm, ⟨57, _⟩ => ⟨S4096x4096, .f32⟩
  | .hbm, ⟨58, _⟩ => ⟨S4096x4096, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S4096x4096, .f32⟩
  | .hbm, ⟨63, _⟩ => ⟨S4096x4096, .f32⟩
  | .hbm, ⟨64, _⟩ => ⟨S_, .f32⟩
  | .hbm, ⟨65, _⟩ => ⟨S4096, .f32⟩
  | .hbm, ⟨66, _⟩ => ⟨S_, .f32⟩
  | .hbm, ⟨67, _⟩ => ⟨S4096, .f32⟩
  | .hbm, ⟨68, _⟩ => ⟨S4096, .f32⟩
  | .hbm, ⟨69, _⟩ => ⟨S4096x1, .f32⟩
  | .hbm, ⟨70, _⟩ => ⟨S4096x4096, .f32⟩
  | .hbm, ⟨71, _⟩ => ⟨S4096x4096, .f32⟩
  | .hbm, ⟨72, _⟩ => ⟨S4096x4096, .f32⟩
  | .hbm, ⟨73, _⟩ => ⟨S_, .f32⟩
  | .hbm, ⟨74, _⟩ => ⟨S4096, .f32⟩
  | .hbm, ⟨75, _⟩ => ⟨S4096x1, .f32⟩
  | .hbm, ⟨76, _⟩ => ⟨S4096x4096, .f32⟩
  | .hbm, ⟨77, _⟩ => ⟨S4096x4096, .f32⟩
  | .hbm, ⟨78, _⟩ => ⟨S4096x64, .f32⟩
  | .hbm, ⟨79, _⟩ => ⟨S4096x64, .f32⟩
  | .hbm, ⟨80, _⟩ => ⟨S4096x4096, .f32⟩
  | .hbm, ⟨81, _⟩ => ⟨S_, .f32⟩
  | .hbm, ⟨82, _⟩ => ⟨S4096, .f32⟩
  | .hbm, ⟨83, _⟩ => ⟨S4096x1, .f32⟩
  | .hbm, ⟨84, _⟩ => ⟨S4096x64, .f32⟩
  | .hbm, ⟨85, _⟩ => ⟨S4096x64, .f32⟩
  | .hbm, ⟨86, _⟩ => ⟨S4096x64x1, .f32⟩
  | .hbm, ⟨87, _⟩ => ⟨S4096x1x64, .f32⟩
  | .hbm, ⟨88, _⟩ => ⟨S4096x64x64, .f32⟩
  | .hbm, ⟨89, _⟩ => ⟨S4096x64x64, .f32⟩
  | .hbm, ⟨90, _⟩ => ⟨S4096x64x64, .f32⟩
  | .hbm, ⟨91, _⟩ => ⟨S4096x4096, .f32⟩
  | .hbm, ⟨92, _⟩ => ⟨S4096x4224, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst : Ref sig .tc := ⟨.hbm, 38, rfl⟩
abbrev main_v24 : Ref sig .tc := ⟨.hbm, 39, rfl⟩
abbrev main_cst_0 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_1 : Ref sig .tc := ⟨.hbm, 50, rfl⟩
abbrev main_v34 : Ref sig .tc := ⟨.hbm, 51, rfl⟩
abbrev main_cst_2 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_3 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_4 : Ref sig .tc := ⟨.hbm, 64, rfl⟩
abbrev main_v45 : Ref sig .tc := ⟨.hbm, 65, rfl⟩
abbrev main_cst_5 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_6 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_7 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  transposes_S4096x64_S64x4096_1_0 : S4096x64.Transposes [1, 0] S64x4096
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096x1_S4096x64_0_1 : S4096x1.BroadcastsInDim S4096x64 (![0, 1] : Fin 2 → Fin S4096x64.rank)
  bcast_S4096x64_S4096x64x1_0_1 : S4096x64.BroadcastsInDim S4096x64x1 (![0, 1] : Fin 2 → Fin S4096x64x1.rank)
  bcast_S4096x64_S4096x1x64_0_2 : S4096x64.BroadcastsInDim S4096x1x64 (![0, 2] : Fin 2 → Fin S4096x1x64.rank)
  bcast_S4096x64x1_S4096x64x64_0_1_2 : S4096x64x1.BroadcastsInDim S4096x64x64 (![0, 1, 2] : Fin 3 → Fin S4096x64x64.rank)
  bcast_S4096x1x64_S4096x64x64_0_1_2 : S4096x1x64.BroadcastsInDim S4096x64x64 (![0, 1, 2] : Fin 3 → Fin S4096x64x64.rank)
  shapeCasts_S4096x64x64_S4096x4096 : S4096x64x64.ShapeCasts S4096x4096
  concatenates_S4096x64_S4096x64_S4096x4096_S4096x4224_d1 : Shape.Concatenates [S4096x64, S4096x64, S4096x4096] S4096x4224 1
  dot_S4096x64_S64x64_S4096x64_1_0_0_1_n_n_wf : DotDims.WF S4096x64 S64x64 S4096x64 [1] [0] [0] [1] [] []
  dot_S4096x64_S64x4096_S4096x4096_1_0_0_1_n_n_wf : DotDims.WF S4096x64 S64x4096 S4096x4096 [1] [0] [0] [1] [] []
  dot_S4096x4096_S4096x64_S4096x64_1_0_0_1_n_n_wf : DotDims.WF S4096x4096 S4096x64 S4096x64 [1] [0] [0] [1] [] []

variable [Facts₀]

def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf
def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf

class Facts : Prop extends Facts₀ where

variable [Facts]
-- ==== Proof.RefRun.lean ====
/-
  The reference program's run: every weakly fair execution of its @main terminates with the result array at the
  composed term of its 79 host operations applied to the argument arrays, and the arguments unchanged.

  The run of a straight-line host program is the fold of its operations over the launch contents; each buffer is
  written once, so the contents of the result after the fold are read by walking back from the last operation to the
  arguments. The last operation here joins THREE arrays along the columns. Read through the general rule for an
  operation of n operands, its operands stay under a binder (`fun k => V (xs k)`), where the walk cannot continue;
  `join_result'` states that operation's result as the plain function `join3` of its three operands' contents, each at its
  own reference, so that the walk goes on through each of them.
-/
import proofs.«152010_j7541962572380_2_alg».proof.Proof.RefRunP

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- Three arrays joined along the columns: [4096, 64] ‖ [4096, 64] ‖ [4096, 4096]. -/
def join3 (a b : S4096x64.Idx → Elt F .f32) (c : S4096x4096.Idx → Elt F .f32) : S4096x4224.Idx → Elt F .f32 :=
  concatenate S4096x4224 1 [⟨S4096x64, a⟩, ⟨S4096x64, b⟩, ⟨S4096x4096, c⟩] concatenates_S4096x64_S4096x64_S4096x4096_S4096x4224_d1

/-- The last operation's result, from each of its three operands' contents at its own reference. -/
theorem join_result' (hxs hy) (V : Valuation τ sig (Elt F)) :
    (nary (τ := τ) ![main_v56, main_v57, main_v68] main_v69
        (fun u => concatenate S4096x4224 1 [⟨S4096x64, u 0⟩, ⟨S4096x64, u 1⟩, ⟨S4096x4096, u 2⟩]
          concatenates_S4096x64_S4096x64_S4096x4096_S4096x4224_d1) hxs hy).result V (no_index (Proc.devRef .tc main_v69))
      = join3 (V (Proc.devRef .tc main_v56)) (V (Proc.devRef .tc main_v57)) (V (Proc.devRef .tc main_v68)) :=
  (nary_result _ _ _ hxs hy V).trans rfl

set_option maxRecDepth 65536 in
set_option maxHeartbeats 31600000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v69) = res_main_v69 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v69).trans (by
        simp (disch := decide) only [after_cons, after_nil,
          nullary_result', unary_result', binary_result', ternary_result', quaternary_result', reshape_result', join_result',
          nullary_result_ne', unary_result_ne', binary_result_ne', ternary_result_ne', quaternary_result_ne', reshape_result_ne',
          nary_result_ne']
        <;> (unfold join3 res_main_v69; rfl)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl)⟩)
    (run_seq scopedRefs_eq scopedSems_eq defs main (fun _ => ops) main_eq (fun _ => ops_sub) m ρ)

end Cert.ReferenceIdeal.ValueP

end
-- ==== Proof.Spec.lean ====
/-
  The co-attention network as ONE function of its fourteen argument arrays, index by index, on the extended reals.

  Six linear layers  Q_I, K_I, V_I = X_I W + b  and  Q_M, K_M, V_M = X_M W + b  (N = 4096 rows, D = 64 features);
  two score matrices  S_IM = (Q_M K_Iᵀ) · s  and  S_MI = (Q_I K_Mᵀ) · s  with  s = 1/8 = 1/√64;
  a softmax along each row of a score matrix: with  m_n = max_k S[n,k],  p[n,k] = exp (S[n,k] - m_n),
  l_n = Σ_k p[n,k],  the attention weights are  p[n,k] / l_n;
  the attended values  F[n,e] = Σ_k (p[n,k]/l_n) V[k,e];  the row overlap  c_n = Σ_k (p[n,k]/l_n)(p'[n,k]/l'_n);
  and the bilinear term  A[n,d,e] = (c_n · X_M[n,d]) · X_I[n,e].
  The result row n is  F_IM[n,·] ‖ F_MI[n,·] ‖ A[n,·,·] flattened (64 + 64 + 64·64 = 4224 columns).

  Two arrangements of the normalisation are stated: dividing AFTER the sums over the keys (`attK`, `ovlK`) and
  dividing every weight BEFORE them (`attR`, `ovlR`).  They agree on finite inputs (the row sum l_n is then a
  positive real); on the extended reals in general they do not, since a division does not distribute over a sum
  at the infinities.
-/
import Idealize.ShloMosaic.PureOps.Ideal
import Idealize.ShloMosaic.Lib.ValueIdx

noncomputable section

namespace CoAttn

open Idealize.ShloMosaic Idealize.ShloMosaic.ValueIdx

/-- [N, D] = [4096, 64]: the inputs, and every projected array. -/
abbrev SND : Shape := ⟨2, ![4096, 64]⟩
/-- [D, D]: a weight matrix, stored [in, out]. -/
abbrev SDD : Shape := ⟨2, ![64, 64]⟩
/-- [D]: a bias. -/
abbrev SD : Shape := ⟨1, ![64]⟩
/-- [N, 2D + D·D] = [4096, 4224]: the result. -/
abbrev SOUT : Shape := ⟨2, ![4096, 4224]⟩

/-- The score scale 1/8, as the float word 0x3E000000 denotes it. -/
def scale : EReal := Ideal.ofBits .f32 0x3E000000#32

/-- A linear layer: (X W + b)[n, j] = Σ_k X[n,k] W[k,j] + b[j]. -/
def lin (X : SND.Idx → EReal) (W : SDD.Idx → EReal) (b : SD.Idx → EReal) : SND.Idx → EReal :=
  fun i => (∑ k : Fin 64, X (ix2 (i 0) k) * W (ix2 k (i 1))) + b (ix1 (i 1))

/-- A scaled score: S[n, k] = (Σ_d Q[n,d] K[k,d]) · s. -/
def score (Q K : SND.Idx → EReal) (n k : Fin 4096) : EReal :=
  (∑ d : Fin 64, Q (ix2 n d) * K (ix2 k d)) * scale

/-- The row maximum, folded from -∞. -/
def rowmax (S : Fin 4096 → Fin 4096 → EReal) (n : Fin 4096) : EReal :=
  (Finset.univ : Finset (Fin 4096)).fold max ⊥ (S n)

/-- The unnormalised weight exp (S[n,k] - m_n). -/
def pexp (S : Fin 4096 → Fin 4096 → EReal) (n k : Fin 4096) : EReal :=
  Ideal.exp (S n k - rowmax S n)

/-- The row sum l_n = Σ_k p[n,k]. -/
def rowsum (S : Fin 4096 → Fin 4096 → EReal) (n : Fin 4096) : EReal :=
  ∑ k : Fin 4096, pexp S n k

/-- Attended values, normalised after the sum: (Σ_k p[n,k] V[k,e]) / l_n. -/
def attK (S : Fin 4096 → Fin 4096 → EReal) (V : SND.Idx → EReal) (n : Fin 4096) (e : Fin 64) : EReal :=
  Ideal.div (∑ k : Fin 4096, pexp S n k * V (ix2 k e)) (rowsum S n)

/-- Attended values, every weight normalised first: Σ_k (p[n,k] / l_n) V[k,e]. -/
def attR (S : Fin 4096 → Fin 4096 → EReal) (V : SND.Idx → EReal) (n : Fin 4096) (e : Fin 64) : EReal :=
  ∑ k : Fin 4096, Ideal.div (pexp S n k) (rowsum S n) * V (ix2 k e)

/-- The row overlap, normalised after the sum: (Σ_k p[n,k] p'[n,k]) / (l_n l'_n). -/
def ovlK (S S' : Fin 4096 → Fin 4096 → EReal) (n : Fin 4096) : EReal :=
  Ideal.div (∑ k : Fin 4096, pexp S n k * pexp S' n k) (rowsum S n * rowsum S' n)

/-- The row overlap of the normalised weights: Σ_k (p[n,k]/l_n)(p'[n,k]/l'_n). -/
def ovlR (S S' : Fin 4096 → Fin 4096 → EReal) (n : Fin 4096) : EReal :=
  ∑ k : Fin 4096, Ideal.div (pexp S n k) (rowsum S n) * Ideal.div (pexp S' n k) (rowsum S' n)

/-- A result row laid out: columns 0..63 the first attended block, 64..127 the second, and column
    128 + 64 d + e the bilinear entry (c_n X_M[n,d]) X_I[n,e]. -/
def layout (F1 F2 : Fin 4096 → Fin 64 → EReal) (c : Fin 4096 → EReal) (XI XM : SND.Idx → EReal) : SOUT.Idx → EReal :=
  fun i =>
    if h1 : (i 1).val < 64 then F1 (i 0) ⟨(i 1).val, h1⟩
    else if h2 : (i 1).val < 128 then F2 (i 0) ⟨(i 1).val - 64, by omega⟩
    else (c (i 0) * XM (ix2 (i 0) ⟨((i 1).val - 128) / 64, by have h : (i 1).val < 4224 := (i 1).isLt; omega⟩))
           * XI (ix2 (i 0) ⟨((i 1).val - 128) % 64, Nat.mod_lt _ (by norm_num)⟩)

/-- The fused attention stage from the six projected arrays and the two inputs, normalising after the sums.
    Argument order: Q_I, Q_M, K_I, V_I, K_M, V_M, X_I, X_M. -/
def attnK (QI QM KI VI KM VM XI XM : SND.Idx → EReal) : SOUT.Idx → EReal :=
  layout (attK (score QM KI) VI) (attK (score QI KM) VM) (ovlK (score QM KI) (score QI KM)) XI XM

/-- The same stage with every attention weight normalised before the sums. -/
def attnR (QI QM KI VI KM VM XI XM : SND.Idx → EReal) : SOUT.Idx → EReal :=
  layout (attR (score QM KI) VI) (attR (score QI KM) VM) (ovlR (score QM KI) (score QI KM)) XI XM

/-- The whole network, normalising after the sums. Arguments in the entry point's order:
    X_I, X_M, WqI, bqI, WkI, bkI, WvI, bvI, WqM, bqM, WkM, bkM, WvM, bvM. -/
def specK (XI XM : SND.Idx → EReal) (WqI : SDD.Idx → EReal) (bqI : SD.Idx → EReal) (WkI : SDD.Idx → EReal) (bkI : SD.Idx → EReal)
    (WvI : SDD.Idx → EReal) (bvI : SD.Idx → EReal) (WqM : SDD.Idx → EReal) (bqM : SD.Idx → EReal) (WkM : SDD.Idx → EReal)
    (bkM : SD.Idx → EReal) (WvM : SDD.Idx → EReal) (bvM : SD.Idx → EReal) : SOUT.Idx → EReal :=
  attnK (lin XI WqI bqI) (lin XM WqM bqM) (lin XI WkI bkI) (lin XI WvI bvI) (lin XM WkM bkM) (lin XM WvM bvM) XI XM

/-- The whole network, every attention weight normalised before the sums. -/
def specR (XI XM : SND.Idx → EReal) (WqI : SDD.Idx → EReal) (bqI : SD.Idx → EReal) (WkI : SDD.Idx → EReal) (bkI : SD.Idx → EReal)
    (WvI : SDD.Idx → EReal) (bvI : SD.Idx → EReal) (WqM : SDD.Idx → EReal) (bqM : SD.Idx → EReal) (WkM : SDD.Idx → EReal)
    (bkM : SD.Idx → EReal) (WvM : SDD.Idx → EReal) (bvM : SD.Idx → EReal) : SOUT.Idx → EReal :=
  attnR (lin XI WqI bqI) (lin XM WqM bqM) (lin XI WkI bkI) (lin XI WvI bvI) (lin XM WkM bkM) (lin XM WvM bvM) XI XM

end CoAttn

end
-- ==== Proof.RefContract.lean ====
/-
  The host's contractions and row reductions read at an index, on the extended reals.

  A plain matrix product `dot_general` of an `[M, K]` by a `[K, N]` array (the left operand's columns contracted
  with the right operand's rows, no batch axis) has, at `(r, c)`, the value `∑ k, lhs (r, k) * rhs (k, c)`: the
  contraction index has one coordinate, and the sum over it is re-indexed by that coordinate.  A sum along the rows of
  a `[4096, 4096]` array is, at row `n`, the initial value plus `∑ k, x (n, k)`; a maximum along the rows is the fold
  of `max` from the initial value over `k ↦ x (n, k)`.  The float word 0xFF800000 denotes `-∞ = ⊥`, and 0 denotes `0`.
-/
import Idealize.ShloMosaic.PureOps.Ideal.Laws
import Idealize.ShloMosaic.Lib.ValueIdx
import Idealize.ShloMosaic.Lib.IdealHost

namespace Cert.RefSide

open Idealize.ShloMosaic Idealize.ShloMosaic.ValueIdx

/-- The word 0xFF800000 denotes `-∞`, the bottom of the extended reals. -/
theorem ofBits_neg_inf : Ideal.ofBits .f32 0xFF800000#32 = ⊥ := by
  simp [Ideal.ofBits, Ideal.ieee]

set_option backward.isDefEq.respectTransparency.types false in
/-- The host product of `[M, K]` by `[K, N]` at `(r, c)`: `∑ k, lhs (r, k) * rhs (k, c)`. -/
theorem dotGeneral_plain_apply {M K N : ℕ} {φ₁ φ₂ : FTy}
    (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (c : Fin N) :
    Host.dotGeneral d prec lhs rhs (ix2 r c) = ∑ k : Fin K, lhs (ix2 r k) * rhs (ix2 k c) := by
  obtain ⟨lc, rc, ln, rn, lb, rb, wf⟩ := d
  dsimp only at hlc hrc hln hrn hlb hrb
  subst hlc hrc hln hrn hlb hrb
  simp only [Host.dotGeneral]
  rw [Ideal.dotGeneral_apply]
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 r c)
      ((contrEquiv1 (⟨[1], [0], [0], [1], [], [], wf⟩ : DotDims ⟨2, ![M, K]⟩ ⟨2, ![K, N]⟩ ⟨2, ![M, N]⟩) K rfl rfl).symm k) = ix2 r k :=
    funext fun a => Fin.ext (by
      match a with
      | ⟨0, h0⟩ =>
        unfold DotDims.lhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 r c)
      ((contrEquiv1 (⟨[1], [0], [0], [1], [], [], wf⟩ : DotDims ⟨2, ![M, K]⟩ ⟨2, ![K, N]⟩ ⟨2, ![M, N]⟩) K rfl rfl).symm k) = ix2 k c :=
    funext fun a => Fin.ext (by
      match a with
      | ⟨0, _⟩ => exact (DotDims.rhsIdx_val_of_single _ rfl _ _).trans hk
      | ⟨1, h1⟩ =>
        unfold DotDims.rhsIdx
        rw [dif_neg (show ¬ (⟨1, h1⟩ : Fin 2) ∈ ([] : List (Fin 2)) from List.not_mem_nil),
          dif_pos (show (⟨1, h1⟩ : Fin 2) ∈ [(1 : Fin 2)] from List.mem_singleton.mpr rfl)]
        rfl)
  rw [el, er]

/-- Row `n` of a `[4096, 4096]` array with column `k` put back is the index `(n, k)`. -/
theorem rowLift_eq (h : (⟨2, ![4096, 4096]⟩ : Shape).Reduces [1] ⟨1, ![4096]⟩) (n : Fin 4096)
    (k : Fin ((⟨2, ![4096, 4096]⟩ : Shape).size 1)) : h.lift (ix1 n) k = ix2 n (⟨k.val, k.isLt⟩ : Fin 4096) :=
  funext fun a => Fin.ext (by match a with | ⟨0, _⟩ => rfl | ⟨1, _⟩ => rfl)

/-- The host's sum along the rows of a `[4096, 4096]` array, at row `n`: the initial value plus `∑ k, x (n, k)`. -/
theorem rowSum_apply {φ : FTy} (x : FVec Ideal ⟨2, ![4096, 4096]⟩ φ) (init : (⟨0, ![]⟩ : Shape).Idx → Ideal φ)
    (h' : (⟨2, ![4096, 4096]⟩ : Shape).ReducesTo [1] ⟨1, ![4096]⟩) (hu : 0 < (⟨0, ![]⟩ : Shape).numel) (n : Fin 4096) :
    Host.reduceAdd x init h' hu (ix1 n) = init (Shape.Idx.first hu) + ∑ k : Fin 4096, x (ix2 n k) := by
  have hR : (⟨2, ![4096, 4096]⟩ : Shape).Reduces [1] ⟨1, ![4096]⟩ := by decide
  rw [hostReduceAdd_apply, Ideal.hostReduceAdd_single h' hR]
  refine congrArg (_ + ·) (Finset.sum_congr rfl fun k _ => ?_)
  exact congrArg x (rowLift_eq hR n k)

/-- The host's maximum along the rows of a `[4096, 4096]` array, at row `n`: the fold of `max` from the initial value
    over the row's entries. -/
theorem rowMax_apply (x : FVec Ideal ⟨2, ![4096, 4096]⟩ .f32) (init : (⟨0, ![]⟩ : Shape).Idx → Ideal .f32)
    (h' : (⟨2, ![4096, 4096]⟩ : Shape).ReducesTo [1] ⟨1, ![4096]⟩) (hu : 0 < (⟨0, ![]⟩ : Shape).numel) (n : Fin 4096) :
    Host.reduce FloatOps.maximumf x init h' hu (ix1 n)
      = (Finset.univ : Finset (Fin 4096)).fold max (init (Shape.Idx.first hu)) (fun k => x (ix2 n k)) := by
  have hR : (⟨2, ![4096, 4096]⟩ : Shape).Reduces [1] ⟨1, ![4096]⟩ := by decide
  rw [Host.reduce_eq_fold_single FloatOps.maximumf x init h' hR hu]
  have hf : (x ∘ hR.lift (ix1 n)) = fun k : Fin 4096 => x (ix2 n k) := funext fun k => congrArg x (rowLift_eq hR n k)
  exact congrArg (fun f => Finset.fold max (init (Shape.Idx.first hu)) f (Finset.univ : Finset (Fin 4096))) hf

end Cert.RefSide
-- ==== Proof.RefBroadcast.lean ====
/-
  The reference's layout operations read at an index given by coordinates, for any element type.

  A `broadcast_in_dim` reads its operand at the result index's coordinates on the axes it names, and at `0` on the
  operand's unit axes: a bias `[64]` laid as a row `[1, 64]` and repeated down `[4096, 64]` reads `b j` at `(n, j)`; a
  row statistic `[4096]` laid as a column `[4096, 1]` and repeated along `[4096, B]` reads `v n` at `(n, k)`; the two
  factors of the bilinear term are `[4096, 64]` arrays repeated along a new last, respectively middle, axis of
  `[4096, 64, 64]`.  A transpose swaps the two coordinates, and the reshape of `[4096, 64, 64]` to `[4096, 4096]` puts
  entry `(n, d, e)` in column `64 d + e` of row `n` (both have row-major position `4096 n + 64 d + e`).
-/
import Idealize.ShloMosaic.Lib.Pipeline.Value
import Idealize.ShloMosaic.Lib.ValueIdx

namespace Cert.RefSide

open Idealize.ShloMosaic Idealize.ShloMosaic.ValueIdx

variable {α : Type}

/-- A vector `[64]` laid as the row `[1, 64]`: at `(u, j)` it reads the vector at `j`. -/
theorem bcast_vec_row_apply (h : (⟨1, ![64]⟩ : Shape).BroadcastsInDim ⟨2, ![1, 64]⟩ ![1])
    (b : (⟨1, ![64]⟩ : Shape).Idx → α) (u : Fin 1) (j : Fin 64) :
    broadcastInDim ⟨2, ![1, 64]⟩ ![1] h b (ix2 u j) = b (ix1 j) :=
  broadcastInDim_apply _ h b (ix2 u j) (ix1 j) (fun a => match a with
    | ⟨0, _⟩ => by show j.val = if (64 : Nat) = 1 then 0 else j.val; rw [if_neg (by decide)])

/-- A row `[1, 64]` repeated down `[4096, 64]`: at `(n, j)` it reads the row at `(0, j)`. -/
theorem bcast_row_rows_apply (h : (⟨2, ![1, 64]⟩ : Shape).BroadcastsInDim ⟨2, ![4096, 64]⟩ ![0, 1])
    (y : (⟨2, ![1, 64]⟩ : Shape).Idx → α) (n : Fin 4096) (j : Fin 64) :
    broadcastInDim ⟨2, ![4096, 64]⟩ ![0, 1] h y (ix2 n j) = y (ix2 (0 : Fin 1) j) :=
  broadcastInDim_apply _ h y (ix2 n j) (ix2 (0 : Fin 1) j) (fun a => match a with
    | ⟨0, _⟩ => by show 0 = if (1 : Nat) = 1 then 0 else n.val; rw [if_pos rfl]
    | ⟨1, _⟩ => by show j.val = if (64 : Nat) = 1 then 0 else j.val; rw [if_neg (by decide)])

/-- A vector `[4096]` laid as the column `[4096, 1]`: at `(n, u)` it reads the vector at `n`. -/
theorem bcast_vec_col_apply (h : (⟨1, ![4096]⟩ : Shape).BroadcastsInDim ⟨2, ![4096, 1]⟩ ![0])
    (v : (⟨1, ![4096]⟩ : Shape).Idx → α) (n : Fin 4096) (u : Fin 1) :
    broadcastInDim ⟨2, ![4096, 1]⟩ ![0] h v (ix2 n u) = v (ix1 n) :=
  broadcastInDim_apply _ h v (ix2 n u) (ix1 n) (fun a => match a with
    | ⟨0, _⟩ => by show n.val = if (4096 : Nat) = 1 then 0 else n.val; rw [if_neg (by decide)])

/-- A column `[4096, 1]` repeated along `[4096, B]`: at `(n, k)` it reads the column at `(n, 0)`. -/
theorem bcast_col_cols_apply {B : ℕ} (h : (⟨2, ![4096, 1]⟩ : Shape).BroadcastsInDim ⟨2, ![4096, B]⟩ ![0, 1])
    (y : (⟨2, ![4096, 1]⟩ : Shape).Idx → α) (n : Fin 4096) (k : Fin B) :
    broadcastInDim ⟨2, ![4096, B]⟩ ![0, 1] h y (ix2 n k) = y (ix2 n (0 : Fin 1)) :=
  broadcastInDim_apply _ h y (ix2 n k) (ix2 n (0 : Fin 1)) (fun a => match a with
    | ⟨0, _⟩ => by show n.val = if (4096 : Nat) = 1 then 0 else n.val; rw [if_neg (by decide)]
    | ⟨1, _⟩ => by show 0 = if (1 : Nat) = 1 then 0 else k.val; rw [if_pos rfl])

/-- An array `[4096, 64]` given a new unit last axis: at `(n, d, u)` it reads the array at `(n, d)`. -/
theorem bcast_last_unit_apply (h : (⟨2, ![4096, 64]⟩ : Shape).BroadcastsInDim ⟨3, ![4096, 64, 1]⟩ ![0, 1])
    (y : (⟨2, ![4096, 64]⟩ : Shape).Idx → α) (n : Fin 4096) (d : Fin 64) (u : Fin 1) :
    broadcastInDim ⟨3, ![4096, 64, 1]⟩ ![0, 1] h y (ix3 n d u) = y (ix2 n d) :=
  broadcastInDim_apply _ h y (ix3 n d u) (ix2 n d) (fun a => match a with
    | ⟨0, _⟩ => by show n.val = if (4096 : Nat) = 1 then 0 else n.val; rw [if_neg (by decide)]
    | ⟨1, _⟩ => by show d.val = if (64 : Nat) = 1 then 0 else d.val; rw [if_neg (by decide)])

/-- An array `[4096, 64]` given a new unit middle axis: at `(n, u, e)` it reads the array at `(n, e)`. -/
theorem bcast_mid_unit_apply (h : (⟨2, ![4096, 64]⟩ : Shape).BroadcastsInDim ⟨3, ![4096, 1, 64]⟩ ![0, 2])
    (y : (⟨2, ![4096, 64]⟩ : Shape).Idx → α) (n : Fin 4096) (u : Fin 1) (e : Fin 64) :
    broadcastInDim ⟨3, ![4096, 1, 64]⟩ ![0, 2] h y (ix3 n u e) = y (ix2 n e) :=
  broadcastInDim_apply _ h y (ix3 n u e) (ix2 n e) (fun a => match a with
    | ⟨0, _⟩ => by show n.val = if (4096 : Nat) = 1 then 0 else n.val; rw [if_neg (by decide)]
    | ⟨1, _⟩ => by show e.val = if (64 : Nat) = 1 then 0 else e.val; rw [if_neg (by decide)])

/-- `[4096, 64, 1]` repeated along the last axis of `[4096, 64, 64]`: at `(n, d, e)` it reads `(n, d, 0)`. -/
theorem bcast_last_rep_apply (h : (⟨3, ![4096, 64, 1]⟩ : Shape).BroadcastsInDim ⟨3, ![4096, 64, 64]⟩ ![0, 1, 2])
    (y : (⟨3, ![4096, 64, 1]⟩ : Shape).Idx → α) (n : Fin 4096) (d e : Fin 64) :
    broadcastInDim ⟨3, ![4096, 64, 64]⟩ ![0, 1, 2] h y (ix3 n d e) = y (ix3 n d (0 : Fin 1)) :=
  broadcastInDim_apply _ h y (ix3 n d e) (ix3 n d (0 : Fin 1)) (fun a => match a with
    | ⟨0, _⟩ => by show n.val = if (4096 : Nat) = 1 then 0 else n.val; rw [if_neg (by decide)]
    | ⟨1, _⟩ => by show d.val = if (64 : Nat) = 1 then 0 else d.val; rw [if_neg (by decide)]
    | ⟨2, _⟩ => by show 0 = if (1 : Nat) = 1 then 0 else e.val; rw [if_pos rfl])

/-- `[4096, 1, 64]` repeated along the middle axis of `[4096, 64, 64]`: at `(n, d, e)` it reads `(n, 0, e)`. -/
theorem bcast_mid_rep_apply (h : (⟨3, ![4096, 1, 64]⟩ : Shape).BroadcastsInDim ⟨3, ![4096, 64, 64]⟩ ![0, 1, 2])
    (y : (⟨3, ![4096, 1, 64]⟩ : Shape).Idx → α) (n : Fin 4096) (d e : Fin 64) :
    broadcastInDim ⟨3, ![4096, 64, 64]⟩ ![0, 1, 2] h y (ix3 n d e) = y (ix3 n (0 : Fin 1) e) :=
  broadcastInDim_apply _ h y (ix3 n d e) (ix3 n (0 : Fin 1) e) (fun a => match a with
    | ⟨0, _⟩ => by show n.val = if (4096 : Nat) = 1 then 0 else n.val; rw [if_neg (by decide)]
    | ⟨1, _⟩ => by show 0 = if (1 : Nat) = 1 then 0 else d.val; rw [if_pos rfl]
    | ⟨2, _⟩ => by show e.val = if (64 : Nat) = 1 then 0 else e.val; rw [if_neg (by decide)])

/-- The transpose of a `[4096, 64]` array: at `(d, k)` it reads the array at `(k, d)`. -/
theorem transpose_swap_apply (h : (⟨2, ![4096, 64]⟩ : Shape).Transposes [1, 0] ⟨2, ![64, 4096]⟩)
    (y : (⟨2, ![4096, 64]⟩ : Shape).Idx → α) (d : Fin 64) (k : Fin 4096) :
    transpose ⟨2, ![64, 4096]⟩ [1, 0] y h (ix2 d k) = y (ix2 k d) :=
  transpose_apply [1, 0] y h (ix2 d k) (ix2 k d) (fun b => match b with
    | ⟨0, _⟩ => rfl
    | ⟨1, _⟩ => rfl)

/-- The reshape of `[4096, 64, 64]` to `[4096, 4096]`: column `64 d + e` of row `n` is entry `(n, d, e)`. -/
theorem reshape_flatten_apply (h : (⟨3, ![4096, 64, 64]⟩ : Shape).ShapeCasts ⟨2, ![4096, 4096]⟩)
    (y : (⟨3, ![4096, 64, 64]⟩ : Shape).Idx → α) (n : Fin 4096) (d e : Fin 64) :
    shapeCast ⟨2, ![4096, 4096]⟩ y h (ix2 n (⟨d.val * 64 + e.val, by omega⟩ : Fin 4096)) = y (ix3 n d e) :=
  shapeCast_apply y h _ _ (by
    rewrite [Shape.rowMajor_val_three, Shape.rowMajor_val_two]
    show (n.val * 64 + d.val) * 64 + e.val = n.val * 4096 + (d.val * 64 + e.val)
    omega)

end Cert.RefSide
-- ==== Proof.RefLinear.lean ====
/-
  A linear layer of the reference is the specification's: the host product X W, plus the bias laid as a row and
  repeated down the 4096 rows, reads  Σ_k X[n,k] W[k,j] + b[j]  at (n, j).
-/
import proofs.«152010_j7541962572380_2_alg».proof.Proof.Gen.ReferenceIdeal
import proofs.«152010_j7541962572380_2_alg».proof.Proof.Spec
import proofs.«152010_j7541962572380_2_alg».proof.Proof.RefContract
import proofs.«152010_j7541962572380_2_alg».proof.Proof.RefBroadcast

noncomputable section

namespace Cert.RefSide

open Cert.ReferenceIdeal Cert.ReferenceIdeal.Gen Idealize.ShloMosaic Idealize.ShloMosaic.ValueIdx

/-- A linear layer as the reference computes it: `dot_general`, then the broadcast bias added. -/
def linearStage (X : FVec Ideal S4096x64 .f32) (W : FVec Ideal S64x64 .f32) (b : FVec Ideal S64 .f32) :
    FVec Ideal S4096x64 .f32 :=
  addf (Host.dotGeneral dot_S4096x64_S64x64_S4096x64_1_0_0_1_n_n none X W)
    (broadcastInDim S4096x64 ![0, 1] bcast_S1x64_S4096x64_0_1 (broadcastInDim S1x64 ![1] bcast_S64_S1x64_1 b))

/-- It is the specification's linear layer. -/
theorem linearStage_eq (X : FVec Ideal S4096x64 .f32) (W : FVec Ideal S64x64 .f32) (b : FVec Ideal S64 .f32) :
    linearStage X W b = CoAttn.lin X W b := by
  funext i
  obtain ⟨n, j, rfl⟩ : ∃ (n : Fin 4096) (j : Fin 64), i = ix2 n j := ⟨i 0, i 1, eq_ix2 i⟩
  unfold linearStage CoAttn.lin
  rw [addf_apply, dotGeneral_plain_apply dot_S4096x64_S64x64_S4096x64_1_0_0_1_n_n rfl rfl rfl rfl rfl rfl,
    bcast_row_rows_apply, bcast_vec_row_apply]

end Cert.RefSide

end
-- ==== Proof.RefScale.lean ====
/-
  The score scale of the reference: 1 / sqrt 64, computed on the extended reals, is the number 1/8 that the float
  word 0x3E000000 denotes.  The word 0x42800000 denotes 64, whose ideal square root is 8; the word 0x3F800000
  denotes 1; and 1 divided by 8 is 1 * 8⁻¹ = 1/8 = 2⁻³, which is what sign 0, exponent 124, fraction 0 encodes.
-/
import Idealize.ShloMosaic.PureOps.Ideal.Laws
import Idealize.ShloMosaic.Lib.ValueIdx
import proofs.«152010_j7541962572380_2_alg».proof.Proof.Spec

noncomputable section

namespace Cert.RefSide

open Idealize.ShloMosaic Idealize.ShloMosaic.ValueIdx

/-- The word 0x42800000 denotes the real number 64. -/
theorem ofBits_sixtyfour : Ideal.ofBits .f32 0x42800000#32 = ((64 : ℝ) : EReal) := by
  simp [Ideal.ofBits, Ideal.ieee, -EReal.coe_mul]; norm_num

/-- The word 0x3F800000 denotes the real number 1. -/
theorem ofBits_one : Ideal.ofBits .f32 0x3F800000#32 = ((1 : ℝ) : EReal) := by
  simp [Ideal.ofBits, Ideal.ieee, -EReal.coe_mul]; norm_num

/-- The word 0x3E000000 denotes the real number 1/8. -/
theorem ofBits_eighth : Ideal.ofBits .f32 0x3E000000#32 = (((1 : ℝ) / 8 : ℝ) : EReal) := by
  simp [Ideal.ofBits, Ideal.ieee, -EReal.coe_mul]; norm_num

/-- The square root of 64 is 8. -/
theorem sqrt_sixtyfour : Real.sqrt 64 = 8 := by
  rw [show (64 : ℝ) = 8 ^ 2 by norm_num]
  exact Real.sqrt_sq (by norm_num)

/-- 1 / sqrt 64 on the extended reals is the score scale 1/8. -/
theorem one_div_sqrt_sixtyfour :
    Ideal.div (Ideal.ofBits .f32 0x3F800000#32) (Ideal.sqrt (Ideal.ofBits .f32 0x42800000#32)) = CoAttn.scale := by
  unfold CoAttn.scale
  rw [ofBits_one, ofBits_sixtyfour, ofBits_eighth, Ideal.sqrt_coe, if_neg (by norm_num), sqrt_sixtyfour,
    Ideal.div_coe (by norm_num), ← EReal.coe_mul, one_mul]

/-- The reference's scale: the constant 1 divided by the host square root of the constant 64, both rank-0 arrays. -/
def scaleStage : FVec Ideal ⟨0, ![]⟩ .f32 :=
  Host.divf (constant ⟨0, ![]⟩ .f32 0x3F800000#32) (Host.sqrt (constant ⟨0, ![]⟩ .f32 0x42800000#32))

/-- It reads the score scale at its one index. -/
theorem scaleStage_apply (i : (⟨0, ![]⟩ : Shape).Idx) : scaleStage i = CoAttn.scale :=
  one_div_sqrt_sixtyfour

end Cert.RefSide

end
-- ==== Proof.RefScores.lean ====
/-
  A scaled score matrix of the reference is the specification's: the host product of Q with the transpose of K, times
  the broadcast scale, reads  (Σ_d Q[n,d] K[k,d]) · (1/8)  at (n, k).
-/
import proofs.«152010_j7541962572380_2_alg».proof.Proof.Gen.ReferenceIdeal
import proofs.«152010_j7541962572380_2_alg».proof.Proof.Spec
import proofs.«152010_j7541962572380_2_alg».proof.Proof.RefContract
import proofs.«152010_j7541962572380_2_alg».proof.Proof.RefBroadcast
import proofs.«152010_j7541962572380_2_alg».proof.Proof.RefScale

noncomputable section

namespace Cert.RefSide

open Cert.ReferenceIdeal Cert.ReferenceIdeal.Gen Idealize.ShloMosaic Idealize.ShloMosaic.ValueIdx

/-- A score matrix as the reference computes it: Q times the transposed K, times the scale broadcast to every entry. -/
def scoreStage (Q K : FVec Ideal S4096x64 .f32) : FVec Ideal S4096x4096 .f32 :=
  mulf (Host.dotGeneral dot_S4096x64_S64x4096_S4096x4096_1_0_0_1_n_n none Q
      (transpose S64x4096 [1, 0] K transposes_S4096x64_S64x4096_1_0))
    (broadcastInDim S4096x4096 ![] bcast_S_S4096x4096 scaleStage)

/-- It reads the specification's scaled score. -/
theorem scoreStage_apply (Q K : FVec Ideal S4096x64 .f32) (n k : Fin 4096) :
    scoreStage Q K (ix2 n k) = CoAttn.score Q K n k := by
  unfold scoreStage CoAttn.score
  rw [mulf_apply, dotGeneral_plain_apply dot_S4096x64_S64x4096_S4096x4096_1_0_0_1_n_n rfl rfl rfl rfl rfl rfl,
    broadcastInDim_scalar_apply, scaleStage_apply]
  refine congrArg (· * CoAttn.scale) (Finset.sum_congr rfl fun d _ => ?_)
  rw [transpose_swap_apply]

end Cert.RefSide

end
-- ==== Proof.RefSoftmax.lean ====
/-
  The reference's softmax along the rows of a score matrix, read at an index.

  For a score matrix S the reference takes the row maximum m_n (a fold of max from -∞, and once more the maximum with
  -∞, which changes nothing), the exponentials p[n,k] = exp (S[n,k] - m_n), the row sum l_n = 0 + Σ_k p[n,k] and the
  quotient p[n,k] / l_n: exactly the specification's `rowmax`, `pexp`, `rowsum`, with every weight divided by its row sum.
-/
import proofs.«152010_j7541962572380_2_alg».proof.Proof.Gen.ReferenceIdeal
import proofs.«152010_j7541962572380_2_alg».proof.Proof.Spec
import proofs.«152010_j7541962572380_2_alg».proof.Proof.RefContract
import proofs.«152010_j7541962572380_2_alg».proof.Proof.RefBroadcast

noncomputable section

namespace Cert.RefSide

open Cert.ReferenceIdeal Cert.ReferenceIdeal.Gen Idealize.ShloMosaic Idealize.ShloMosaic.ValueIdx

/-- A `[4096, 4096]` array as a function of its two coordinates. -/
abbrev coords (S : FVec Ideal S4096x4096 .f32) : Fin 4096 → Fin 4096 → EReal := fun n k => S (ix2 n k)

/-- The row maximum as the reference computes it: the reduce from -∞, then the maximum with a broadcast -∞. -/
def rowMaxStage (S : FVec Ideal S4096x4096 .f32) : FVec Ideal S4096 .f32 :=
  maximumf (broadcastInDim S4096 ![] bcast_S_S4096 (constant S_ .f32 0xFF800000#32))
    (Host.reduce FloatOps.maximumf S (constant S_ .f32 0xFF800000#32) reducesTo_S4096x4096_S4096_d1 h_S_)

/-- The exponentials of the scores shifted by their row maximum. -/
def expStage (S : FVec Ideal S4096x4096 .f32) : FVec Ideal S4096x4096 .f32 :=
  Host.exp (subf S (broadcastInDim S4096x4096 ![0, 1] bcast_S4096x1_S4096x4096_0_1
    (broadcastInDim S4096x1 ![0] bcast_S4096_S4096x1_0 (rowMaxStage S))))

/-- The sum along the rows, from the constant 0. -/
def rowSumStage (P : FVec Ideal S4096x4096 .f32) : FVec Ideal S4096 .f32 :=
  Host.reduceAdd P (constant S_ .f32 0x00000000#32) reducesTo_S4096x4096_S4096_d1 h_S_

/-- The softmax weights: every exponential divided by its row's sum. -/
def softmaxStage (S : FVec Ideal S4096x4096 .f32) : FVec Ideal S4096x4096 .f32 :=
  Host.divf (expStage S) (broadcastInDim S4096x4096 ![0, 1] bcast_S4096x1_S4096x4096_0_1
    (broadcastInDim S4096x1 ![0] bcast_S4096_S4096x1_0 (rowSumStage (expStage S))))

theorem rowMaxStage_apply (S : FVec Ideal S4096x4096 .f32) (n : Fin 4096) :
    rowMaxStage S (ix1 n) = CoAttn.rowmax (coords S) n := by
  unfold rowMaxStage CoAttn.rowmax
  rw [maximumf_apply, broadcastInDim_scalar_apply, rowMax_apply, constant_apply, constant_apply, ofBits_neg_inf]
  exact max_bot_left _

theorem expStage_apply (S : FVec Ideal S4096x4096 .f32) (n k : Fin 4096) :
    expStage S (ix2 n k) = CoAttn.pexp (coords S) n k := by
  unfold expStage CoAttn.pexp
  show Ideal.exp (S (ix2 n k) - _) = _
  rw [bcast_col_cols_apply, bcast_vec_col_apply, rowMaxStage_apply]

theorem rowSumStage_apply (P : FVec Ideal S4096x4096 .f32) (n : Fin 4096) :
    rowSumStage P (ix1 n) = ∑ k : Fin 4096, P (ix2 n k) := by
  unfold rowSumStage
  rw [rowSum_apply, constant_apply, Ideal.ofBits_zero_f32, zero_add]

theorem softmaxStage_apply (S : FVec Ideal S4096x4096 .f32) (n k : Fin 4096) :
    softmaxStage S (ix2 n k) = Ideal.div (CoAttn.pexp (coords S) n k) (CoAttn.rowsum (coords S) n) := by
  unfold softmaxStage CoAttn.rowsum
  rw [hostDivf_apply, bcast_col_cols_apply, bcast_vec_col_apply, rowSumStage_apply, expStage_apply]
  simp only [expStage_apply]

end Cert.RefSide

end
-- ==== Proof.RefAttend.lean ====
/-
  The reference's attended values and row overlap, read at an index.

  With A the softmax weights of a score matrix S (every p[n,k] divided by l_n), the product A V reads
  Σ_k (p[n,k] / l_n) V[k,e]  at (n, e): the specification's `attR`.  The row sum of the entrywise product of two
  weight matrices reads  Σ_k (p[n,k] / l_n)(p'[n,k] / l'_n)  at n: the specification's `ovlR`.
-/
import proofs.«152010_j7541962572380_2_alg».proof.Proof.Gen.ReferenceIdeal
import proofs.«152010_j7541962572380_2_alg».proof.Proof.Spec
import proofs.«152010_j7541962572380_2_alg».proof.Proof.RefContract
import proofs.«152010_j7541962572380_2_alg».proof.Proof.RefSoftmax

noncomputable section

namespace Cert.RefSide

open Cert.ReferenceIdeal Cert.ReferenceIdeal.Gen Idealize.ShloMosaic Idealize.ShloMosaic.ValueIdx

/-- Weights times values: the host product of a `[4096, 4096]` by a `[4096, 64]` array. -/
def attendStage (A : FVec Ideal S4096x4096 .f32) (V : FVec Ideal S4096x64 .f32) : FVec Ideal S4096x64 .f32 :=
  Host.dotGeneral dot_S4096x4096_S4096x64_S4096x64_1_0_0_1_n_n none A V

/-- The row sum of the entrywise product of two `[4096, 4096]` arrays, from the constant 0. -/
def overlapStage (A B : FVec Ideal S4096x4096 .f32) : FVec Ideal S4096 .f32 :=
  Host.reduceAdd (mulf A B) (constant S_ .f32 0x00000000#32) reducesTo_S4096x4096_S4096_d1 h_S_

theorem attendStage_apply (A : FVec Ideal S4096x4096 .f32) (V : FVec Ideal S4096x64 .f32) (n : Fin 4096) (e : Fin 64) :
    attendStage A V (ix2 n e) = ∑ k : Fin 4096, A (ix2 n k) * V (ix2 k e) :=
  dotGeneral_plain_apply dot_S4096x4096_S4096x64_S4096x64_1_0_0_1_n_n rfl rfl rfl rfl rfl rfl none A V n e

theorem overlapStage_apply (A B : FVec Ideal S4096x4096 .f32) (n : Fin 4096) :
    overlapStage A B (ix1 n) = ∑ k : Fin 4096, A (ix2 n k) * B (ix2 n k) := by
  unfold overlapStage
  rw [rowSum_apply, constant_apply, Ideal.ofBits_zero_f32, zero_add]
  rfl

/-- The softmax weights of S times the values V: the specification's attended values, every weight normalised
    before the sum. -/
theorem attend_softmax_apply (S : FVec Ideal S4096x4096 .f32) (V : FVec Ideal S4096x64 .f32) (n : Fin 4096) (e : Fin 64) :
    attendStage (softmaxStage S) V (ix2 n e) = CoAttn.attR (coords S) V n e := by
  unfold CoAttn.attR
  rw [attendStage_apply]
  simp only [softmaxStage_apply]

/-- The row overlap of the softmax weights of S and S': the specification's overlap of the normalised weights. -/
theorem overlap_softmax_apply (S S' : FVec Ideal S4096x4096 .f32) (n : Fin 4096) :
    overlapStage (softmaxStage S) (softmaxStage S') (ix1 n) = CoAttn.ovlR (coords S) (coords S') n := by
  unfold CoAttn.ovlR
  rw [overlapStage_apply]
  simp only [softmaxStage_apply]

end Cert.RefSide

end
-- ==== Proof.RefBilinear.lean ====
/-
  The reference's bilinear term, read at an index.

  A row statistic c is laid as a column and repeated along 64 columns, multiplied entrywise by X_M, and the product
  repeated along a new last axis; X_I is repeated along a new middle axis; the two `[4096, 64, 64]` arrays are
  multiplied and flattened to `[4096, 4096]`.  Column 64 d + e of row n is (c_n · X_M[n,d]) · X_I[n,e].
-/
import proofs.«152010_j7541962572380_2_alg».proof.Proof.Gen.ReferenceIdeal
import proofs.«152010_j7541962572380_2_alg».proof.Proof.RefBroadcast

noncomputable section

namespace Cert.RefSide

open Cert.ReferenceIdeal Cert.ReferenceIdeal.Gen Idealize.ShloMosaic Idealize.ShloMosaic.ValueIdx

/-- The bilinear term as the reference computes it. -/
def bilinearStage (c : FVec Ideal S4096 .f32) (XM XI : FVec Ideal S4096x64 .f32) : FVec Ideal S4096x4096 .f32 :=
  shapeCast S4096x4096
    (mulf
      (broadcastInDim S4096x64x64 ![0, 1, 2] bcast_S4096x64x1_S4096x64x64_0_1_2
        (broadcastInDim S4096x64x1 ![0, 1] bcast_S4096x64_S4096x64x1_0_1
          (mulf (broadcastInDim S4096x64 ![0, 1] bcast_S4096x1_S4096x64_0_1
            (broadcastInDim S4096x1 ![0] bcast_S4096_S4096x1_0 c)) XM)))
      (broadcastInDim S4096x64x64 ![0, 1, 2] bcast_S4096x1x64_S4096x64x64_0_1_2
        (broadcastInDim S4096x1x64 ![0, 2] bcast_S4096x64_S4096x1x64_0_2 XI)))
    shapeCasts_S4096x64x64_S4096x4096

theorem bilinearStage_apply (c : FVec Ideal S4096 .f32) (XM XI : FVec Ideal S4096x64 .f32) (n : Fin 4096) (d e : Fin 64) :
    bilinearStage c XM XI (ix2 n (⟨d.val * 64 + e.val, by omega⟩ : Fin 4096))
      = (c (ix1 n) * XM (ix2 n d)) * XI (ix2 n e) := by
  unfold bilinearStage
  rw [reshape_flatten_apply, mulf_apply, bcast_last_rep_apply, bcast_last_unit_apply, mulf_apply, bcast_col_cols_apply,
    bcast_vec_col_apply, bcast_mid_rep_apply, bcast_mid_unit_apply]

end Cert.RefSide

end
-- ==== Proof.RefLayout.lean ====
/-
  The result row as a concatenation of three blocks along the columns, read at an index.

  A concatenation along axis 1 of two `[4096, 64]` arrays and one `[4096, 4096]` array is a `[4096, 4224]` array whose
  entry `(n, c)` comes from the first piece at `(n, c)` when `c < 64`, from the second at `(n, c - 64)` when
  `64 ≤ c < 128`, and from the third at `(n, c - 128)` otherwise: the pieces before each have 0, 64 and 128 columns.
-/
import Idealize.ShloMosaic.Lib.Pipeline.Value
import Idealize.ShloMosaic.Lib.ValueIdx

namespace Cert.RefSide

open Idealize.ShloMosaic Idealize.ShloMosaic.ValueIdx

variable {α : Type}

/-- Columns `0 … 63` of the concatenation are the first piece. -/
theorem concat3_first_apply (A B : (⟨2, ![4096, 64]⟩ : Shape).Idx → α) (C : (⟨2, ![4096, 4096]⟩ : Shape).Idx → α)
    (h : Shape.Concatenates [(⟨2, ![4096, 64]⟩ : Shape), ⟨2, ![4096, 64]⟩, ⟨2, ![4096, 4096]⟩] ⟨2, ![4096, 4224]⟩ 1)
    (n : Fin 4096) (c : Fin 4224) (hc : c.val < 64) :
    concatenate ⟨2, ![4096, 4224]⟩ 1 [⟨⟨2, ![4096, 64]⟩, A⟩, ⟨⟨2, ![4096, 64]⟩, B⟩, ⟨⟨2, ![4096, 4096]⟩, C⟩] h (ix2 n c)
      = A (ix2 n ⟨c.val, hc⟩) :=
  concatenate_apply_piece (t := ⟨2, ![4096, 4224]⟩) 1 [⟨⟨2, ![4096, 64]⟩, A⟩, ⟨⟨2, ![4096, 64]⟩, B⟩, ⟨⟨2, ![4096, 4096]⟩, C⟩] h (ix2 n c) 0 (by show 0 < 3; omega) _ A rfl rfl 0 rfl (ix2 n ⟨c.val, hc⟩)
    (fun b => match b with
      | ⟨0, _⟩ => fun _ => rfl
      | ⟨1, _⟩ => fun hb => absurd (Fin.ext rfl) hb)
    (Nat.zero_add _)

/-- Columns `64 … 127` of the concatenation are the second piece. -/
theorem concat3_second_apply (A B : (⟨2, ![4096, 64]⟩ : Shape).Idx → α) (C : (⟨2, ![4096, 4096]⟩ : Shape).Idx → α)
    (h : Shape.Concatenates [(⟨2, ![4096, 64]⟩ : Shape), ⟨2, ![4096, 64]⟩, ⟨2, ![4096, 4096]⟩] ⟨2, ![4096, 4224]⟩ 1)
    (n : Fin 4096) (c : Fin 4224) (h1 : ¬ c.val < 64) (h2 : c.val < 128) :
    concatenate ⟨2, ![4096, 4224]⟩ 1 [⟨⟨2, ![4096, 64]⟩, A⟩, ⟨⟨2, ![4096, 64]⟩, B⟩, ⟨⟨2, ![4096, 4096]⟩, C⟩] h (ix2 n c)
      = B (ix2 n ⟨c.val - 64, by omega⟩) :=
  concatenate_apply_piece (t := ⟨2, ![4096, 4224]⟩) 1 [⟨⟨2, ![4096, 64]⟩, A⟩, ⟨⟨2, ![4096, 64]⟩, B⟩, ⟨⟨2, ![4096, 4096]⟩, C⟩] h (ix2 n c) 1 (by show 1 < 3; omega) _ B rfl rfl 64 rfl (ix2 n ⟨c.val - 64, by omega⟩)
    (fun b => match b with
      | ⟨0, _⟩ => fun _ => rfl
      | ⟨1, _⟩ => fun hb => absurd (Fin.ext rfl) hb)
    (by show 64 + (c.val - 64) = c.val; omega)

/-- Columns `128 … 4223` of the concatenation are the third piece. -/
theorem concat3_third_apply (A B : (⟨2, ![4096, 64]⟩ : Shape).Idx → α) (C : (⟨2, ![4096, 4096]⟩ : Shape).Idx → α)
    (h : Shape.Concatenates [(⟨2, ![4096, 64]⟩ : Shape), ⟨2, ![4096, 64]⟩, ⟨2, ![4096, 4096]⟩] ⟨2, ![4096, 4224]⟩ 1)
    (n : Fin 4096) (c : Fin 4224) (h2 : ¬ c.val < 128) :
    concatenate ⟨2, ![4096, 4224]⟩ 1 [⟨⟨2, ![4096, 64]⟩, A⟩, ⟨⟨2, ![4096, 64]⟩, B⟩, ⟨⟨2, ![4096, 4096]⟩, C⟩] h (ix2 n c)
      = C (ix2 n ⟨c.val - 128, by have := c.isLt; omega⟩) :=
  concatenate_apply_piece (t := ⟨2, ![4096, 4224]⟩) 1 [⟨⟨2, ![4096, 64]⟩, A⟩, ⟨⟨2, ![4096, 64]⟩, B⟩, ⟨⟨2, ![4096, 4096]⟩, C⟩] h (ix2 n c) 2 (by show 2 < 3; omega) _ C rfl rfl 128 rfl (ix2 n ⟨c.val - 128, by have := c.isLt; omega⟩)
    (fun b => match b with
      | ⟨0, _⟩ => fun _ => rfl
      | ⟨1, _⟩ => fun hb => absurd (Fin.ext rfl) hb)
    (by show 128 + (c.val - 128) = c.val; omega)

end Cert.RefSide
-- ==== Proof.RefNetwork.lean ====
/-
  The reference's whole computation as one composition of its stages, and that composition is the specification with
  every attention weight normalised before the sums.

  The result is the concatenation, along the columns, of the two attended blocks and the flattened bilinear term.
  Column c of row n is read from the piece that holds it: the first attended block for c < 64, the second for
  64 ≤ c < 128, and for c ≥ 128 the bilinear entry (d, e) with 64 d + e = c - 128, that is d = (c - 128) / 64 and
  e = (c - 128) % 64.
-/
import proofs.«152010_j7541962572380_2_alg».proof.Proof.Gen.ReferenceIdeal
import proofs.«152010_j7541962572380_2_alg».proof.Proof.Spec
import proofs.«152010_j7541962572380_2_alg».proof.Proof.RefLinear
import proofs.«152010_j7541962572380_2_alg».proof.Proof.RefScores
import proofs.«152010_j7541962572380_2_alg».proof.Proof.RefSoftmax
import proofs.«152010_j7541962572380_2_alg».proof.Proof.RefAttend
import proofs.«152010_j7541962572380_2_alg».proof.Proof.RefBilinear
import proofs.«152010_j7541962572380_2_alg».proof.Proof.RefLayout

noncomputable section

namespace Cert.RefSide

open Cert.ReferenceIdeal Cert.ReferenceIdeal.Gen Idealize.ShloMosaic Idealize.ShloMosaic.ValueIdx

/-- The score matrix of the reference as a function of its two coordinates is the specification's. -/
theorem coords_scoreStage (Q K : FVec Ideal S4096x64 .f32) : coords (scoreStage Q K) = CoAttn.score Q K :=
  funext fun n => funext fun k => scoreStage_apply Q K n k

/-- The attention stage of the reference from the six projected arrays and the two inputs.
    Argument order: Q_I, Q_M, K_I, V_I, K_M, V_M, X_I, X_M. -/
def attnStage (QI QM KI VI KM VM XI XM : FVec Ideal S4096x64 .f32) : FVec Ideal S4096x4224 .f32 :=
  concatenate S4096x4224 1
    [⟨S4096x64, attendStage (softmaxStage (scoreStage QM KI)) VI⟩,
     ⟨S4096x64, attendStage (softmaxStage (scoreStage QI KM)) VM⟩,
     ⟨S4096x4096, bilinearStage (overlapStage (softmaxStage (scoreStage QM KI)) (softmaxStage (scoreStage QI KM))) XM XI⟩]
    concatenates_S4096x64_S4096x64_S4096x4096_S4096x4224_d1

/-- A laid-out result row at `(n, j)`, by the range its column falls in. -/
theorem layout_apply (F1 F2 : Fin 4096 → Fin 64 → EReal) (c : Fin 4096 → EReal) (XI XM : CoAttn.SND.Idx → EReal)
    (n : Fin 4096) (j : Fin 4224) :
    CoAttn.layout F1 F2 c XI XM (ix2 n j)
      = if h1 : j.val < 64 then F1 n ⟨j.val, h1⟩
        else if h2 : j.val < 128 then F2 n ⟨j.val - 64, by omega⟩
        else (c n * XM (ix2 n ⟨(j.val - 128) / 64, by have h : j.val < 4224 := j.isLt; omega⟩))
          * XI (ix2 n ⟨(j.val - 128) % 64, Nat.mod_lt _ (by norm_num)⟩) := rfl

/-- It is the specification's attention stage, every weight normalised before the sums. -/
theorem attnStage_eq (QI QM KI VI KM VM XI XM : FVec Ideal S4096x64 .f32) :
    attnStage QI QM KI VI KM VM XI XM = CoAttn.attnR QI QM KI VI KM VM XI XM := by
  funext i
  obtain ⟨n, c, rfl⟩ : ∃ (n : Fin 4096) (c : Fin 4224), i = ix2 n c := ⟨i 0, i 1, eq_ix2 i⟩
  unfold attnStage CoAttn.attnR
  rw [layout_apply]
  by_cases h1 : c.val < 64
  · rw [dif_pos h1, concat3_first_apply _ _ _ _ n c h1, attend_softmax_apply, coords_scoreStage]
  · rw [dif_neg h1]
    by_cases h2 : c.val < 128
    · rw [dif_pos h2, concat3_second_apply _ _ _ _ n c h1 h2, attend_softmax_apply, coords_scoreStage]
    · have hc : c.val < 4224 := c.isLt
      have hd : (c.val - 128) / 64 < 64 := by omega
      have he : (c.val - 128) % 64 < 64 := Nat.mod_lt _ (by norm_num)
      have hcol : (⟨c.val - 128, by omega⟩ : Fin 4096)
          = ⟨(⟨(c.val - 128) / 64, hd⟩ : Fin 64).val * 64 + (⟨(c.val - 128) % 64, he⟩ : Fin 64).val, by
              show (c.val - 128) / 64 * 64 + (c.val - 128) % 64 < 4096; omega⟩ :=
        Fin.ext (by show c.val - 128 = (c.val - 128) / 64 * 64 + (c.val - 128) % 64; omega)
      rw [dif_neg h2, concat3_third_apply _ _ _ _ n c h2, hcol, bilinearStage_apply, overlap_softmax_apply,
        coords_scoreStage, coords_scoreStage]

/-- The reference as one function of its fourteen arguments, in the entry point's order:
    X_I, X_M, WqI, bqI, WkI, bkI, WvI, bvI, WqM, bqM, WkM, bkM, WvM, bvM. -/
def networkStage (x0 x1 : FVec Ideal S4096x64 .f32) (x2 : FVec Ideal S64x64 .f32) (x3 : FVec Ideal S64 .f32)
    (x4 : FVec Ideal S64x64 .f32) (x5 : FVec Ideal S64 .f32) (x6 : FVec Ideal S64x64 .f32) (x7 : FVec Ideal S64 .f32)
    (x8 : FVec Ideal S64x64 .f32) (x9 : FVec Ideal S64 .f32) (x10 : FVec Ideal S64x64 .f32) (x11 : FVec Ideal S64 .f32)
    (x12 : FVec Ideal S64x64 .f32) (x13 : FVec Ideal S64 .f32) : FVec Ideal S4096x4224 .f32 :=
  attnStage (linearStage x0 x2 x3) (linearStage x1 x8 x9) (linearStage x0 x4 x5) (linearStage x0 x6 x7)
    (linearStage x1 x10 x11) (linearStage x1 x12 x13) x0 x1

/-- It is the specification, every attention weight normalised before the sums. -/
theorem networkStage_eq (x0 x1 : FVec Ideal S4096x64 .f32) (x2 : FVec Ideal S64x64 .f32) (x3 : FVec Ideal S64 .f32)
    (x4 : FVec Ideal S64x64 .f32) (x5 : FVec Ideal S64 .f32) (x6 : FVec Ideal S64x64 .f32) (x7 : FVec Ideal S64 .f32)
    (x8 : FVec Ideal S64x64 .f32) (x9 : FVec Ideal S64 .f32) (x10 : FVec Ideal S64x64 .f32) (x11 : FVec Ideal S64 .f32)
    (x12 : FVec Ideal S64x64 .f32) (x13 : FVec Ideal S64 .f32) :
    networkStage x0 x1 x2 x3 x4 x5 x6 x7 x8 x9 x10 x11 x12 x13
      = CoAttn.specR x0 x1 x2 x3 x4 x5 x6 x7 x8 x9 x10 x11 x12 x13 := by
  unfold networkStage CoAttn.specR
  rw [attnStage_eq, linearStage_eq, linearStage_eq, linearStage_eq, linearStage_eq, linearStage_eq, linearStage_eq]

end Cert.RefSide

end
-- ==== Proof.RefSpec.lean ====
/-
  The reference program's result array, read at the ideal instance, is the specification with every attention weight
  normalised before the sums.

  Each stage of the reference's run is, by unfolding its definition, one of the stage functions analysed on their
  own: the six linear layers, the two scaled score matrices, their row softmaxes, the two weights-times-values
  products, the row overlap, the bilinear term and the final concatenation.  Composed, they are the network function,
  which is the specification.
-/
import proofs.«152010_j7541962572380_2_alg».proof.Proof.RefReadP
import proofs.«152010_j7541962572380_2_alg».proof.Proof.RefNetwork

noncomputable section

namespace Cert.RefSide

open Cert.ReferenceIdeal Cert.ReferenceIdeal.Gen Cert.ReferenceIdeal.ReadP Idealize.ShloMosaic

variable (x0 x1 : (⟨S4096x64, .f32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal))
  (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal))
  (x12 : (⟨S64x64, .f32⟩ : BufTy).Contents (Elt Ideal)) (x13 : (⟨S64, .f32⟩ : BufTy).Contents (Elt Ideal))

/-! The six linear layers. -/

theorem stage_v3 : val_main_v3 (F := Ideal) x0 x2 x3 = linearStage x0 x2 x3 := rfl
theorem stage_v7 : val_main_v7 (F := Ideal) x0 x4 x5 = linearStage x0 x4 x5 := rfl
theorem stage_v11 : val_main_v11 (F := Ideal) x0 x6 x7 = linearStage x0 x6 x7 := rfl
theorem stage_v15 : val_main_v15 (F := Ideal) x1 x8 x9 = linearStage x1 x8 x9 := rfl
theorem stage_v19 : val_main_v19 (F := Ideal) x1 x10 x11 = linearStage x1 x10 x11 := rfl
theorem stage_v23 : val_main_v23 (F := Ideal) x1 x12 x13 = linearStage x1 x12 x13 := rfl

/-! The two scaled score matrices: Q_M against K_I, and Q_I against K_M. -/

theorem stage_v29 : val_main_v29 (F := Ideal) x0 x1 x4 x5 x8 x9
    = scoreStage (val_main_v15 (F := Ideal) x1 x8 x9) (val_main_v7 (F := Ideal) x0 x4 x5) := rfl
theorem stage_v33 : val_main_v33 (F := Ideal) x0 x1 x2 x3 x10 x11
    = scoreStage (val_main_v3 (F := Ideal) x0 x2 x3) (val_main_v19 (F := Ideal) x1 x10 x11) := rfl

/-! Their row softmaxes. -/

theorem stage_v44 : val_main_v44 (F := Ideal) x0 x1 x4 x5 x8 x9
    = softmaxStage (val_main_v29 (F := Ideal) x0 x1 x4 x5 x8 x9) := rfl
theorem stage_v55 : val_main_v55 (F := Ideal) x0 x1 x2 x3 x10 x11
    = softmaxStage (val_main_v33 (F := Ideal) x0 x1 x2 x3 x10 x11) := rfl

/-! Weights times values, the row overlap, and the bilinear term. -/

theorem stage_v56 : val_main_v56 (F := Ideal) x0 x1 x4 x5 x6 x7 x8 x9
    = attendStage (val_main_v44 (F := Ideal) x0 x1 x4 x5 x8 x9) (val_main_v11 (F := Ideal) x0 x6 x7) := rfl
theorem stage_v57 : val_main_v57 (F := Ideal) x0 x1 x2 x3 x10 x11 x12 x13
    = attendStage (val_main_v55 (F := Ideal) x0 x1 x2 x3 x10 x11) (val_main_v23 (F := Ideal) x1 x12 x13) := rfl
theorem stage_v59 : val_main_v59 (F := Ideal) x0 x1 x2 x3 x4 x5 x8 x9 x10 x11
    = overlapStage (val_main_v44 (F := Ideal) x0 x1 x4 x5 x8 x9) (val_main_v55 (F := Ideal) x0 x1 x2 x3 x10 x11) := rfl
theorem stage_v68 : val_main_v68 (F := Ideal) x0 x1 x2 x3 x4 x5 x8 x9 x10 x11
    = bilinearStage (val_main_v59 (F := Ideal) x0 x1 x2 x3 x4 x5 x8 x9 x10 x11) x1 x0 := rfl

/-- The reference's result stage is the composition of the stage functions. -/
theorem stage_v69 : val_main_v69 (F := Ideal) x0 x1 x2 x3 x4 x5 x6 x7 x8 x9 x10 x11 x12 x13
    = networkStage x0 x1 x2 x3 x4 x5 x6 x7 x8 x9 x10 x11 x12 x13 := by
  unfold val_main_v69 networkStage attnStage
  rw [stage_v56, stage_v57, stage_v68, stage_v59, stage_v44, stage_v55, stage_v29, stage_v33, stage_v3, stage_v7,
    stage_v11, stage_v15, stage_v19, stage_v23]

/-- **The reference side.** The reference program's result array at the ideal instance is `CoAttn.specR` of its
    fourteen arguments (X_I, X_M, WqI, bqI, WkI, bkI, WvI, bvI, WqM, bqM, WkM, bkM, WvM, bvM). -/
theorem ref_eq : val_main_v69 (F := Ideal) x0 x1 x2 x3 x4 x5 x6 x7 x8 x9 x10 x11 x12 x13
    = CoAttn.specR x0 x1 x2 x3 x4 x5 x6 x7 x8 x9 x10 x11 x12 x13 :=
  (stage_v69 x0 x1 x2 x3 x4 x5 x6 x7 x8 x9 x10 x11 x12 x13).trans
    (networkStage_eq x0 x1 x2 x3 x4 x5 x6 x7 x8 x9 x10 x11 x12 x13)

end Cert.RefSide

end
-- ==== Proof.KernelRun.lean ====
/-
  The idealized kernel's run with its RESULT named.

  @main is two pallas_call regions run one after the other. After the second, every unscoped buffer of a core holds
  what the two regions' write-backs leave: the arguments as launched, and the result array at what the second region's
  pipeline leaves of it — its blocks' write-backs folded over the grid (`Gen.W2`). This is the frame claim's run with
  that one more buffer read off the last thread state: every weakly fair execution terminates, nothing faults, the
  result array ends at `Gen.W2 … main_v1` and the fourteen arguments end unchanged.
-/
import proofs.«152010_j7541962572380_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result array at the contents the
    second region leaves (`Gen.W2` at `main_v1`) and every argument array as launched. -/
theorem run : θ_run defs (onTc (τ := τ) (main (F := F))) ⟨m, fun _ => 0, ρ⟩ (fun r => ∀ c : Dev nD,
      r.2.mem ((c.tc : Thread nD τ).loc main_v1) = W2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v1 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c),
       (h c _ (mem_uc main_arg5 (by decide))).trans (W2_main_arg5 m ρ c),
       (h c _ (mem_uc main_arg6 (by decide))).trans (W2_main_arg6 m ρ c),
       (h c _ (mem_uc main_arg7 (by decide))).trans (W2_main_arg7 m ρ c),
       (h c _ (mem_uc main_arg8 (by decide))).trans (W2_main_arg8 m ρ c),
       (h c _ (mem_uc main_arg9 (by decide))).trans (W2_main_arg9 m ρ c),
       (h c _ (mem_uc main_arg10 (by decide))).trans (W2_main_arg10 m ρ c),
       (h c _ (mem_uc main_arg11 (by decide))).trans (W2_main_arg11 m ρ c),
       (h c _ (mem_uc main_arg12 (by decide))).trans (W2_main_arg12 m ρ c),
       (h c _ (mem_uc main_arg13 (by decide))).trans (W2_main_arg13 m ρ c)⟩)

end Cert.KernelIdeal.RunValue

end
-- ==== Proof.ProjBlocks.lean ====
/-
  The blocks the projection stage reads, as entries of the arrays it finds.

  The stage runs over 8 points. At point t the two inputs' blocks are rows 512 t ... 512 t + 511 of the 4096 x 64
  arrays, all 64 columns; every weight matrix and every bias vector is read whole at every point. So entry (r, k) of
  an input block is entry (512 t + r, k) of the input, and a weight or bias block is the array itself.
-/
import proofs.«152010_j7541962572380_2_alg».proof.Proof.Gen.KernelIdeal.Frame
import Idealize.ShloMosaic.Lib.ValueIdx

noncomputable section

open Idealize.ShloMosaic Idealize.ShloMosaic.TcCoe Idealize.ShloMosaic.ValueIdx Idealize.SL.Sem
open Idealize.ShloMosaic.Pipeline (Dat)

namespace Cert.ProjSide

open Cert.KernelIdeal Cert.KernelIdeal.Gen

variable (V : (c : Dev nD) → (b : Ref sig .tc) → Buf (Elt Ideal) ((c : Thread nD τ).loc b))

/-- Where each window's block sits, point by point: the two inputs' blocks move down one block of rows per point,
    the weights' and the biases' stay at the origin. -/
theorem idx_in : ∀ t : Fin cfg0.N,
    (win0_0.index t (0 : Fin 2) = t.val ∧ win0_0.index t (1 : Fin 2) = 0)
    ∧ (win0_1.index t (0 : Fin 2) = t.val ∧ win0_1.index t (1 : Fin 2) = 0) :=
  (by decide +kernel : ∀ t : Fin grid0.N, _)

theorem idx_wt : ∀ t : Fin cfg0.N,
    (win0_2.index t (0 : Fin 2) = 0 ∧ win0_2.index t (1 : Fin 2) = 0)
    ∧ (win0_4.index t (0 : Fin 2) = 0 ∧ win0_4.index t (1 : Fin 2) = 0)
    ∧ (win0_6.index t (0 : Fin 2) = 0 ∧ win0_6.index t (1 : Fin 2) = 0)
    ∧ (win0_8.index t (0 : Fin 2) = 0 ∧ win0_8.index t (1 : Fin 2) = 0)
    ∧ (win0_10.index t (0 : Fin 2) = 0 ∧ win0_10.index t (1 : Fin 2) = 0)
    ∧ (win0_12.index t (0 : Fin 2) = 0 ∧ win0_12.index t (1 : Fin 2) = 0) :=
  (by decide +kernel : ∀ t : Fin grid0.N, _)

theorem idx_bias : ∀ t : Fin cfg0.N,
    win0_3.index t (0 : Fin 1) = 0
    ∧ win0_5.index t (0 : Fin 1) = 0
    ∧ win0_7.index t (0 : Fin 1) = 0
    ∧ win0_9.index t (0 : Fin 1) = 0
    ∧ win0_11.index t (0 : Fin 1) = 0
    ∧ win0_13.index t (0 : Fin 1) = 0 :=
  (by decide +kernel : ∀ t : Fin grid0.N, _)

/-- Entry (r, k) of input 0's block at point t is entry (512 t + r, k) of the input. -/
theorem xblock0_apply (c : Dev nD) (t : Fin cfg0.N) (r : Fin 512) (k : Fin 64) (a : Fin 4096) (ha : a.val = t.val * 512 + r.val) :
    (iblk0 V c 0 t : Vec Ideal S512x64 .f32) (ix2 r k) = (V c main_arg0 : S4096x64.Idx → EReal) (ix2 a k) := by
  have e := (idx_in t).1
  unfold iblk0
  rw [View.read_apply]
  show V c main_arg0 _ = V c main_arg0 _
  congr 1
  funext d
  apply Fin.ext
  match d with
  | ⟨0, _⟩ => show win0_0.index t (0 : Fin 2) * 512 + 1 * r.val = a.val; rw [e.1, ha]; omega
  | ⟨1, _⟩ => show win0_0.index t (1 : Fin 2) * 64 + 1 * k.val = k.val; rw [e.2]; omega

/-- Entry (r, k) of input 1's block at point t is entry (512 t + r, k) of the input. -/
theorem xblock1_apply (c : Dev nD) (t : Fin cfg0.N) (r : Fin 512) (k : Fin 64) (a : Fin 4096) (ha : a.val = t.val * 512 + r.val) :
    (iblk0 V c 1 t : Vec Ideal S512x64 .f32) (ix2 r k) = (V c main_arg1 : S4096x64.Idx → EReal) (ix2 a k) := by
  have e := (idx_in t).2
  unfold iblk0
  rw [View.read_apply]
  show V c main_arg1 _ = V c main_arg1 _
  congr 1
  funext d
  apply Fin.ext
  match d with
  | ⟨0, _⟩ => show win0_1.index t (0 : Fin 2) * 512 + 1 * r.val = a.val; rw [e.1, ha]; omega
  | ⟨1, _⟩ => show win0_1.index t (1 : Fin 2) * 64 + 1 * k.val = k.val; rw [e.2]; omega

/-- Weight window 2's block at any point is the whole matrix. -/
theorem wblock2_eq (c : Dev nD) (t : Fin cfg0.N) :
    (iblk0 V c 2 t : Vec Ideal S64x64 .f32) = (V c main_arg2 : S64x64.Idx → EReal) := by
  have e := (idx_wt t).1
  funext x
  unfold iblk0
  rw [View.read_apply]
  show V c main_arg2 _ = V c main_arg2 _
  congr 1
  funext d
  apply Fin.ext
  match d with
  | ⟨0, _⟩ => show win0_2.index t (0 : Fin 2) * 64 + 1 * (x 0).val = (x 0).val; rw [e.1]; omega
  | ⟨1, _⟩ => show win0_2.index t (1 : Fin 2) * 64 + 1 * (x 1).val = (x 1).val; rw [e.2]; omega

/-- Weight window 4's block at any point is the whole matrix. -/
theorem wblock4_eq (c : Dev nD) (t : Fin cfg0.N) :
    (iblk0 V c 4 t : Vec Ideal S64x64 .f32) = (V c main_arg4 : S64x64.Idx → EReal) := by
  have e := (idx_wt t).2.1
  funext x
  unfold iblk0
  rw [View.read_apply]
  show V c main_arg4 _ = V c main_arg4 _
  congr 1
  funext d
  apply Fin.ext
  match d with
  | ⟨0, _⟩ => show win0_4.index t (0 : Fin 2) * 64 + 1 * (x 0).val = (x 0).val; rw [e.1]; omega
  | ⟨1, _⟩ => show win0_4.index t (1 : Fin 2) * 64 + 1 * (x 1).val = (x 1).val; rw [e.2]; omega

/-- Weight window 6's block at any point is the whole matrix. -/
theorem wblock6_eq (c : Dev nD) (t : Fin cfg0.N) :
    (iblk0 V c 6 t : Vec Ideal S64x64 .f32) = (V c main_arg6 : S64x64.Idx → EReal) := by
  have e := (idx_wt t).2.2.1
  funext x
  unfold iblk0
  rw [View.read_apply]
  show V c main_arg6 _ = V c main_arg6 _
  congr 1
  funext d
  apply Fin.ext
  match d with
  | ⟨0, _⟩ => show win0_6.index t (0 : Fin 2) * 64 + 1 * (x 0).val = (x 0).val; rw [e.1]; omega
  | ⟨1, _⟩ => show win0_6.index t (1 : Fin 2) * 64 + 1 * (x 1).val = (x 1).val; rw [e.2]; omega

/-- Weight window 8's block at any point is the whole matrix. -/
theorem wblock8_eq (c : Dev nD) (t : Fin cfg0.N) :
    (iblk0 V c 8 t : Vec Ideal S64x64 .f32) = (V c main_arg8 : S64x64.Idx → EReal) := by
  have e := (idx_wt t).2.2.2.1
  funext x
  unfold iblk0
  rw [View.read_apply]
  show V c main_arg8 _ = V c main_arg8 _
  congr 1
  funext d
  apply Fin.ext
  match d with
  | ⟨0, _⟩ => show win0_8.index t (0 : Fin 2) * 64 + 1 * (x 0).val = (x 0).val; rw [e.1]; omega
  | ⟨1, _⟩ => show win0_8.index t (1 : Fin 2) * 64 + 1 * (x 1).val = (x 1).val; rw [e.2]; omega

/-- Weight window 10's block at any point is the whole matrix. -/
theorem wblock10_eq (c : Dev nD) (t : Fin cfg0.N) :
    (iblk0 V c 10 t : Vec Ideal S64x64 .f32) = (V c main_arg10 : S64x64.Idx → EReal) := by
  have e := (idx_wt t).2.2.2.2.1
  funext x
  unfold iblk0
  rw [View.read_apply]
  show V c main_arg10 _ = V c main_arg10 _
  congr 1
  funext d
  apply Fin.ext
  match d with
  | ⟨0, _⟩ => show win0_10.index t (0 : Fin 2) * 64 + 1 * (x 0).val = (x 0).val; rw [e.1]; omega
  | ⟨1, _⟩ => show win0_10.index t (1 : Fin 2) * 64 + 1 * (x 1).val = (x 1).val; rw [e.2]; omega

/-- Weight window 12's block at any point is the whole matrix. -/
theorem wblock12_eq (c : Dev nD) (t : Fin cfg0.N) :
    (iblk0 V c 12 t : Vec Ideal S64x64 .f32) = (V c main_arg12 : S64x64.Idx → EReal) := by
  have e := (idx_wt t).2.2.2.2.2
  funext x
  unfold iblk0
  rw [View.read_apply]
  show V c main_arg12 _ = V c main_arg12 _
  congr 1
  funext d
  apply Fin.ext
  match d with
  | ⟨0, _⟩ => show win0_12.index t (0 : Fin 2) * 64 + 1 * (x 0).val = (x 0).val; rw [e.1]; omega
  | ⟨1, _⟩ => show win0_12.index t (1 : Fin 2) * 64 + 1 * (x 1).val = (x 1).val; rw [e.2]; omega

/-- Bias window 3's block at any point is the whole vector. -/
theorem bblock3_eq (c : Dev nD) (t : Fin cfg0.N) :
    (iblk0 V c 3 t : Vec Ideal S64 .f32) = (V c main_arg3 : S64.Idx → EReal) := by
  have e := (idx_bias t).1
  funext x
  unfold iblk0
  rw [View.read_apply]
  show V c main_arg3 _ = V c main_arg3 _
  congr 1
  funext d
  apply Fin.ext
  match d with
  | ⟨0, _⟩ => show win0_3.index t (0 : Fin 1) * 64 + 1 * (x 0).val = (x 0).val; rw [e]; omega

/-- Bias window 5's block at any point is the whole vector. -/
theorem bblock5_eq (c : Dev nD) (t : Fin cfg0.N) :
    (iblk0 V c 5 t : Vec Ideal S64 .f32) = (V c main_arg5 : S64.Idx → EReal) := by
  have e := (idx_bias t).2.1
  funext x
  unfold iblk0
  rw [View.read_apply]
  show V c main_arg5 _ = V c main_arg5 _
  congr 1
  funext d
  apply Fin.ext
  match d with
  | ⟨0, _⟩ => show win0_5.index t (0 : Fin 1) * 64 + 1 * (x 0).val = (x 0).val; rw [e]; omega

/-- Bias window 7's block at any point is the whole vector. -/
theorem bblock7_eq (c : Dev nD) (t : Fin cfg0.N) :
    (iblk0 V c 7 t : Vec Ideal S64 .f32) = (V c main_arg7 : S64.Idx → EReal) := by
  have e := (idx_bias t).2.2.1
  funext x
  unfold iblk0
  rw [View.read_apply]
  show V c main_arg7 _ = V c main_arg7 _
  congr 1
  funext d
  apply Fin.ext
  match d with
  | ⟨0, _⟩ => show win0_7.index t (0 : Fin 1) * 64 + 1 * (x 0).val = (x 0).val; rw [e]; omega

/-- Bias window 9's block at any point is the whole vector. -/
theorem bblock9_eq (c : Dev nD) (t : Fin cfg0.N) :
    (iblk0 V c 9 t : Vec Ideal S64 .f32) = (V c main_arg9 : S64.Idx → EReal) := by
  have e := (idx_bias t).2.2.2.1
  funext x
  unfold iblk0
  rw [View.read_apply]
  show V c main_arg9 _ = V c main_arg9 _
  congr 1
  funext d
  apply Fin.ext
  match d with
  | ⟨0, _⟩ => show win0_9.index t (0 : Fin 1) * 64 + 1 * (x 0).val = (x 0).val; rw [e]; omega

/-- Bias window 11's block at any point is the whole vector. -/
theorem bblock11_eq (c : Dev nD) (t : Fin cfg0.N) :
    (iblk0 V c 11 t : Vec Ideal S64 .f32) = (V c main_arg11 : S64.Idx → EReal) := by
  have e := (idx_bias t).2.2.2.2.1
  funext x
  unfold iblk0
  rw [View.read_apply]
  show V c main_arg11 _ = V c main_arg11 _
  congr 1
  funext d
  apply Fin.ext
  match d with
  | ⟨0, _⟩ => show win0_11.index t (0 : Fin 1) * 64 + 1 * (x 0).val = (x 0).val; rw [e]; omega

/-- Bias window 13's block at any point is the whole vector. -/
theorem bblock13_eq (c : Dev nD) (t : Fin cfg0.N) :
    (iblk0 V c 13 t : Vec Ideal S64 .f32) = (V c main_arg13 : S64.Idx → EReal) := by
  have e := (idx_bias t).2.2.2.2.2
  funext x
  unfold iblk0
  rw [View.read_apply]
  show V c main_arg13 _ = V c main_arg13 _
  congr 1
  funext d
  apply Fin.ext
  match d with
  | ⟨0, _⟩ => show win0_13.index t (0 : Fin 1) * 64 + 1 * (x 0).val = (x 0).val; rw [e]; omega

end Cert.ProjSide

end
-- ==== Proof.LibPlainMatmul.lean ====
/-
  A plain two-dimensional matrix product into a zero accumulator, read at a row and a column.

  For dimension numbers that contract the left operand's columns with the right operand's rows, with no batch axis,
  entry `(r, c)` of the product of an `[M, K]` matrix and a `[K, N]` matrix accumulated into zero is the sum over
  `k` of `lhs (r, k) * rhs (k, c)` on the extended reals: the accumulator contributes `0`, and the contraction
  index, a rank-one index, is re-indexed by its one coordinate. Stated for any extents and float formats, with the
  dimension numbers given by their six lists, so that any printed record with these lists unifies.
-/
import Idealize.ShloMosaic.PureOps.Ideal.Laws
import Idealize.ShloMosaic.Lib.ValueIdx

namespace Cert.Lib.PlainMatmul

open Idealize.ShloMosaic Idealize.ShloMosaic.ValueIdx

set_option backward.isDefEq.respectTransparency.types false in
/-- The product of `[M, K]` by `[K, N]` into the zero splat, at `(r, c)`: `∑ k, lhs (r, k) * rhs (k, c)`. -/
theorem matmul_zero_apply {M K N : ℕ} {φ₁ φ₂ : FTy}
    (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (c : Fin N) :
    FloatOps.matmul d prec lhs rhs (constant ⟨2, ![M, N]⟩ .f32 0x00000000#32) (ix2 r c)
      = ∑ k : Fin K, lhs (ix2 r k) * rhs (ix2 k c) := by
  obtain ⟨lc, rc, ln, rn, lb, rb, wf⟩ := d
  dsimp only at hlc hrc hln hrn hlb hrb
  subst hlc hrc hln hrn hlb hrb
  rw [Ideal.matmul_constant_zero_apply]
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 r c)
      ((contrEquiv1 (⟨[1], [0], [0], [1], [], [], wf⟩ : DotDims ⟨2, ![M, K]⟩ ⟨2, ![K, N]⟩ ⟨2, ![M, N]⟩) K rfl rfl).symm k) = ix2 r k :=
    funext fun a => Fin.ext (by
      match a with
      | ⟨0, h0⟩ =>
        unfold DotDims.lhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 r c)
      ((contrEquiv1 (⟨[1], [0], [0], [1], [], [], wf⟩ : DotDims ⟨2, ![M, K]⟩ ⟨2, ![K, N]⟩ ⟨2, ![M, N]⟩) K rfl rfl).symm k) = ix2 k c :=
    funext fun a => Fin.ext (by
      match a with
      | ⟨0, _⟩ => exact (DotDims.rhsIdx_val_of_single _ rfl _ _).trans hk
      | ⟨1, h1⟩ =>
        unfold DotDims.rhsIdx
        rw [dif_neg (show ¬ (⟨1, h1⟩ : Fin 2) ∈ ([] : List (Fin 2)) from List.not_mem_nil),
          dif_pos (show (⟨1, h1⟩ : Fin 2) ∈ [(1 : Fin 2)] from List.mem_singleton.mpr rfl)]
        rfl)
  rw [el, er]

end Cert.Lib.PlainMatmul
-- ==== Proof.ProjPayload.lean ====
/-
  One block of a linear layer, read at a row and a column.

  Each of the six projections is computed block by block: 512 rows of the input X, the whole 64 x 64 weight W and
  the whole bias b give the 512 x 64 block  X W + b.  On the extended reals a change of float format is the
  identity, the matrix product into a zero accumulator is the plain sum over the contracted axis, and the bias,
  a vector of length 64 viewed as one row and repeated down the 512 rows, contributes b[j] to column j.  So entry
  (r, j) of the block is  (sum over k of X[r,k] W[k,j]) + b[j].

  The six stored values are this one expression, three of them with the input block already converted once
  before it is used; on the extended reals that conversion changes nothing.
-/
import proofs.«152010_j7541962572380_2_alg».proof.Proof.Gen.KernelIdeal.Skeleton
import proofs.«152010_j7541962572380_2_alg».proof.Proof.LibPlainMatmul
import Idealize.ShloMosaic.Lib.ValueLayout

noncomputable section

namespace Cert.ProjSide

open Idealize.ShloMosaic Idealize.ShloMosaic.ValueIdx
open Cert.KernelIdeal Cert.KernelIdeal.Gen

/-- Entry (r, j) of a block X W + b: the sum over the 64 contracted columns, plus the bias of column j. -/
theorem linBlock_apply (x : FVec Ideal S512x64 .bf16) (w : Vec Ideal S64x64 .f32) (b : Vec Ideal S64 .f32)
    (r : Fin 512) (j : Fin 64) :
    k0_pay1 (F := Ideal) x w b (ix2 r j) = (∑ k : Fin 64, x (ix2 r k) * w (ix2 k j)) + b (ix1 j) := by
  unfold k0_pay1
  refine congrArg₂ (fun p q : EReal => p + q) ?_ ?_
  · exact Cert.Lib.PlainMatmul.matmul_zero_apply dot_S512x64_S64x64_S512x64_1_0_0_1_n_n rfl rfl rfl rfl rfl rfl none x _ r j
  · exact (broadcastTo_1b_ab_apply _ _ r j).trans (shapeCast_a_1a_apply b _ 0 j)

/-- The second and third stored values of the second input are the same expression as the first. -/
theorem pay2_eq (x : FVec Ideal S512x64 .bf16) (w : Vec Ideal S64x64 .f32) (b : Vec Ideal S64 .f32) :
    k0_pay2 (F := Ideal) x w b = k0_pay1 (F := Ideal) x w b := rfl
theorem pay3_eq (x : FVec Ideal S512x64 .bf16) (w : Vec Ideal S64x64 .f32) (b : Vec Ideal S64 .f32) :
    k0_pay3 (F := Ideal) x w b = k0_pay1 (F := Ideal) x w b := rfl

/-- Converting an input block to the narrower format is the identity on the extended reals. -/
theorem pay4_eq (x : Vec Ideal S512x64 .f32) : k0_pay4 (F := Ideal) x = x := rfl
theorem pay5_eq (x : Vec Ideal S512x64 .f32) : k0_pay5 (F := Ideal) x = x := rfl

/-- The three stored values of the first input are that expression of the input block itself. -/
theorem pay6_eq (x : Vec Ideal S512x64 .f32) (w : Vec Ideal S64x64 .f32) (b : Vec Ideal S64 .f32) :
    k0_pay6 (F := Ideal) x w b = k0_pay1 (F := Ideal) x w b := rfl
theorem pay7_eq (x : Vec Ideal S512x64 .f32) (w : Vec Ideal S64x64 .f32) (b : Vec Ideal S64 .f32) :
    k0_pay7 (F := Ideal) x w b = k0_pay1 (F := Ideal) x w b := rfl
theorem pay8_eq (x : Vec Ideal S512x64 .f32) (w : Vec Ideal S64x64 .f32) (b : Vec Ideal S64 .f32) :
    k0_pay8 (F := Ideal) x w b = k0_pay1 (F := Ideal) x w b := rfl

end Cert.ProjSide

end
-- ==== Proof.ProjCore.lean ====
/-
  A block of a linear layer is the matching block of the whole layer.

  The layer  lin X W b  has entry (n, j) = (sum over k of X[n,k] W[k,j]) + b[j].  A block of 512 rows computed from
  a block x of X, a copy w of W and a copy v of b has, at (r, j), the same sum with row a of X, when row r of x is
  row a of X.  So the computed block is the block of  lin X W b  at the same rows.

  Also here: the two spellings of "all offsets zero", and where the six output windows' blocks sit, point by point
  (block t of an output is rows 512 t ... 512 t + 511, all 64 columns).
-/
import proofs.«152010_j7541962572380_2_alg».proof.Proof.ProjPayload
import proofs.«152010_j7541962572380_2_alg».proof.Proof.Spec

noncomputable section

namespace Cert.ProjSide

open Idealize.ShloMosaic Idealize.ShloMosaic.ValueIdx
open Cert.KernelIdeal Cert.KernelIdeal.Gen

theorem hz2 : (![0, 0] : Fin 2 → Nat) = fun _ => 0 := funext fun a => by fin_cases a <;> rfl
theorem hz1 : (![0] : Fin 1 → Nat) = fun _ => 0 := funext fun a => by fin_cases a <;> rfl

/-- Entry (r, j) of the block computed from a block x of X whose row r is row a of X, from w = W and v = b,
    is entry (a, j) of the layer. -/
theorem linBlock_eq_lin (X : CoAttn.SND.Idx → EReal) (W : CoAttn.SDD.Idx → EReal) (B : CoAttn.SD.Idx → EReal)
    (x : FVec Ideal S512x64 .bf16) (w : Vec Ideal S64x64 .f32) (v : Vec Ideal S64 .f32) (hw : w = W) (hv : v = B)
    (a : Fin 4096) (r : Fin 512) (j : Fin 64) (hx : ∀ k : Fin 64, x (ix2 r k) = X (ix2 a k)) :
    k0_pay1 (F := Ideal) x w v (ix2 r j) = CoAttn.lin X W B (ix2 a j) := by
  subst hw hv
  refine (linBlock_apply x w v r j).trans ?_
  show _ = (∑ k : Fin 64, X (ix2 a k) * w (ix2 k j)) + v (ix1 j)
  exact congrArg (fun s : EReal => s + v (ix1 j)) (Finset.sum_congr rfl fun k _ => by rw [hx k])

/-- Where each output window's block sits at point t: block row t, block column 0. -/
theorem idx_out : ∀ t : Fin cfg0.N,
    (win0_14.index t (0 : Fin 2) = t.val ∧ win0_14.index t (1 : Fin 2) = 0)
    ∧ (win0_15.index t (0 : Fin 2) = t.val ∧ win0_15.index t (1 : Fin 2) = 0)
    ∧ (win0_16.index t (0 : Fin 2) = t.val ∧ win0_16.index t (1 : Fin 2) = 0)
    ∧ (win0_17.index t (0 : Fin 2) = t.val ∧ win0_17.index t (1 : Fin 2) = 0)
    ∧ (win0_18.index t (0 : Fin 2) = t.val ∧ win0_18.index t (1 : Fin 2) = 0)
    ∧ (win0_19.index t (0 : Fin 2) = t.val ∧ win0_19.index t (1 : Fin 2) = 0) :=
  (by decide +kernel : ∀ t : Fin grid0.N, _)

end Cert.ProjSide

end
-- ==== Proof.ProjOut14.lean ====
/-
  Output 0 of the projection stage, Q_I = X W + b with X input 0, W argument 2, b argument 3.

  At point t the stage stores the 512 x 64 block computed from rows 512 t ... 512 t + 511 of X, and writes it back
  to the same rows of the output. That block is the same rows of the whole layer; the 8 points' blocks cover all
  4096 rows (row n lies in block n / 512); so after the stage the output array is the whole layer.
-/
import proofs.«152010_j7541962572380_2_alg».proof.Proof.ProjBlocks
import proofs.«152010_j7541962572380_2_alg».proof.Proof.ProjCore
import Idealize.ShloMosaic.Lib.Pipeline.Value

noncomputable section

open Idealize.ShloMosaic Idealize.ShloMosaic.TcCoe Idealize.ShloMosaic.ValueIdx Idealize.SL.Sem
open Idealize.ShloMosaic.Pipeline (Dat)

namespace Cert.ProjSide

open Cert.KernelIdeal Cert.KernelIdeal.Gen

variable (V : (c : Dev nD) → (b : Ref sig .tc) → Buf (Elt Ideal) ((c : Thread nD τ).loc b))

/-- A 512 x 64 block P written back at point t is block t of an array G when P (r, j) = G (512 t + r, j). -/
theorem cut_eq_read14 (c : Dev nD) (t : Fin cfg0.N) (P : FVec Ideal S512x64 .bf16) (G : S4096x64.Idx → EReal)
    (h : ∀ (r : Fin 512) (j : Fin 64) (a : Fin 4096), a.val = t.val * 512 + r.val → P (ix2 r j) = G (ix2 a j)) :
    (cfg0.win 14).cut (grid0.coords t) P = ((cfg0.win 14).blk t).view.read (Elt Ideal) G := by
  have e := (idx_out t).1
  have ht : t.val < 8 := lt_of_lt_of_eq t.isLt N_0
  funext y
  have hy0 : (y 0).val < 512 := (y 0).isLt
  have hy1 : (y 1).val < 64 := (y 1).isLt
  have hP : (cfg0.win 14).cut (grid0.coords t) P y = P (ix2 (⟨(y 0).val, hy0⟩ : Fin 512) (⟨(y 1).val, hy1⟩ : Fin 64)) :=
    congrArg P (funext fun d => by match d with | ⟨0, _⟩ => rfl | ⟨1, _⟩ => rfl)
  refine hP.trans ((h _ _ ⟨t.val * 512 + (y 0).val, by omega⟩ rfl).trans ?_)
  rw [View.read_apply]
  show G _ = G _
  congr 1
  funext d
  apply Fin.ext
  match d with
  | ⟨0, _⟩ => show t.val * 512 + (y 0).val = win0_14.index t (0 : Fin 2) * 512 + 1 * (y 0).val; rw [e.1]; omega
  | ⟨1, _⟩ => show (y 1).val = win0_14.index t (1 : Fin 2) * 64 + 1 * (y 1).val; rw [e.2]; omega

/-- What point t writes back to output 0 is block t of the layer. -/
theorem flushed14_eq (c : Dev nD) (t : Fin cfg0.N) :
    (dat0 (F := Ideal) V c).flushed 14 t = ((cfg0.win 14).blk t).view.read (Elt Ideal) (CoAttn.lin (V c main_arg0) (V c main_arg2) (V c main_arg3)) := by
  show (cfg0.win 14).cut (grid0.coords t) ((dat0 (F := Ideal) V c).after 14 t) = _
  rw [after0_14]
  unfold out0_14
  rw [View.canon_unit_zero hz2]
  simp only [View.ld_unit_zero (S := S512x64) hz2, View.ld_unit_zero (S := S64x64) hz2, View.ld_unit_zero (S := S64) hz1]
  show (cfg0.win 14).cut (grid0.coords t) (k0_pay6 (F := Ideal) (iblk0 V c 0 t) (iblk0 V c 2 t) (iblk0 V c 3 t)) = _
  exact cut_eq_read14 c t _ _ fun r j a ha =>
    linBlock_eq_lin (V c main_arg0) (V c main_arg2) (V c main_arg3) (iblk0 V c 0 t) (iblk0 V c 2 t) (iblk0 V c 3 t)
      (wblock2_eq V c t) (bblock3_eq V c t) a r j fun k => xblock0_apply V c t r k a ha

/-- After the stage, output 0 is the whole layer Q_I. -/
theorem final_14 (c : Dev nD) :
    (dat0 (F := Ideal) V c).arrAt 14 cfg0.N = (CoAttn.lin (V c main_arg0) (V c main_arg2) (V c main_arg3)) :=
  (dat0 (F := Ideal) V c).arrAt_eq_of_cover 14 (CoAttn.lin (V c main_arg0) (V c main_arg2) (V c main_arg3)) (fun t _ => flushed14_eq V c t) fun i => by
    have hi0 : (i 0).val < 4096 := (i 0).isLt
    have hi1 : (i 1).val < 64 := (i 1).isLt
    obtain ⟨t, ht⟩ : ∃ t : Fin cfg0.N, t.val = (i 0).val / 512 :=
      ⟨⟨(i 0).val / 512, by rw [show cfg0.N = 8 from N_0]; omega⟩, rfl⟩
    have e := (idx_out t).1
    refine ⟨t, flush0_14 t, ?_⟩
    show i ∈ ((View.whole main_v0_0).slice (win0_14.rect t)).set
    rw [View.set_slice_whole, Rect.mem_set_unit]
    intro a
    match a with
    | ⟨0, _⟩ => show win0_14.index t (0 : Fin 2) * 512 ≤ (i 0).val ∧ (i 0).val < win0_14.index t (0 : Fin 2) * 512 + 512; rw [e.1]; omega
    | ⟨1, _⟩ => show win0_14.index t (1 : Fin 2) * 64 ≤ (i 1).val ∧ (i 1).val < win0_14.index t (1 : Fin 2) * 64 + 64; rw [e.2]; omega

end Cert.ProjSide

end
-- ==== Proof.ProjOut15.lean ====
/-
  Output 1 of the projection stage, K_I = X W + b with X input 0, W argument 4, b argument 5.

  At point t the stage stores the 512 x 64 block computed from rows 512 t ... 512 t + 511 of X, and writes it back
  to the same rows of the output. That block is the same rows of the whole layer; the 8 points' blocks cover all
  4096 rows (row n lies in block n / 512); so after the stage the output array is the whole layer.
-/
import proofs.«152010_j7541962572380_2_alg».proof.Proof.ProjBlocks
import proofs.«152010_j7541962572380_2_alg».proof.Proof.ProjCore
import Idealize.ShloMosaic.Lib.Pipeline.Value

noncomputable section

open Idealize.ShloMosaic Idealize.ShloMosaic.TcCoe Idealize.ShloMosaic.ValueIdx Idealize.SL.Sem
open Idealize.ShloMosaic.Pipeline (Dat)

namespace Cert.ProjSide

open Cert.KernelIdeal Cert.KernelIdeal.Gen

variable (V : (c : Dev nD) → (b : Ref sig .tc) → Buf (Elt Ideal) ((c : Thread nD τ).loc b))

/-- A 512 x 64 block P written back at point t is block t of an array G when P (r, j) = G (512 t + r, j). -/
theorem cut_eq_read15 (c : Dev nD) (t : Fin cfg0.N) (P : FVec Ideal S512x64 .bf16) (G : S4096x64.Idx → EReal)
    (h : ∀ (r : Fin 512) (j : Fin 64) (a : Fin 4096), a.val = t.val * 512 + r.val → P (ix2 r j) = G (ix2 a j)) :
    (cfg0.win 15).cut (grid0.coords t) P = ((cfg0.win 15).blk t).view.read (Elt Ideal) G := by
  have e := (idx_out t).2.1
  have ht : t.val < 8 := lt_of_lt_of_eq t.isLt N_0
  funext y
  have hy0 : (y 0).val < 512 := (y 0).isLt
  have hy1 : (y 1).val < 64 := (y 1).isLt
  have hP : (cfg0.win 15).cut (grid0.coords t) P y = P (ix2 (⟨(y 0).val, hy0⟩ : Fin 512) (⟨(y 1).val, hy1⟩ : Fin 64)) :=
    congrArg P (funext fun d => by match d with | ⟨0, _⟩ => rfl | ⟨1, _⟩ => rfl)
  refine hP.trans ((h _ _ ⟨t.val * 512 + (y 0).val, by omega⟩ rfl).trans ?_)
  rw [View.read_apply]
  show G _ = G _
  congr 1
  funext d
  apply Fin.ext
  match d with
  | ⟨0, _⟩ => show t.val * 512 + (y 0).val = win0_15.index t (0 : Fin 2) * 512 + 1 * (y 0).val; rw [e.1]; omega
  | ⟨1, _⟩ => show (y 1).val = win0_15.index t (1 : Fin 2) * 64 + 1 * (y 1).val; rw [e.2]; omega

/-- What point t writes back to output 1 is block t of the layer. -/
theorem flushed15_eq (c : Dev nD) (t : Fin cfg0.N) :
    (dat0 (F := Ideal) V c).flushed 15 t = ((cfg0.win 15).blk t).view.read (Elt Ideal) (CoAttn.lin (V c main_arg0) (V c main_arg4) (V c main_arg5)) := by
  show (cfg0.win 15).cut (grid0.coords t) ((dat0 (F := Ideal) V c).after 15 t) = _
  rw [after0_15]
  unfold out0_15
  rw [View.canon_unit_zero hz2]
  simp only [View.ld_unit_zero (S := S512x64) hz2, View.ld_unit_zero (S := S64x64) hz2, View.ld_unit_zero (S := S64) hz1]
  show (cfg0.win 15).cut (grid0.coords t) (k0_pay7 (F := Ideal) (iblk0 V c 0 t) (iblk0 V c 4 t) (iblk0 V c 5 t)) = _
  exact cut_eq_read15 c t _ _ fun r j a ha =>
    linBlock_eq_lin (V c main_arg0) (V c main_arg4) (V c main_arg5) (iblk0 V c 0 t) (iblk0 V c 4 t) (iblk0 V c 5 t)
      (wblock4_eq V c t) (bblock5_eq V c t) a r j fun k => xblock0_apply V c t r k a ha

/-- After the stage, output 1 is the whole layer K_I. -/
theorem final_15 (c : Dev nD) :
    (dat0 (F := Ideal) V c).arrAt 15 cfg0.N = (CoAttn.lin (V c main_arg0) (V c main_arg4) (V c main_arg5)) :=
  (dat0 (F := Ideal) V c).arrAt_eq_of_cover 15 (CoAttn.lin (V c main_arg0) (V c main_arg4) (V c main_arg5)) (fun t _ => flushed15_eq V c t) fun i => by
    have hi0 : (i 0).val < 4096 := (i 0).isLt
    have hi1 : (i 1).val < 64 := (i 1).isLt
    obtain ⟨t, ht⟩ : ∃ t : Fin cfg0.N, t.val = (i 0).val / 512 :=
      ⟨⟨(i 0).val / 512, by rw [show cfg0.N = 8 from N_0]; omega⟩, rfl⟩
    have e := (idx_out t).2.1
    refine ⟨t, flush0_15 t, ?_⟩
    show i ∈ ((View.whole main_v0_1).slice (win0_15.rect t)).set
    rw [View.set_slice_whole, Rect.mem_set_unit]
    intro a
    match a with
    | ⟨0, _⟩ => show win0_15.index t (0 : Fin 2) * 512 ≤ (i 0).val ∧ (i 0).val < win0_15.index t (0 : Fin 2) * 512 + 512; rw [e.1]; omega
    | ⟨1, _⟩ => show win0_15.index t (1 : Fin 2) * 64 ≤ (i 1).val ∧ (i 1).val < win0_15.index t (1 : Fin 2) * 64 + 64; rw [e.2]; omega

end Cert.ProjSide

end
-- ==== Proof.ProjOut16.lean ====
/-
  Output 2 of the projection stage, V_I = X W + b with X input 0, W argument 6, b argument 7.

  At point t the stage stores the 512 x 64 block computed from rows 512 t ... 512 t + 511 of X, and writes it back
  to the same rows of the output. That block is the same rows of the whole layer; the 8 points' blocks cover all
  4096 rows (row n lies in block n / 512); so after the stage the output array is the whole layer.
-/
import proofs.«152010_j7541962572380_2_alg».proof.Proof.ProjBlocks
import proofs.«152010_j7541962572380_2_alg».proof.Proof.ProjCore
import Idealize.ShloMosaic.Lib.Pipeline.Value

noncomputable section

open Idealize.ShloMosaic Idealize.ShloMosaic.TcCoe Idealize.ShloMosaic.ValueIdx Idealize.SL.Sem
open Idealize.ShloMosaic.Pipeline (Dat)

namespace Cert.ProjSide

open Cert.KernelIdeal Cert.KernelIdeal.Gen

variable (V : (c : Dev nD) → (b : Ref sig .tc) → Buf (Elt Ideal) ((c : Thread nD τ).loc b))

/-- A 512 x 64 block P written back at point t is block t of an array G when P (r, j) = G (512 t + r, j). -/
theorem cut_eq_read16 (c : Dev nD) (t : Fin cfg0.N) (P : FVec Ideal S512x64 .bf16) (G : S4096x64.Idx → EReal)
    (h : ∀ (r : Fin 512) (j : Fin 64) (a : Fin 4096), a.val = t.val * 512 + r.val → P (ix2 r j) = G (ix2 a j)) :
    (cfg0.win 16).cut (grid0.coords t) P = ((cfg0.win 16).blk t).view.read (Elt Ideal) G := by
  have e := (idx_out t).2.2.1
  have ht : t.val < 8 := lt_of_lt_of_eq t.isLt N_0
  funext y
  have hy0 : (y 0).val < 512 := (y 0).isLt
  have hy1 : (y 1).val < 64 := (y 1).isLt
  have hP : (cfg0.win 16).cut (grid0.coords t) P y = P (ix2 (⟨(y 0).val, hy0⟩ : Fin 512) (⟨(y 1).val, hy1⟩ : Fin 64)) :=
    congrArg P (funext fun d => by match d with | ⟨0, _⟩ => rfl | ⟨1, _⟩ => rfl)
  refine hP.trans ((h _ _ ⟨t.val * 512 + (y 0).val, by omega⟩ rfl).trans ?_)
  rw [View.read_apply]
  show G _ = G _
  congr 1
  funext d
  apply Fin.ext
  match d with
  | ⟨0, _⟩ => show t.val * 512 + (y 0).val = win0_16.index t (0 : Fin 2) * 512 + 1 * (y 0).val; rw [e.1]; omega
  | ⟨1, _⟩ => show (y 1).val = win0_16.index t (1 : Fin 2) * 64 + 1 * (y 1).val; rw [e.2]; omega

/-- What point t writes back to output 2 is block t of the layer. -/
theorem flushed16_eq (c : Dev nD) (t : Fin cfg0.N) :
    (dat0 (F := Ideal) V c).flushed 16 t = ((cfg0.win 16).blk t).view.read (Elt Ideal) (CoAttn.lin (V c main_arg0) (V c main_arg6) (V c main_arg7)) := by
  show (cfg0.win 16).cut (grid0.coords t) ((dat0 (F := Ideal) V c).after 16 t) = _
  rw [after0_16]
  unfold out0_16
  rw [View.canon_unit_zero hz2]
  simp only [View.ld_unit_zero (S := S512x64) hz2, View.ld_unit_zero (S := S64x64) hz2, View.ld_unit_zero (S := S64) hz1]
  show (cfg0.win 16).cut (grid0.coords t) (k0_pay8 (F := Ideal) (iblk0 V c 0 t) (iblk0 V c 6 t) (iblk0 V c 7 t)) = _
  exact cut_eq_read16 c t _ _ fun r j a ha =>
    linBlock_eq_lin (V c main_arg0) (V c main_arg6) (V c main_arg7) (iblk0 V c 0 t) (iblk0 V c 6 t) (iblk0 V c 7 t)
      (wblock6_eq V c t) (bblock7_eq V c t) a r j fun k => xblock0_apply V c t r k a ha

/-- After the stage, output 2 is the whole layer V_I. -/
theorem final_16 (c : Dev nD) :
    (dat0 (F := Ideal) V c).arrAt 16 cfg0.N = (CoAttn.lin (V c main_arg0) (V c main_arg6) (V c main_arg7)) :=
  (dat0 (F := Ideal) V c).arrAt_eq_of_cover 16 (CoAttn.lin (V c main_arg0) (V c main_arg6) (V c main_arg7)) (fun t _ => flushed16_eq V c t) fun i => by
    have hi0 : (i 0).val < 4096 := (i 0).isLt
    have hi1 : (i 1).val < 64 := (i 1).isLt
    obtain ⟨t, ht⟩ : ∃ t : Fin cfg0.N, t.val = (i 0).val / 512 :=
      ⟨⟨(i 0).val / 512, by rw [show cfg0.N = 8 from N_0]; omega⟩, rfl⟩
    have e := (idx_out t).2.2.1
    refine ⟨t, flush0_16 t, ?_⟩
    show i ∈ ((View.whole main_v0_2).slice (win0_16.rect t)).set
    rw [View.set_slice_whole, Rect.mem_set_unit]
    intro a
    match a with
    | ⟨0, _⟩ => show win0_16.index t (0 : Fin 2) * 512 ≤ (i 0).val ∧ (i 0).val < win0_16.index t (0 : Fin 2) * 512 + 512; rw [e.1]; omega
    | ⟨1, _⟩ => show win0_16.index t (1 : Fin 2) * 64 ≤ (i 1).val ∧ (i 1).val < win0_16.index t (1 : Fin 2) * 64 + 64; rw [e.2]; omega

end Cert.ProjSide

end
-- ==== Proof.ProjOut17.lean ====
/-
  Output 3 of the projection stage, Q_M = X W + b with X input 1, W argument 8, b argument 9.

  At point t the stage stores the 512 x 64 block computed from rows 512 t ... 512 t + 511 of X, and writes it back
  to the same rows of the output. That block is the same rows of the whole layer; the 8 points' blocks cover all
  4096 rows (row n lies in block n / 512); so after the stage the output array is the whole layer.
-/
import proofs.«152010_j7541962572380_2_alg».proof.Proof.ProjBlocks
import proofs.«152010_j7541962572380_2_alg».proof.Proof.ProjCore
import Idealize.ShloMosaic.Lib.Pipeline.Value

noncomputable section

open Idealize.ShloMosaic Idealize.ShloMosaic.TcCoe Idealize.ShloMosaic.ValueIdx Idealize.SL.Sem
open Idealize.ShloMosaic.Pipeline (Dat)

namespace Cert.ProjSide

open Cert.KernelIdeal Cert.KernelIdeal.Gen

variable (V : (c : Dev nD) → (b : Ref sig .tc) → Buf (Elt Ideal) ((c : Thread nD τ).loc b))

/-- A 512 x 64 block P written back at point t is block t of an array G when P (r, j) = G (512 t + r, j). -/
theorem cut_eq_read17 (c : Dev nD) (t : Fin cfg0.N) (P : FVec Ideal S512x64 .bf16) (G : S4096x64.Idx → EReal)
    (h : ∀ (r : Fin 512) (j : Fin 64) (a : Fin 4096), a.val = t.val * 512 + r.val → P (ix2 r j) = G (ix2 a j)) :
    (cfg0.win 17).cut (grid0.coords t) P = ((cfg0.win 17).blk t).view.read (Elt Ideal) G := by
  have e := (idx_out t).2.2.2.1
  have ht : t.val < 8 := lt_of_lt_of_eq t.isLt N_0
  funext y
  have hy0 : (y 0).val < 512 := (y 0).isLt
  have hy1 : (y 1).val < 64 := (y 1).isLt
  have hP : (cfg0.win 17).cut (grid0.coords t) P y = P (ix2 (⟨(y 0).val, hy0⟩ : Fin 512) (⟨(y 1).val, hy1⟩ : Fin 64)) :=
    congrArg P (funext fun d => by match d with | ⟨0, _⟩ => rfl | ⟨1, _⟩ => rfl)
  refine hP.trans ((h _ _ ⟨t.val * 512 + (y 0).val, by omega⟩ rfl).trans ?_)
  rw [View.read_apply]
  show G _ = G _
  congr 1
  funext d
  apply Fin.ext
  match d with
  | ⟨0, _⟩ => show t.val * 512 + (y 0).val = win0_17.index t (0 : Fin 2) * 512 + 1 * (y 0).val; rw [e.1]; omega
  | ⟨1, _⟩ => show (y 1).val = win0_17.index t (1 : Fin 2) * 64 + 1 * (y 1).val; rw [e.2]; omega

/-- What point t writes back to output 3 is block t of the layer. -/
theorem flushed17_eq (c : Dev nD) (t : Fin cfg0.N) :
    (dat0 (F := Ideal) V c).flushed 17 t = ((cfg0.win 17).blk t).view.read (Elt Ideal) (CoAttn.lin (V c main_arg1) (V c main_arg8) (V c main_arg9)) := by
  show (cfg0.win 17).cut (grid0.coords t) ((dat0 (F := Ideal) V c).after 17 t) = _
  rw [after0_17]
  unfold out0_17
  rw [View.canon_unit_zero hz2]
  simp only [View.ld_unit_zero (S := S512x64) hz2, View.ld_unit_zero (S := S64x64) hz2, View.ld_unit_zero (S := S64) hz1]
  show (cfg0.win 17).cut (grid0.coords t) (k0_pay1 (F := Ideal) (k0_pay5 (F := Ideal) (iblk0 V c 1 t)) (iblk0 V c 8 t) (iblk0 V c 9 t)) = _
  exact cut_eq_read17 c t _ _ fun r j a ha =>
    linBlock_eq_lin (V c main_arg1) (V c main_arg8) (V c main_arg9) (iblk0 V c 1 t) (iblk0 V c 8 t) (iblk0 V c 9 t)
      (wblock8_eq V c t) (bblock9_eq V c t) a r j fun k => xblock1_apply V c t r k a ha

/-- After the stage, output 3 is the whole layer Q_M. -/
theorem final_17 (c : Dev nD) :
    (dat0 (F := Ideal) V c).arrAt 17 cfg0.N = (CoAttn.lin (V c main_arg1) (V c main_arg8) (V c main_arg9)) :=
  (dat0 (F := Ideal) V c).arrAt_eq_of_cover 17 (CoAttn.lin (V c main_arg1) (V c main_arg8) (V c main_arg9)) (fun t _ => flushed17_eq V c t) fun i => by
    have hi0 : (i 0).val < 4096 := (i 0).isLt
    have hi1 : (i 1).val < 64 := (i 1).isLt
    obtain ⟨t, ht⟩ : ∃ t : Fin cfg0.N, t.val = (i 0).val / 512 :=
      ⟨⟨(i 0).val / 512, by rw [show cfg0.N = 8 from N_0]; omega⟩, rfl⟩
    have e := (idx_out t).2.2.2.1
    refine ⟨t, flush0_17 t, ?_⟩
    show i ∈ ((View.whole main_v0_3).slice (win0_17.rect t)).set
    rw [View.set_slice_whole, Rect.mem_set_unit]
    intro a
    match a with
    | ⟨0, _⟩ => show win0_17.index t (0 : Fin 2) * 512 ≤ (i 0).val ∧ (i 0).val < win0_17.index t (0 : Fin 2) * 512 + 512; rw [e.1]; omega
    | ⟨1, _⟩ => show win0_17.index t (1 : Fin 2) * 64 ≤ (i 1).val ∧ (i 1).val < win0_17.index t (1 : Fin 2) * 64 + 64; rw [e.2]; omega

end Cert.ProjSide

end
-- ==== Proof.ProjOut18.lean ====
/-
  Output 4 of the projection stage, K_M = X W + b with X input 1, W argument 10, b argument 11.

  At point t the stage stores the 512 x 64 block computed from rows 512 t ... 512 t + 511 of X, and writes it back
  to the same rows of the output. That block is the same rows of the whole layer; the 8 points' blocks cover all
  4096 rows (row n lies in block n / 512); so after the stage the output array is the whole layer.
-/
import proofs.«152010_j7541962572380_2_alg».proof.Proof.ProjBlocks
import proofs.«152010_j7541962572380_2_alg».proof.Proof.ProjCore
import Idealize.ShloMosaic.Lib.Pipeline.Value

noncomputable section

open Idealize.ShloMosaic Idealize.ShloMosaic.TcCoe Idealize.ShloMosaic.ValueIdx Idealize.SL.Sem
open Idealize.ShloMosaic.Pipeline (Dat)

namespace Cert.ProjSide

open Cert.KernelIdeal Cert.KernelIdeal.Gen

variable (V : (c : Dev nD) → (b : Ref sig .tc) → Buf (Elt Ideal) ((c : Thread nD τ).loc b))

/-- A 512 x 64 block P written back at point t is block t of an array G when P (r, j) = G (512 t + r, j). -/
theorem cut_eq_read18 (c : Dev nD) (t : Fin cfg0.N) (P : FVec Ideal S512x64 .bf16) (G : S4096x64.Idx → EReal)
    (h : ∀ (r : Fin 512) (j : Fin 64) (a : Fin 4096), a.val = t.val * 512 + r.val → P (ix2 r j) = G (ix2 a j)) :
    (cfg0.win 18).cut (grid0.coords t) P = ((cfg0.win 18).blk t).view.read (Elt Ideal) G := by
  have e := (idx_out t).2.2.2.2.1
  have ht : t.val < 8 := lt_of_lt_of_eq t.isLt N_0
  funext y
  have hy0 : (y 0).val < 512 := (y 0).isLt
  have hy1 : (y 1).val < 64 := (y 1).isLt
  have hP : (cfg0.win 18).cut (grid0.coords t) P y = P (ix2 (⟨(y 0).val, hy0⟩ : Fin 512) (⟨(y 1).val, hy1⟩ : Fin 64)) :=
    congrArg P (funext fun d => by match d with | ⟨0, _⟩ => rfl | ⟨1, _⟩ => rfl)
  refine hP.trans ((h _ _ ⟨t.val * 512 + (y 0).val, by omega⟩ rfl).trans ?_)
  rw [View.read_apply]
  show G _ = G _
  congr 1
  funext d
  apply Fin.ext
  match d with
  | ⟨0, _⟩ => show t.val * 512 + (y 0).val = win0_18.index t (0 : Fin 2) * 512 + 1 * (y 0).val; rw [e.1]; omega
  | ⟨1, _⟩ => show (y 1).val = win0_18.index t (1 : Fin 2) * 64 + 1 * (y 1).val; rw [e.2]; omega

/-- What point t writes back to output 4 is block t of the layer. -/
theorem flushed18_eq (c : Dev nD) (t : Fin cfg0.N) :
    (dat0 (F := Ideal) V c).flushed 18 t = ((cfg0.win 18).blk t).view.read (Elt Ideal) (CoAttn.lin (V c main_arg1) (V c main_arg10) (V c main_arg11)) := by
  show (cfg0.win 18).cut (grid0.coords t) ((dat0 (F := Ideal) V c).after 18 t) = _
  rw [after0_18]
  unfold out0_18
  rw [View.canon_unit_zero hz2]
  simp only [View.ld_unit_zero (S := S512x64) hz2, View.ld_unit_zero (S := S64x64) hz2, View.ld_unit_zero (S := S64) hz1]
  show (cfg0.win 18).cut (grid0.coords t) (k0_pay2 (F := Ideal) (k0_pay5 (F := Ideal) (iblk0 V c 1 t)) (iblk0 V c 10 t) (iblk0 V c 11 t)) = _
  exact cut_eq_read18 c t _ _ fun r j a ha =>
    linBlock_eq_lin (V c main_arg1) (V c main_arg10) (V c main_arg11) (iblk0 V c 1 t) (iblk0 V c 10 t) (iblk0 V c 11 t)
      (wblock10_eq V c t) (bblock11_eq V c t) a r j fun k => xblock1_apply V c t r k a ha

/-- After the stage, output 4 is the whole layer K_M. -/
theorem final_18 (c : Dev nD) :
    (dat0 (F := Ideal) V c).arrAt 18 cfg0.N = (CoAttn.lin (V c main_arg1) (V c main_arg10) (V c main_arg11)) :=
  (dat0 (F := Ideal) V c).arrAt_eq_of_cover 18 (CoAttn.lin (V c main_arg1) (V c main_arg10) (V c main_arg11)) (fun t _ => flushed18_eq V c t) fun i => by
    have hi0 : (i 0).val < 4096 := (i 0).isLt
    have hi1 : (i 1).val < 64 := (i 1).isLt
    obtain ⟨t, ht⟩ : ∃ t : Fin cfg0.N, t.val = (i 0).val / 512 :=
      ⟨⟨(i 0).val / 512, by rw [show cfg0.N = 8 from N_0]; omega⟩, rfl⟩
    have e := (idx_out t).2.2.2.2.1
    refine ⟨t, flush0_18 t, ?_⟩
    show i ∈ ((View.whole main_v0_4).slice (win0_18.rect t)).set
    rw [View.set_slice_whole, Rect.mem_set_unit]
    intro a
    match a with
    | ⟨0, _⟩ => show win0_18.index t (0 : Fin 2) * 512 ≤ (i 0).val ∧ (i 0).val < win0_18.index t (0 : Fin 2) * 512 + 512; rw [e.1]; omega
    | ⟨1, _⟩ => show win0_18.index t (1 : Fin 2) * 64 ≤ (i 1).val ∧ (i 1).val < win0_18.index t (1 : Fin 2) * 64 + 64; rw [e.2]; omega

end Cert.ProjSide

end
-- ==== Proof.ProjOut19.lean ====
/-
  Output 5 of the projection stage, V_M = X W + b with X input 1, W argument 12, b argument 13.

  At point t the stage stores the 512 x 64 block computed from rows 512 t ... 512 t + 511 of X, and writes it back
  to the same rows of the output. That block is the same rows of the whole layer; the 8 points' blocks cover all
  4096 rows (row n lies in block n / 512); so after the stage the output array is the whole layer.
-/
import proofs.«152010_j7541962572380_2_alg».proof.Proof.ProjBlocks
import proofs.«152010_j7541962572380_2_alg».proof.Proof.ProjCore
import Idealize.ShloMosaic.Lib.Pipeline.Value

noncomputable section

open Idealize.ShloMosaic Idealize.ShloMosaic.TcCoe Idealize.ShloMosaic.ValueIdx Idealize.SL.Sem
open Idealize.ShloMosaic.Pipeline (Dat)

namespace Cert.ProjSide

open Cert.KernelIdeal Cert.KernelIdeal.Gen

variable (V : (c : Dev nD) → (b : Ref sig .tc) → Buf (Elt Ideal) ((c : Thread nD τ).loc b))

/-- A 512 x 64 block P written back at point t is block t of an array G when P (r, j) = G (512 t + r, j). -/
theorem cut_eq_read19 (c : Dev nD) (t : Fin cfg0.N) (P : FVec Ideal S512x64 .bf16) (G : S4096x64.Idx → EReal)
    (h : ∀ (r : Fin 512) (j : Fin 64) (a : Fin 4096), a.val = t.val * 512 + r.val → P (ix2 r j) = G (ix2 a j)) :
    (cfg0.win 19).cut (grid0.coords t) P = ((cfg0.win 19).blk t).view.read (Elt Ideal) G := by
  have e := (idx_out t).2.2.2.2.2
  have ht : t.val < 8 := lt_of_lt_of_eq t.isLt N_0
  funext y
  have hy0 : (y 0).val < 512 := (y 0).isLt
  have hy1 : (y 1).val < 64 := (y 1).isLt
  have hP : (cfg0.win 19).cut (grid0.coords t) P y = P (ix2 (⟨(y 0).val, hy0⟩ : Fin 512) (⟨(y 1).val, hy1⟩ : Fin 64)) :=
    congrArg P (funext fun d => by match d with | ⟨0, _⟩ => rfl | ⟨1, _⟩ => rfl)
  refine hP.trans ((h _ _ ⟨t.val * 512 + (y 0).val, by omega⟩ rfl).trans ?_)
  rw [View.read_apply]
  show G _ = G _
  congr 1
  funext d
  apply Fin.ext
  match d with
  | ⟨0, _⟩ => show t.val * 512 + (y 0).val = win0_19.index t (0 : Fin 2) * 512 + 1 * (y 0).val; rw [e.1]; omega
  | ⟨1, _⟩ => show (y 1).val = win0_19.index t (1 : Fin 2) * 64 + 1 * (y 1).val; rw [e.2]; omega

/-- What point t writes back to output 5 is block t of the layer. -/
theorem flushed19_eq (c : Dev nD) (t : Fin cfg0.N) :
    (dat0 (F := Ideal) V c).flushed 19 t = ((cfg0.win 19).blk t).view.read (Elt Ideal) (CoAttn.lin (V c main_arg1) (V c main_arg12) (V c main_arg13)) := by
  show (cfg0.win 19).cut (grid0.coords t) ((dat0 (F := Ideal) V c).after 19 t) = _
  rw [after0_19]
  unfold out0_19
  rw [View.canon_unit_zero hz2]
  simp only [View.ld_unit_zero (S := S512x64) hz2, View.ld_unit_zero (S := S64x64) hz2, View.ld_unit_zero (S := S64) hz1]
  show (cfg0.win 19).cut (grid0.coords t) (k0_pay3 (F := Ideal) (k0_pay5 (F := Ideal) (iblk0 V c 1 t)) (iblk0 V c 12 t) (iblk0 V c 13 t)) = _
  exact cut_eq_read19 c t _ _ fun r j a ha =>
    linBlock_eq_lin (V c main_arg1) (V c main_arg12) (V c main_arg13) (iblk0 V c 1 t) (iblk0 V c 12 t) (iblk0 V c 13 t)
      (wblock12_eq V c t) (bblock13_eq V c t) a r j fun k => xblock1_apply V c t r k a ha

/-- After the stage, output 5 is the whole layer V_M. -/
theorem final_19 (c : Dev nD) :
    (dat0 (F := Ideal) V c).arrAt 19 cfg0.N = (CoAttn.lin (V c main_arg1) (V c main_arg12) (V c main_arg13)) :=
  (dat0 (F := Ideal) V c).arrAt_eq_of_cover 19 (CoAttn.lin (V c main_arg1) (V c main_arg12) (V c main_arg13)) (fun t _ => flushed19_eq V c t) fun i => by
    have hi0 : (i 0).val < 4096 := (i 0).isLt
    have hi1 : (i 1).val < 64 := (i 1).isLt
    obtain ⟨t, ht⟩ : ∃ t : Fin cfg0.N, t.val = (i 0).val / 512 :=
      ⟨⟨(i 0).val / 512, by rw [show cfg0.N = 8 from N_0]; omega⟩, rfl⟩
    have e := (idx_out t).2.2.2.2.2
    refine ⟨t, flush0_19 t, ?_⟩
    show i ∈ ((View.whole main_v0_5).slice (win0_19.rect t)).set
    rw [View.set_slice_whole, Rect.mem_set_unit]
    intro a
    match a with
    | ⟨0, _⟩ => show win0_19.index t (0 : Fin 2) * 512 ≤ (i 0).val ∧ (i 0).val < win0_19.index t (0 : Fin 2) * 512 + 512; rw [e.1]; omega
    | ⟨1, _⟩ => show win0_19.index t (1 : Fin 2) * 64 ≤ (i 1).val ∧ (i 1).val < win0_19.index t (1 : Fin 2) * 64 + 64; rw [e.2]; omega

end Cert.ProjSide

end
-- ==== Proof.ProjFinal.lean ====
/-
  The projection stage, whole: after it, each of its six output arrays holds one linear layer of the inputs,

    output 0 = Q_I = X_I WqI + bqI      output 3 = Q_M = X_M WqM + bqM
    output 1 = K_I = X_I WkI + bkI      output 4 = K_M = X_M WkM + bkM
    output 2 = V_I = X_I WvI + bvI      output 5 = V_M = X_M WvM + bvM

  each stated in its own module (`final_14` ... `final_19`, the number the output's window); this module gathers them.
-/
import proofs.«152010_j7541962572380_2_alg».proof.Proof.ProjOut14
import proofs.«152010_j7541962572380_2_alg».proof.Proof.ProjOut15
import proofs.«152010_j7541962572380_2_alg».proof.Proof.ProjOut16
import proofs.«152010_j7541962572380_2_alg».proof.Proof.ProjOut17
import proofs.«152010_j7541962572380_2_alg».proof.Proof.ProjOut18
import proofs.«152010_j7541962572380_2_alg».proof.Proof.ProjOut19
-- ==== Proof.AttnRow.lean ====
/-
  The fused attention stage one QUERY ROW at a time.

  Entry (n, ·) of the stage depends on the query-side arrays only through their row n — q_I[n,·], q_M[n,·], x_I[n,·],
  x_M[n,·] — and on the key-side arrays K_I, V_I, K_M, V_M as wholes. `rowOut` is that dependence: from the four row
  vectors and the four key-side arrays, the 4224 entries of the result row. The whole stage is `rowOut` of the rows
  (`attnK_apply`), and so is a block of 256 query rows (`blockOut`): this is what lets a kernel that computes 256
  rows per grid point be compared with the stage over all 4096.
-/
import proofs.«152010_j7541962572380_2_alg».proof.Proof.Spec

noncomputable section

namespace CoAttn

open Idealize.ShloMosaic Idealize.ShloMosaic.ValueIdx

/-- [256, 64]: a block of query rows. -/
abbrev SBD : Shape := ⟨2, ![256, 64]⟩
/-- [256, 4224]: a block of result rows. -/
abbrev SBO : Shape := ⟨2, ![256, 4224]⟩

/-- One row of scaled scores: s[k] = (Σ_d q[d] K[k,d]) · (1/8). -/
def rscore (q : Fin 64 → EReal) (K : SND.Idx → EReal) (k : Fin 4096) : EReal :=
  (∑ d : Fin 64, q d * K (ix2 k d)) * scale

/-- The row's maximum, folded from -∞. -/
def rmax (s : Fin 4096 → EReal) : EReal := (Finset.univ : Finset (Fin 4096)).fold max ⊥ s

/-- The unnormalised weights exp (s[k] - max s). -/
def rp (s : Fin 4096 → EReal) (k : Fin 4096) : EReal := Ideal.exp (s k - rmax s)

/-- Their sum. -/
def rl (s : Fin 4096 → EReal) : EReal := ∑ k : Fin 4096, rp s k

/-- The attended values of the row, normalised after the sum. -/
def ratt (s : Fin 4096 → EReal) (V : SND.Idx → EReal) (e : Fin 64) : EReal :=
  Ideal.div (∑ k : Fin 4096, rp s k * V (ix2 k e)) (rl s)

/-- The overlap of the row's two weight vectors, normalised after the sum. -/
def rovl (s s' : Fin 4096 → EReal) : EReal :=
  Ideal.div (∑ k : Fin 4096, rp s k * rp s' k) (rl s * rl s')

/-- The result row from the four row vectors and the four key-side arrays. -/
def rowOut (qi qm xi xm : Fin 64 → EReal) (KI VI KM VM : SND.Idx → EReal) (col : Fin 4224) : EReal :=
  if h1 : col.val < 64 then ratt (rscore qm KI) VI ⟨col.val, h1⟩
  else if h2 : col.val < 128 then ratt (rscore qi KM) VM ⟨col.val - 64, by omega⟩
  else (rovl (rscore qm KI) (rscore qi KM) * xm ⟨(col.val - 128) / 64, by have := col.isLt; omega⟩)
         * xi ⟨(col.val - 128) % 64, Nat.mod_lt _ (by norm_num)⟩

/-- The stage over all rows is `rowOut` of row `i 0` of the query-side arrays. -/
theorem attnK_apply (QI QM KI VI KM VM XI XM : SND.Idx → EReal) (i : SOUT.Idx) :
    attnK QI QM KI VI KM VM XI XM i
      = rowOut (fun d => QI (ix2 (i 0) d)) (fun d => QM (ix2 (i 0) d)) (fun d => XI (ix2 (i 0) d)) (fun d => XM (ix2 (i 0) d))
          KI VI KM VM (i 1) := rfl

/-- A block of 256 query rows of the stage. -/
def blockOut (qi qm : SBD.Idx → EReal) (KI VI KM VM : SND.Idx → EReal) (xi xm : SBD.Idx → EReal) : SBO.Idx → EReal :=
  fun y => rowOut (fun d => qi (ix2 (y 0) d)) (fun d => qm (ix2 (y 0) d)) (fun d => xi (ix2 (y 0) d)) (fun d => xm (ix2 (y 0) d))
    KI VI KM VM (y 1)

end CoAttn

end
-- ==== Proof.AttnArrRows.lean ====
/-
  A block of query rows of the attention stage, compared with the stage over all rows at one entry.

  Entry y of the block of 256 rows and entry i of the whole stage are the same number as soon as row y₀ of the
  four query-side blocks is row i₀ of the four query-side arrays, the key-side arrays are the same, and the
  columns agree: both are the row function of those data at that column.
-/
import proofs.«152010_j7541962572380_2_alg».proof.Proof.AttnRow

namespace CoAttn

open Idealize.ShloMosaic Idealize.ShloMosaic.ValueIdx

theorem blockOut_eq_attnK_at (QI QM KI VI KM VM XI XM : SND.Idx → EReal) (qi qm : SBD.Idx → EReal)
    (ki vi km vm : SND.Idx → EReal) (xi xm : SBD.Idx → EReal) (y : SBO.Idx) (i : SOUT.Idx)
    (hqi : ∀ d : Fin 64, qi (ix2 (y 0) d) = QI (ix2 (i 0) d))
    (hqm : ∀ d : Fin 64, qm (ix2 (y 0) d) = QM (ix2 (i 0) d))
    (hki : ki = KI) (hvi : vi = VI) (hkm : km = KM) (hvm : vm = VM)
    (hxi : ∀ d : Fin 64, xi (ix2 (y 0) d) = XI (ix2 (i 0) d))
    (hxm : ∀ d : Fin 64, xm (ix2 (y 0) d) = XM (ix2 (i 0) d))
    (hcol : (y 1).val = (i 1).val) :
    blockOut qi qm ki vi km vm xi xm y = attnK QI QM KI VI KM VM XI XM i := by
  subst hki hvi hkm hvm
  have hc : (y 1 : Fin 4224) = (i 1 : Fin 4224) := Fin.ext hcol
  rw [attnK_apply]
  unfold blockOut
  rw [funext hqi, funext hqm, funext hxi, funext hxm, hc]

end CoAttn
-- ==== Proof.AttnArrIndex.lean ====
/-
  The index maps of the attention region's nine windows, decided over its sixteen grid points.

  At grid point t the query-side windows (0, 1, 6, 7) and the result window (8) are at block row t, block column 0;
  the four key-side windows (2, 3, 4, 5) are at block (0, 0) at every point: each is its whole array.
-/
import proofs.«152010_j7541962572380_2_alg».proof.Proof.Gen.KernelIdeal.Frame

namespace Cert.KernelIdeal.AttnArray

open Cert.KernelIdeal Cert.KernelIdeal.Gen Idealize.ShloMosaic

theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0 :=
  (by decide +kernel : ∀ t : Fin grid1.N, _)

end Cert.KernelIdeal.AttnArray
-- ==== Proof.AttnArrRead.lean ====
/-
  From the attention region's blocks to its result array.

  The region runs over sixteen grid points. At point t it reads rows 256 t … 256 t + 255 of the four query-side
  arrays (Q_I, Q_M, X_I, X_M), the four key-side arrays (K_I, V_I, K_M, V_M) whole, and writes rows
  256 t … 256 t + 255 of the result, all 4224 columns. If what the body leaves is the block of 256 rows of the
  attention stage of the blocks it read, then what point t writes back is the stage over all 4096 rows read through
  that point's block; the sixteen blocks cover the result array (row r lies in the block of point r / 256), so the
  array ends holding the stage of the eight arrays as the region found them.
-/
import proofs.«152010_j7541962572380_2_alg».proof.Proof.Gen.KernelIdeal.Frame
import proofs.«152010_j7541962572380_2_alg».proof.Proof.AttnArrRows
import proofs.«152010_j7541962572380_2_alg».proof.Proof.AttnArrIndex
import Idealize.ShloMosaic.Lib.Pipeline.Value

noncomputable section

namespace Cert.KernelIdeal.AttnArray

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Each input window's block, read off its array -/

/-- Window 0's block at point t is rows 256 t … 256 t + 255 of its array. -/
theorem iblk_0 (c : Dev nD) (t : Fin cfg1.N) (x : S256x64.Idx) (k : S4096x64.Idx)
    (hk0 : (k 0).val = 256 * t.val + (x 0).val) (hk1 : (k 1).val = (x 1).val) :
    (iblk1 V c 0 t : S256x64.Idx → EReal) x = (V c main_v0_0 : S4096x64.Idx → EReal) k := by
  obtain ⟨e0, e1, -, -, -, -, -, -, -, -, -, -, -, -, -, -, -, -⟩ := idx_facts t
  unfold iblk1
  rw [View.read_apply]
  show V c main_v0_0 _ = V c main_v0_0 _
  congr 1
  funext a
  apply Fin.ext
  match a with
  | ⟨0, _⟩ => show win1_0.index t (0 : Fin 2) * 256 + 1 * (x 0).val = (k 0).val; rw [e0, hk0]; omega
  | ⟨1, _⟩ => show win1_0.index t (1 : Fin 2) * 64 + 1 * (x 1).val = (k 1).val; rw [e1, hk1]; omega

/-- Window 1's block at point t is rows 256 t … 256 t + 255 of its array. -/
theorem iblk_1 (c : Dev nD) (t : Fin cfg1.N) (x : S256x64.Idx) (k : S4096x64.Idx)
    (hk0 : (k 0).val = 256 * t.val + (x 0).val) (hk1 : (k 1).val = (x 1).val) :
    (iblk1 V c 1 t : S256x64.Idx → EReal) x = (V c main_v0_3 : S4096x64.Idx → EReal) k := by
  obtain ⟨-, -, e0, e1, -, -, -, -, -, -, -, -, -, -, -, -, -, -⟩ := idx_facts t
  unfold iblk1
  rw [View.read_apply]
  show V c main_v0_3 _ = V c main_v0_3 _
  congr 1
  funext a
  apply Fin.ext
  match a with
  | ⟨0, _⟩ => show win1_1.index t (0 : Fin 2) * 256 + 1 * (x 0).val = (k 0).val; rw [e0, hk0]; omega
  | ⟨1, _⟩ => show win1_1.index t (1 : Fin 2) * 64 + 1 * (x 1).val = (k 1).val; rw [e1, hk1]; omega

/-- Window 2's block at every point is its whole array. -/
theorem iblk_2 (c : Dev nD) (t : Fin cfg1.N) :
    (iblk1 V c 2 t : S4096x64.Idx → EReal) = (V c main_v0_1 : S4096x64.Idx → EReal) := by
  obtain ⟨-, -, -, -, e0, e1, -, -, -, -, -, -, -, -, -, -, -, -⟩ := idx_facts t
  funext x
  unfold iblk1
  rw [View.read_apply]
  show V c main_v0_1 _ = V c main_v0_1 _
  congr 1
  funext a
  apply Fin.ext
  match a with
  | ⟨0, _⟩ => show win1_2.index t (0 : Fin 2) * 4096 + 1 * (x 0).val = (x 0).val; rw [e0]; omega
  | ⟨1, _⟩ => show win1_2.index t (1 : Fin 2) * 64 + 1 * (x 1).val = (x 1).val; rw [e1]; omega

/-- Window 3's block at every point is its whole array. -/
theorem iblk_3 (c : Dev nD) (t : Fin cfg1.N) :
    (iblk1 V c 3 t : S4096x64.Idx → EReal) = (V c main_v0_2 : S4096x64.Idx → EReal) := by
  obtain ⟨-, -, -, -, -, -, e0, e1, -, -, -, -, -, -, -, -, -, -⟩ := idx_facts t
  funext x
  unfold iblk1
  rw [View.read_apply]
  show V c main_v0_2 _ = V c main_v0_2 _
  congr 1
  funext a
  apply Fin.ext
  match a with
  | ⟨0, _⟩ => show win1_3.index t (0 : Fin 2) * 4096 + 1 * (x 0).val = (x 0).val; rw [e0]; omega
  | ⟨1, _⟩ => show win1_3.index t (1 : Fin 2) * 64 + 1 * (x 1).val = (x 1).val; rw [e1]; omega

/-- Window 4's block at every point is its whole array. -/
theorem iblk_4 (c : Dev nD) (t : Fin cfg1.N) :
    (iblk1 V c 4 t : S4096x64.Idx → EReal) = (V c main_v0_4 : S4096x64.Idx → EReal) := by
  obtain ⟨-, -, -, -, -, -, -, -, e0, e1, -, -, -, -, -, -, -, -⟩ := idx_facts t
  funext x
  unfold iblk1
  rw [View.read_apply]
  show V c main_v0_4 _ = V c main_v0_4 _
  congr 1
  funext a
  apply Fin.ext
  match a with
  | ⟨0, _⟩ => show win1_4.index t (0 : Fin 2) * 4096 + 1 * (x 0).val = (x 0).val; rw [e0]; omega
  | ⟨1, _⟩ => show win1_4.index t (1 : Fin 2) * 64 + 1 * (x 1).val = (x 1).val; rw [e1]; omega

/-- Window 5's block at every point is its whole array. -/
theorem iblk_5 (c : Dev nD) (t : Fin cfg1.N) :
    (iblk1 V c 5 t : S4096x64.Idx → EReal) = (V c main_v0_5 : S4096x64.Idx → EReal) := by
  obtain ⟨-, -, -, -, -, -, -, -, -, -, e0, e1, -, -, -, -, -, -⟩ := idx_facts t
  funext x
  unfold iblk1
  rw [View.read_apply]
  show V c main_v0_5 _ = V c main_v0_5 _
  congr 1
  funext a
  apply Fin.ext
  match a with
  | ⟨0, _⟩ => show win1_5.index t (0 : Fin 2) * 4096 + 1 * (x 0).val = (x 0).val; rw [e0]; omega
  | ⟨1, _⟩ => show win1_5.index t (1 : Fin 2) * 64 + 1 * (x 1).val = (x 1).val; rw [e1]; omega

/-- Window 6's block at point t is rows 256 t … 256 t + 255 of its array. -/
theorem iblk_6 (c : Dev nD) (t : Fin cfg1.N) (x : S256x64.Idx) (k : S4096x64.Idx)
    (hk0 : (k 0).val = 256 * t.val + (x 0).val) (hk1 : (k 1).val = (x 1).val) :
    (iblk1 V c 6 t : S256x64.Idx → EReal) x = (V c main_arg0 : S4096x64.Idx → EReal) k := by
  obtain ⟨-, -, -, -, -, -, -, -, -, -, -, -, e0, e1, -, -, -, -⟩ := idx_facts t
  unfold iblk1
  rw [View.read_apply]
  show V c main_arg0 _ = V c main_arg0 _
  congr 1
  funext a
  apply Fin.ext
  match a with
  | ⟨0, _⟩ => show win1_6.index t (0 : Fin 2) * 256 + 1 * (x 0).val = (k 0).val; rw [e0, hk0]; omega
  | ⟨1, _⟩ => show win1_6.index t (1 : Fin 2) * 64 + 1 * (x 1).val = (k 1).val; rw [e1, hk1]; omega

/-- Window 7's block at point t is rows 256 t … 256 t + 255 of its array. -/
theorem iblk_7 (c : Dev nD) (t : Fin cfg1.N) (x : S256x64.Idx) (k : S4096x64.Idx)
    (hk0 : (k 0).val = 256 * t.val + (x 0).val) (hk1 : (k 1).val = (x 1).val) :
    (iblk1 V c 7 t : S256x64.Idx → EReal) x = (V c main_arg1 : S4096x64.Idx → EReal) k := by
  obtain ⟨-, -, -, -, -, -, -, -, -, -, -, -, -, -, e0, e1, -, -⟩ := idx_facts t
  unfold iblk1
  rw [View.read_apply]
  show V c main_arg1 _ = V c main_arg1 _
  congr 1
  funext a
  apply Fin.ext
  match a with
  | ⟨0, _⟩ => show win1_7.index t (0 : Fin 2) * 256 + 1 * (x 0).val = (k 0).val; rw [e0, hk0]; omega
  | ⟨1, _⟩ => show win1_7.index t (1 : Fin 2) * 64 + 1 * (x 1).val = (k 1).val; rw [e1, hk1]; omega

/-! ## The result window's block -/

/-- Entry y of point t's result block is entry (256 t + y₀, y₁) of the result array. -/
theorem emb_8 (t : Fin cfg1.N) (y : S256x4224.Idx) :
    ((((cfg1.win 8).blk t).view.emb y) 0).val = 256 * t.val + (y 0).val
      ∧ ((((cfg1.win 8).blk t).view.emb y) 1).val = (y 1).val := by
  obtain ⟨-, -, -, -, -, -, -, -, -, -, -, -, -, -, -, -, e0, e1⟩ := idx_facts t
  constructor
  · show win1_8.index t (0 : Fin 2) * 256 + 1 * (y 0).val = _; rw [e0]; omega
  · show win1_8.index t (1 : Fin 2) * 4224 + 1 * (y 1).val = _; rw [e1]; omega

/-- An index of the result array is in point t's block iff each coordinate is in the block's range on its axis. -/
theorem mem_blk_8 (t : Fin cfg1.N) (i : S4096x4224.Idx) :
    i ∈ ((cfg1.win 8).blk t).view.set ↔ ∀ a : Fin 2, win1_8.index t a * S256x4224.size a ≤ (i a).val ∧ (i a).val < win1_8.index t a * S256x4224.size a + S256x4224.size a := by
  show i ∈ ((View.whole main_v1).slice (win1_8.rect t)).set ↔ _
  rw [View.set_slice_whole, Rect.mem_set_unit]
  exact Iff.rfl

/-- Every index of the result array is in the block of the point its row belongs to. -/
theorem cover_8 (i : S4096x4224.Idx) : ∃ t : Fin cfg1.N, (cfg1.win 8).flush t = true ∧ i ∈ ((cfg1.win 8).blk t).view.set := by
  have hi0 : (i 0).val < 4096 := (i 0).isLt
  have hi1 : (i 1).val < 4224 := (i 1).isLt
  have hN : cfg1.N = 16 := N_1
  refine ⟨⟨(i 0).val / 256, by rw [hN]; omega⟩, flush1_8 _, ?_⟩
  rw [mem_blk_8]
  obtain ⟨-, -, -, -, -, -, -, -, -, -, -, -, -, -, -, -, e0, e1⟩ := idx_facts ⟨(i 0).val / 256, by rw [hN]; omega⟩
  intro a
  match a with
  | ⟨0, _⟩ =>
    show win1_8.index ⟨(i 0).val / 256, _⟩ (0 : Fin 2) * 256 ≤ (i 0).val ∧ (i 0).val < win1_8.index ⟨(i 0).val / 256, _⟩ (0 : Fin 2) * 256 + 256
    rw [e0]
    show (i 0).val / 256 * 256 ≤ (i 0).val ∧ (i 0).val < (i 0).val / 256 * 256 + 256
    omega
  | ⟨1, _⟩ =>
    show win1_8.index ⟨(i 0).val / 256, _⟩ (1 : Fin 2) * 4224 ≤ (i 1).val ∧ (i 1).val < win1_8.index ⟨(i 0).val / 256, _⟩ (1 : Fin 2) * 4224 + 4224
    rw [e1]
    omega

/-! ## What a point writes back, and the array after the region -/

/-- If the body leaves the stage's block of 256 rows of the blocks it read, point t writes back the stage over all
    rows, read through that point's block. -/
theorem flushed_eq_of
    (hout : ∀ (x0 x1 : Vec Ideal S256x64 .bf16) (x2 x3 x4 x5 : Vec Ideal S4096x64 .bf16) (x6 x7 : Vec Ideal S256x64 .f32),
      out1_8 (F := Ideal) x0 x1 x2 x3 x4 x5 x6 x7 = CoAttn.blockOut x0 x1 x2 x3 x4 x5 x6 x7)
    (c : Dev nD) (t : Fin cfg1.N) :
    (dat1 (F := Ideal) V c).flushed 8 t
      = ((cfg1.win 8).blk t).view.read (Elt Ideal) (CoAttn.attnK (V c main_v0_0) (V c main_v0_3) (V c main_v0_1) (V c main_v0_2) (V c main_v0_4) (V c main_v0_5) (V c main_arg0) (V c main_arg1)) := by
  show (cfg1.win 8).cut (grid1.coords t) ((dat1 V c).after 8 t) = _
  rw [after1_8, hout]
  funext y
  obtain ⟨er, ec⟩ := emb_8 t y
  show CoAttn.blockOut (iblk1 V c 0 t) (iblk1 V c 1 t) (iblk1 V c 2 t) (iblk1 V c 3 t) (iblk1 V c 4 t) (iblk1 V c 5 t) (iblk1 V c 6 t) (iblk1 V c 7 t) y
      = CoAttn.attnK (V c main_v0_0) (V c main_v0_3) (V c main_v0_1) (V c main_v0_2) (V c main_v0_4) (V c main_v0_5) (V c main_arg0) (V c main_arg1) (((cfg1.win 8).blk t).view.emb y)
  exact CoAttn.blockOut_eq_attnK_at _ _ _ _ _ _ _ _ _ _ _ _ _ _ _ _ y _
    (fun d => iblk_0 V c t _ _ er rfl) (fun d => iblk_1 V c t _ _ er rfl)
    (iblk_2 V c t) (iblk_3 V c t) (iblk_4 V c t) (iblk_5 V c t)
    (fun d => iblk_6 V c t _ _ er rfl) (fun d => iblk_7 V c t _ _ er rfl) ec.symm

/-- So the result array ends holding the stage of the eight arrays as the region found them. -/
theorem final_of
    (hout : ∀ (x0 x1 : Vec Ideal S256x64 .bf16) (x2 x3 x4 x5 : Vec Ideal S4096x64 .bf16) (x6 x7 : Vec Ideal S256x64 .f32),
      out1_8 (F := Ideal) x0 x1 x2 x3 x4 x5 x6 x7 = CoAttn.blockOut x0 x1 x2 x3 x4 x5 x6 x7)
    (c : Dev nD) :
    (dat1 (F := Ideal) V c).arrAt 8 cfg1.N = CoAttn.attnK (V c main_v0_0) (V c main_v0_3) (V c main_v0_1) (V c main_v0_2) (V c main_v0_4) (V c main_v0_5) (V c main_arg0) (V c main_arg1) :=
  (dat1 (F := Ideal) V c).arrAt_eq_of_cover 8 _ (fun t _ => flushed_eq_of V hout c t) cover_8

end Cert.KernelIdeal.AttnArray

end
-- ==== Proof.LibTransposedMatmul.lean ====
/-
  A matrix product against a TRANSPOSED right operand, into a zero accumulator, read at a row and a column.

  For dimension numbers that contract the left operand's columns with the right operand's COLUMNS (no batch axis) —
  the product  A Bᵀ  of an `[M, K]` matrix and an `[N, K]` matrix —, entry `(r, c)` accumulated into zero is the sum over
  `k` of `lhs (r, k) * rhs (c, k)` on the extended reals: the accumulator contributes `0`, and the contraction index,
  a rank-one index, is re-indexed by its one coordinate. Stated for any extents and float formats, with the dimension
  numbers given by their six lists, so that any printed record with these lists unifies.
-/
import Idealize.ShloMosaic.PureOps.Ideal.Laws
import Idealize.ShloMosaic.Lib.ValueIdx

namespace Cert.Lib.TransposedMatmul

open Idealize.ShloMosaic Idealize.ShloMosaic.ValueIdx

set_option backward.isDefEq.respectTransparency.types false in
/-- The product of `[M, K]` by the transpose of `[N, K]` into the zero splat, at `(r, c)`: `∑ k, lhs (r, k) * rhs (c, k)`. -/
theorem matmul_zero_apply {M K N : ℕ} {φ₁ φ₂ : FTy}
    (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision) (lhs : FVec Ideal ⟨2, ![M, K]⟩ φ₁) (rhs : FVec Ideal ⟨2, ![N, K]⟩ φ₂)
    (r : Fin M) (c : Fin N) :
    FloatOps.matmul d prec lhs rhs (constant ⟨2, ![M, N]⟩ .f32 0x00000000#32) (ix2 r c)
      = ∑ k : Fin K, lhs (ix2 r k) * rhs (ix2 c k) := by
  obtain ⟨lc, rc, ln, rn, lb, rb, wf⟩ := d
  dsimp only at hlc hrc hln hrn hlb hrb
  subst hlc hrc hln hrn hlb hrb
  rw [Ideal.matmul_constant_zero_apply]
  rw [← Equiv.sum_comp (contrEquiv1 (⟨[1], [1], [0], [0], [], [], wf⟩ : DotDims ⟨2, ![M, K]⟩ ⟨2, ![N, K]⟩ ⟨2, ![M, N]⟩) K rfl rfl).symm]
  refine Finset.sum_congr rfl fun k _ => ?_
  have hk := contrEquiv1_symm_val (⟨[1], [1], [0], [0], [], [], wf⟩ : DotDims ⟨2, ![M, K]⟩ ⟨2, ![N, K]⟩ ⟨2, ![M, N]⟩) K rfl rfl k
  have el : (⟨[1], [1], [0], [0], [], [], wf⟩ : DotDims ⟨2, ![M, K]⟩ ⟨2, ![N, K]⟩ ⟨2, ![M, N]⟩).lhsIdx (ix2 r c)
      ((contrEquiv1 (⟨[1], [1], [0], [0], [], [], wf⟩ : DotDims ⟨2, ![M, K]⟩ ⟨2, ![N, K]⟩ ⟨2, ![M, N]⟩) K rfl rfl).symm k) = ix2 r k :=
    funext fun a => Fin.ext (by
      match a with
      | ⟨0, h0⟩ =>
        unfold DotDims.lhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.lhsIdx_val_of_single _ rfl _ _).trans hk)
  have er : (⟨[1], [1], [0], [0], [], [], wf⟩ : DotDims ⟨2, ![M, K]⟩ ⟨2, ![N, K]⟩ ⟨2, ![M, N]⟩).rhsIdx (ix2 r c)
      ((contrEquiv1 (⟨[1], [1], [0], [0], [], [], wf⟩ : DotDims ⟨2, ![M, K]⟩ ⟨2, ![N, K]⟩ ⟨2, ![M, N]⟩) K rfl rfl).symm k) = ix2 c k :=
    funext fun a => Fin.ext (by
      match a with
      | ⟨0, h0⟩ =>
        unfold DotDims.rhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.rhsIdx_val_of_single _ rfl _ _).trans hk)
  rw [el, er]

end Cert.Lib.TransposedMatmul
-- ==== Proof.LibColumnLayout.lean ====
/-
  COLUMN FORMS OF THE LAYOUT OPERATIONS, READ AT AN INDEX GIVEN BY COORDINATES. A sum over the last axis kept as a
  column (`keepdims`) is a vector `[a]` cast to `[a, 1]` and then broadcast along the new unit axis to `[a, b]`:
  at `(i, j)` both read the vector at `i`. The two lemmas below say so for indices written `ix1` / `ix2`, for any
  element type and any extents; they are the column counterparts of the row forms `shapeCast_a_1a_apply` and
  `broadcastTo_1b_ab_apply`.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- An `[a]` array cast to the column `[a, 1]` reads, at `(i, u)`, the operand at `i`, whatever the unit coordinate
    `u`: the two row-major positions are `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry in row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ColumnLayout
-- ==== Proof.AttnBody.lean ====
/-
  The attention kernel's body, read at an index.

  A grid point holds a block of 256 query rows q_I, q_M, x_I, x_M and the whole key-side arrays K_I, V_I, K_M, V_M.
  Its body forms the two blocks of scaled scores  S = (q Kᵀ) · (1/8),  each row's maximum, the unnormalised weights
  p = exp (S - max), their row sums l, the products  p V,  and the row overlap  c = (Σ_k p p') / (l l').  Read at a row r
  these are the row-level quantities of AttnRow.lean at the row vectors q[r,·]: `rscore`, `rmax`, `rp`, `rl`,
  `ratt`, `rovl`.
-/
import proofs.«152010_j7541962572380_2_alg».proof.Proof.Gen.KernelIdeal.Skeleton
import proofs.«152010_j7541962572380_2_alg».proof.Proof.AttnRow
import proofs.«152010_j7541962572380_2_alg».proof.Proof.LibTransposedMatmul
import proofs.«152010_j7541962572380_2_alg».proof.Proof.LibPlainMatmul
import proofs.«152010_j7541962572380_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.AttnBody

open Cert.KernelIdeal Cert.KernelIdeal.Gen CoAttn
open Idealize.ShloMosaic Idealize.ShloMosaic.TcCoe Idealize.ShloMosaic.ValueIdx Idealize.ShloMosaic.ColumnLayout

/-- The index a lane reduction of a [256, 4096] block reads at row `r`, lane `k`. -/
theorem lift_row (r : Fin 256) (k : Fin 4096) : reduces_S256x4096_S256.lift (ix1 r) k = ix2 r k :=
  funext fun a => Fin.ext (by match a with | ⟨0, _⟩ => rfl | ⟨1, _⟩ => rfl)

/-- The word 0xFF800000 denotes -∞. -/
theorem neg_inf : Ideal.ofBits .f32 0xFF800000#32 = ⊥ := by simp [Ideal.ofBits, Ideal.ieee]

/-- A block of scaled scores: (q Kᵀ) · (1/8). -/
def blkScore (q : Vec Ideal S256x64 .bf16) (K : Vec Ideal S4096x64 .bf16) : FVec Ideal S256x4096 .f32 :=
  mulf (matmul dot_S256x64_S4096x64_S256x4096_1_1_0_0_n_n none
      (shapeCast S256x64 q shapeCasts_S256x64_S256x64 : FVec Ideal S256x64 .bf16)
      (shapeCast S4096x64 K shapeCasts_S4096x64_S4096x64 : FVec Ideal S4096x64 .bf16) (constant S256x4096 .f32 0x00000000#32))
    (broadcast S256x4096 (Scalar.ofBits .f32 0x3E000000#32 : Ideal .f32))

/-- Row `r` of the block of scores is the row-level score of q[r,·]. -/
theorem blkScore_apply (q : Vec Ideal S256x64 .bf16) (K : Vec Ideal S4096x64 .bf16) (r : Fin 256) (k : Fin 4096) :
    blkScore q K (ix2 r k) = rscore (fun d => q (ix2 r d)) K k := by
  unfold blkScore rscore
  rw [mulf_apply, broadcast_apply, shapeCast_self, shapeCast_self]
  refine congrArg (fun z => z * scale) ?_
  exact Cert.Lib.TransposedMatmul.matmul_zero_apply _ rfl rfl rfl rfl rfl rfl none q K r k

/-- The block's row maxima: a lane reduction from -∞. -/
def blkMax (q : Vec Ideal S256x64 .bf16) (K : Vec Ideal S4096x64 .bf16) : FVec Ideal S256 .f32 :=
  multiReduction .maximumf [1] S256 (blkScore q K) 0xFF800000#32 reduces_S256x4096_S256 (.inl rfl) rfl

/-- The row maximum the body takes is the row-level maximum. -/
theorem blkMax_apply (q : Vec Ideal S256x64 .bf16) (K : Vec Ideal S4096x64 .bf16) (r : Fin 256) :
    blkMax q K (ix1 r) = rmax (rscore (fun d => q (ix2 r d)) K) := by
  unfold blkMax
  refine (Ideal.multiReduction_maximumf_single (blkScore q K) 0xFF800000#32 reduces_S256x4096_S256 (.inl rfl) rfl (ix1 r)).trans ?_
  unfold rmax
  have hf : (blkScore q K ∘ reduces_S256x4096_S256.lift (ix1 r)) = rscore (fun d => q (ix2 r d)) K :=
    funext fun k => (congrArg (blkScore q K) (lift_row r k)).trans (blkScore_apply q K r k)
  rw [hf, Ideal.ofBits_def, neg_inf]
  rfl

/-- The body's weights, as it spells them over the block of scores. -/
theorem weights_eq (q : Vec Ideal S256x64 .bf16) (K : Vec Ideal S4096x64 .bf16) :
    k1_pay2 (F := Ideal) q K = exp (subf (blkScore q K)
      (broadcastTo S256x4096 (shapeCast S256x1 (blkMax q K) shapeCasts_S256_S256x1 : FVec Ideal S256x1 .f32) broadcasts_S256x1_S256x4096)) := rfl

/-- The unnormalised weights: `k1_pay2` at (r, k) is exp (s[k] - max s) for the row's scores s. -/
theorem weights_apply (q : Vec Ideal S256x64 .bf16) (K : Vec Ideal S4096x64 .bf16) (r : Fin 256) (k : Fin 4096) :
    k1_pay2 (F := Ideal) q K (ix2 r k) = rp (rscore (fun d => q (ix2 r d)) K) k := by
  rw [weights_eq]
  show Ideal.exp (blkScore q K (ix2 r k) - broadcastTo S256x4096 (shapeCast S256x1 (blkMax q K) shapeCasts_S256_S256x1 : FVec Ideal S256x1 .f32)
      broadcasts_S256x1_S256x4096 (ix2 r k)) = _
  rw [broadcastTo_a1_ab_apply, shapeCast_a_a1_apply, blkMax_apply, blkScore_apply]
  rfl

/-- The other score block's weights are the same function of its operands. -/
theorem weights'_apply (q : Vec Ideal S256x64 .bf16) (K : Vec Ideal S4096x64 .bf16) (r : Fin 256) (k : Fin 4096) :
    k1_pay3 (F := Ideal) q K (ix2 r k) = rp (rscore (fun d => q (ix2 r d)) K) k :=
  weights_apply q K r k

/-- A lane sum of a [256, 4096] block kept as a column, at row `r`. -/
theorem lanesum_apply (v : FVec Ideal S256x4096 .f32) (r : Fin 256) (u : Fin 1) :
    (shapeCast S256x1 (multiReduction .add [1] S256 v 0x00000000#32 reduces_S256x4096_S256 (.inl rfl) rfl : FVec Ideal S256 .f32)
        shapeCasts_S256_S256x1 : FVec Ideal S256x1 .f32) (ix2 r u) = ∑ k : Fin 4096, v (ix2 r k) := by
  rw [shapeCast_a_a1_apply]
  refine (Ideal.multiReduction_add_single v 0x00000000#32 reduces_S256x4096_S256 (.inl rfl) rfl (ix1 r)).trans ?_
  exact Finset.sum_congr rfl fun k _ => congrArg v (lift_row r k)

/-- The row sums: `k1_pay4` at (r, ·) is Σ_k p[k]. -/
theorem rowsum_apply (q : Vec Ideal S256x64 .bf16) (K : Vec Ideal S4096x64 .bf16) (r : Fin 256) (u : Fin 1) :
    k1_pay4 (F := Ideal) q K (ix2 r u) = rl (rscore (fun d => q (ix2 r d)) K) := by
  unfold k1_pay4
  refine (lanesum_apply (k1_pay2 (F := Ideal) q K) r u).trans ?_
  unfold rl
  exact Finset.sum_congr rfl fun k _ => weights_apply q K r k

theorem rowsum'_apply (q : Vec Ideal S256x64 .bf16) (K : Vec Ideal S4096x64 .bf16) (r : Fin 256) (u : Fin 1) :
    k1_pay5 (F := Ideal) q K (ix2 r u) = rl (rscore (fun d => q (ix2 r d)) K) := by
  unfold k1_pay5
  refine (lanesum_apply (k1_pay3 (F := Ideal) q K) r u).trans ?_
  unfold rl
  exact Finset.sum_congr rfl fun k _ => weights'_apply q K r k

/-- A weights block times a value array, at (r, e). -/
theorem attendOf_apply (p : FVec Ideal S256x4096 .f32) (V : Vec Ideal S4096x64 .bf16) (r : Fin 256) (e : Fin 64) :
    matmul dot_S256x4096_S4096x64_S256x64_1_0_0_1_n_n none (truncf .bf16 p bitsLt_bf16_f32 : FVec Ideal S256x4096 .bf16)
        (shapeCast S4096x64 V shapeCasts_S4096x64_S4096x64 : FVec Ideal S4096x64 .bf16) (constant S256x64 .f32 0x00000000#32) (ix2 r e)
      = ∑ k : Fin 4096, p (ix2 r k) * V (ix2 k e) := by
  rw [shapeCast_self]
  exact Cert.Lib.PlainMatmul.matmul_zero_apply _ rfl rfl rfl rfl rfl rfl none (truncf .bf16 p bitsLt_bf16_f32 : FVec Ideal S256x4096 .bf16) V r e

/-- The unnormalised attended values: `k1_pay6` at (r, e) is Σ_k p[k] V[k,e]. -/
theorem attend_apply (q : Vec Ideal S256x64 .bf16) (K V : Vec Ideal S4096x64 .bf16) (r : Fin 256) (e : Fin 64) :
    k1_pay6 (F := Ideal) q K V (ix2 r e) = ∑ k : Fin 4096, rp (rscore (fun d => q (ix2 r d)) K) k * V (ix2 k e) := by
  unfold k1_pay6
  refine (attendOf_apply (k1_pay2 (F := Ideal) q K) V r e).trans ?_
  exact Finset.sum_congr rfl fun k _ => by rw [weights_apply]

theorem attend'_apply (q : Vec Ideal S256x64 .bf16) (K V : Vec Ideal S4096x64 .bf16) (r : Fin 256) (e : Fin 64) :
    k1_pay7 (F := Ideal) q K V (ix2 r e) = ∑ k : Fin 4096, rp (rscore (fun d => q (ix2 r d)) K) k * V (ix2 k e) := by
  unfold k1_pay7
  refine (attendOf_apply (k1_pay3 (F := Ideal) q K) V r e).trans ?_
  exact Finset.sum_congr rfl fun k _ => by rw [weights'_apply]

/-- The row overlap: `k1_pay9` at (r, ·), from weights and row sums that are the row-level ones at row r. -/
theorem overlap_apply (v20 v23 : FVec Ideal S256x4096 .f32) (v25 v27 : FVec Ideal S256x1 .f32) (s s' : Fin 4096 → EReal) (r : Fin 256)
    (h20 : ∀ k, v20 (ix2 r k) = rp s k) (h23 : ∀ k, v23 (ix2 r k) = rp s' k)
    (h25 : v25 (ix2 r (0 : Fin 1)) = rl s) (h27 : v27 (ix2 r (0 : Fin 1)) = rl s') (u : Fin 1) :
    k1_pay9 (F := Ideal) v20 v23 v25 v27 (ix2 r u) = rovl s s' := by
  obtain rfl : u = 0 := Subsingleton.elim _ _
  unfold k1_pay9
  show Ideal.div ((shapeCast S256x1 (multiReduction .add [1] S256 (mulf v20 v23) 0x00000000#32 reduces_S256x4096_S256 (.inl rfl) rfl : FVec Ideal S256 .f32)
      shapeCasts_S256_S256x1 : FVec Ideal S256x1 .f32) (ix2 r 0)) (v25 (ix2 r 0) * v27 (ix2 r 0)) = _
  rw [lanesum_apply, h25, h27]
  unfold rovl
  refine congrArg (fun z => Ideal.div z (rl s * rl s')) (Finset.sum_congr rfl fun k _ => ?_)
  rw [mulf_apply, h20, h23]

end Cert.KernelIdeal.AttnBody

end
-- ==== Proof.AttnBlock.lean ====
/-
  A grid point's result block is a block of the attention stage.

  The body fills its [256, 4224] staging block by 33 stores of 128 columns each: columns 0..127 the two attended blocks
  side by side, and store number j ≥ 1 the two bilinear slabs (c x_M[·, 2(j-1)]) x_I ‖ (c x_M[·, 2(j-1)+1]) x_I at columns
  128 j .. 128 j + 127. Each store's payload is the block function `blockOut` of AttnRow.lean read through the store's
  rectangle; the stores tile the block, so what the body leaves is `blockOut` of the point's input blocks.
-/
import proofs.«152010_j7541962572380_2_alg».proof.Proof.Gen.KernelIdeal.Frame
import proofs.«152010_j7541962572380_2_alg».proof.Proof.AttnBody

set_option maxRecDepth 16384

noncomputable section

namespace Cert.KernelIdeal.AttnBlock

open Cert.KernelIdeal Cert.KernelIdeal.Gen Cert.KernelIdeal.AttnBody CoAttn
open Idealize.ShloMosaic Idealize.ShloMosaic.TcCoe Idealize.ShloMosaic.ValueIdx Idealize.ShloMosaic.ColumnLayout

/-- Two [256, 64] halves joined along the columns, at (r, j): the left half for j < 64, else the right at j - 64. -/
theorem halves_apply (a b : FVec Ideal S256x64 .f32) (r : Fin 256) (j : Fin 128) :
    concatenate S256x128 1 [⟨S256x64, a⟩, ⟨S256x64, b⟩] concatenates_S256x64_S256x64_S256x128_d1 (ix2 r j)
      = if hj : j.val < 64 then a (ix2 r ⟨j.val, hj⟩) else b (ix2 r ⟨j.val - 64, by have := j.isLt; omega⟩) := by
  split
  · next hj =>
    refine concatenate_pair_apply_left (1 : Fin 2) a b concatenates_S256x64_S256x64_S256x128_d1 (ix2 r j) rfl
      (ix2 r ⟨j.val, hj⟩) (fun b' => ?_)
    match b' with
    | ⟨0, _⟩ => rfl
    | ⟨1, _⟩ => rfl
  · next hj =>
    refine concatenate_pair_apply_right (1 : Fin 2) a b concatenates_S256x64_S256x64_S256x128_d1 (ix2 r j) rfl rfl
      (ix2 r ⟨j.val - 64, by have := j.isLt; omega⟩) (fun b' hb => ?_) ?_
    · match b' with
      | ⟨0, _⟩ => rfl
      | ⟨1, _⟩ => exact absurd rfl hb
    · show (j.val - 64) + 64 = j.val
      omega

/-- One bilinear slab: ((c · x_M[·, d]) broadcast along the columns) · x_I, at (r, e). -/
theorem slab_apply (c : FVec Ideal S256x1 .f32) (xi xm : Vec Ideal S256x64 .f32) (d : ℕ) (hd : d < 64)
    (h : S256x64.Slices ![0, d] S256x1) (r : Fin 256) (e : Fin 64) :
    mulf (broadcastTo S256x64 (mulf c (extractStridedSlice S256x1 ![0, d] xm h : FVec Ideal S256x1 .f32)) broadcasts_S256x1_S256x64 : FVec Ideal S256x64 .f32)
        xi (ix2 r e)
      = (c (ix2 r (0 : Fin 1)) * xm (ix2 r ⟨d, hd⟩)) * xi (ix2 r e) := by
  rw [mulf_apply, broadcastTo_a1_ab_apply, mulf_apply, slice2_axis1_apply d xm h r (0 : Fin 1) ⟨d, hd⟩ rfl]

/-- A store's rectangle (all 256 rows, 128 columns from column `o`) embeds (r, j) at (r, o + j). -/
theorem emb_store (o : ℕ) (inb : ∀ a, (![0, o] : Fin 2 → ℕ) a + S256x128.size a ≤ S256x4224.size a) (ho : o + 128 ≤ 4224)
    (r : Fin 256) (j : Fin 128) :
    (Rect.unit (s := S256x4224) ![0, o] S256x128.size inb).emb (ix2 r j) = ix2 r ⟨o + j.val, by have := j.isLt; omega⟩ :=
  funext fun a => Fin.ext (by
    match a with
    | ⟨0, _⟩ => show 0 + 1 * r.val = r.val; omega
    | ⟨1, _⟩ => show o + 1 * j.val = o + j.val; omega)

/-- The overlap column the body computes from the point's blocks. -/
abbrev ovl (x0 x1 : Vec Ideal S256x64 .bf16) (x2 x4 : Vec Ideal S4096x64 .bf16) : FVec Ideal S256x1 .f32 :=
  k1_pay9 (F := Ideal) (k1_pay2 x1 x2) (k1_pay3 x0 x4) (k1_pay4 x1 x2) (k1_pay5 x0 x4)

/-- At row r it is the row-level overlap of the two rows of scores. -/
theorem ovl_apply (x0 x1 : Vec Ideal S256x64 .bf16) (x2 x4 : Vec Ideal S4096x64 .bf16) (r : Fin 256) :
    ovl x0 x1 x2 x4 (ix2 r (0 : Fin 1)) = rovl (rscore (fun d => x1 (ix2 r d)) x2) (rscore (fun d => x0 (ix2 r d)) x4) :=
  overlap_apply _ _ _ _ _ _ r (fun k => weights_apply x1 x2 r k) (fun k => weights'_apply x0 x4 r k)
    (rowsum_apply x1 x2 r 0) (rowsum'_apply x0 x4 r 0) 0

/-- A bilinear store — the two slabs for the columns d0 and d0 + 1 of x_M, joined — is `blockOut` read through its
    rectangle, which starts at column 128 + 64 d0. -/
theorem outer_store (x0 x1 : Vec Ideal S256x64 .bf16) (x2 x3 x4 x5 : Vec Ideal S4096x64 .bf16) (x6 x7 : Vec Ideal S256x64 .f32)
    (d0 d1 : ℕ) (hd0 : d0 < 64) (hd1 : d1 < 64) (h0 : S256x64.Slices ![0, d0] S256x1) (h1 : S256x64.Slices ![0, d1] S256x1)
    (hd : d1 = d0 + 1) (o : ℕ) (ho : o = 128 + 64 * d0)
    (inb : ∀ a, (![0, o] : Fin 2 → ℕ) a + S256x128.size a ≤ S256x4224.size a) (x : S256x128.Idx) :
    concatenate S256x128 1
        [⟨S256x64, mulf (broadcastTo S256x64 (mulf (ovl x0 x1 x2 x4) (extractStridedSlice S256x1 ![0, d0] x7 h0 : FVec Ideal S256x1 .f32)) broadcasts_S256x1_S256x64 : FVec Ideal S256x64 .f32) x6⟩,
         ⟨S256x64, mulf (broadcastTo S256x64 (mulf (ovl x0 x1 x2 x4) (extractStridedSlice S256x1 ![0, d1] x7 h1 : FVec Ideal S256x1 .f32)) broadcasts_S256x1_S256x64 : FVec Ideal S256x64 .f32) x6⟩]
        concatenates_S256x64_S256x64_S256x128_d1 x
      = blockOut x0 x1 x2 x3 x4 x5 x6 x7 ((Rect.unit (s := S256x4224) ![0, o] S256x128.size inb).emb x) := by
  obtain ⟨r, j, rfl⟩ : ∃ (r : Fin 256) (j : Fin 128), x = ix2 r j := ⟨x 0, x 1, eq_ix2 x⟩
  have hj := j.isLt
  obtain ⟨col, hcol⟩ : ∃ col : Fin 4224, col.val = o + j.val := ⟨⟨o + j.val, by omega⟩, rfl⟩
  have hc := col.isLt
  have hemb : (Rect.unit (s := S256x4224) ![0, o] S256x128.size inb).emb (ix2 r j) = ix2 r col :=
    (emb_store o inb (by omega) r j).trans (congrArg (ix2 r) (Fin.ext hcol.symm))
  rw [hemb]
  show _ = rowOut (fun d => x0 (ix2 r d)) (fun d => x1 (ix2 r d)) (fun d => x6 (ix2 r d)) (fun d => x7 (ix2 r d)) x2 x3 x4 x5 col
  unfold rowOut
  rw [dif_neg (by omega : ¬ col.val < 64), dif_neg (by omega : ¬ col.val < 128), halves_apply]
  split
  · next h64 =>
    rw [slab_apply _ x6 x7 d0 hd0 h0, ovl_apply]
    have e1 : (⟨d0, hd0⟩ : Fin 64) = ⟨(col.val - 128) / 64, by omega⟩ := Fin.ext (by show d0 = (col.val - 128) / 64; omega)
    have e2 : (⟨j.val, h64⟩ : Fin 64) = ⟨(col.val - 128) % 64, Nat.mod_lt _ (by norm_num)⟩ :=
      Fin.ext (by show j.val = (col.val - 128) % 64; omega)
    rw [e1, e2]
  · next h64 =>
    rw [slab_apply _ x6 x7 d1 hd1 h1, ovl_apply]
    have e1 : (⟨d1, hd1⟩ : Fin 64) = ⟨(col.val - 128) / 64, by omega⟩ := Fin.ext (by show d1 = (col.val - 128) / 64; omega)
    have e2 : (⟨j.val - 64, by omega⟩ : Fin 64) = ⟨(col.val - 128) % 64, Nat.mod_lt _ (by norm_num)⟩ :=
      Fin.ext (by show j.val - 64 = (col.val - 128) % 64; omega)
    rw [e1, e2]

/-- The first store — the two attended blocks, each divided by its row sums, joined — is `blockOut` read through
    the first 128 columns. -/
theorem first_store (x0 x1 : Vec Ideal S256x64 .bf16) (x2 x3 x4 x5 : Vec Ideal S4096x64 .bf16) (x6 x7 : Vec Ideal S256x64 .f32)
    (inb : ∀ a, (![0, 0] : Fin 2 → ℕ) a + S256x128.size a ≤ S256x4224.size a) (x : S256x128.Idx) :
    k1_pay10 (F := Ideal) (k1_pay5 x0 x4) (k1_pay6 x1 x2 x3) (k1_pay7 x0 x4 x5) (k1_pay8 x1 x2) x
      = blockOut x0 x1 x2 x3 x4 x5 x6 x7 ((Rect.unit (s := S256x4224) ![0, 0] S256x128.size inb).emb x) := by
  obtain ⟨r, j, rfl⟩ : ∃ (r : Fin 256) (j : Fin 128), x = ix2 r j := ⟨x 0, x 1, eq_ix2 x⟩
  have hj := j.isLt
  obtain ⟨col, hcol⟩ : ∃ col : Fin 4224, col.val = 0 + j.val := ⟨⟨0 + j.val, by omega⟩, rfl⟩
  have hemb : (Rect.unit (s := S256x4224) ![0, 0] S256x128.size inb).emb (ix2 r j) = ix2 r col :=
    (emb_store 0 inb (by omega) r j).trans (congrArg (ix2 r) (Fin.ext hcol.symm))
  rw [hemb]
  show _ = rowOut (fun d => x0 (ix2 r d)) (fun d => x1 (ix2 r d)) (fun d => x6 (ix2 r d)) (fun d => x7 (ix2 r d)) x2 x3 x4 x5 col
  unfold k1_pay10
  refine (halves_apply _ _ r j).trans ?_
  unfold rowOut
  by_cases h64 : j.val < 64
  · rw [dif_pos h64, dif_pos (by omega : col.val < 64), divf_apply, attend_apply]
    unfold k1_pay8
    rw [broadcastTo_a1_ab_apply, rowsum_apply]
    unfold ratt
    have e : (⟨j.val, h64⟩ : Fin 64) = ⟨col.val, by omega⟩ := Fin.ext (by show j.val = col.val; omega)
    rw [e]
  · rw [dif_neg h64, dif_neg (by omega : ¬ col.val < 64), dif_pos (by omega : col.val < 128), divf_apply, attend'_apply,
      broadcastTo_a1_ab_apply, rowsum'_apply]
    unfold ratt
    have e : (⟨j.val - 64, by omega⟩ : Fin 64) = ⟨col.val - 64, by omega⟩ := Fin.ext (by show j.val - 64 = col.val - 64; omega)
    rw [e]

theorem zero_offsets : (![0, 0] : Fin 2 → ℕ) = fun _ => 0 := funext fun a => by fin_cases a <;> rfl

/-- What the body leaves in the result window's block, from the eight input blocks: the block of the stage. -/
theorem out_eq (x0 x1 : Vec Ideal S256x64 .bf16) (x2 x3 x4 x5 : Vec Ideal S4096x64 .bf16) (x6 x7 : Vec Ideal S256x64 .f32) :
    out1_8 (F := Ideal) x0 x1 x2 x3 x4 x5 x6 x7 = blockOut x0 x1 x2 x3 x4 x5 x6 x7 := by
  funext y
  unfold out1_8
  simp only [View.ld_unit_zero (S := S256x64) zero_offsets, View.ld_unit_zero (S := S4096x64) zero_offsets]
  refine View.canon_apply_of_pieces (Val := Elt Ideal) (S := S256x4224) (e := .f32) (blockOut x0 x1 x2 x3 x4 x5 x6 x7) _ (fun p hp x => ?_) y
    (cover1_8 _ _ _ _ _ _ _ _ _ _ _ _ _ _ _ _ _ _ _ _ _ _ _ _ _ _ _ _ _ _ _ _ _ y)
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact outer_store x0 x1 x2 x3 x4 x5 x6 x7 62 63 (by norm_num) (by norm_num) slices_S256x64_o0_62_S256x1 slices_S256x64_o0_63_S256x1 rfl 4096 rfl inb_S256x4224_S256x128_0_4096 x
  · exact outer_store x0 x1 x2 x3 x4 x5 x6 x7 60 61 (by norm_num) (by norm_num) slices_S256x64_o0_60_S256x1 slices_S256x64_o0_61_S256x1 rfl 3968 rfl inb_S256x4224_S256x128_0_3968 x
  · exact outer_store x0 x1 x2 x3 x4 x5 x6 x7 58 59 (by norm_num) (by norm_num) slices_S256x64_o0_58_S256x1 slices_S256x64_o0_59_S256x1 rfl 3840 rfl inb_S256x4224_S256x128_0_3840 x
  · exact outer_store x0 x1 x2 x3 x4 x5 x6 x7 56 57 (by norm_num) (by norm_num) slices_S256x64_o0_56_S256x1 slices_S256x64_o0_57_S256x1 rfl 3712 rfl inb_S256x4224_S256x128_0_3712 x
  · exact outer_store x0 x1 x2 x3 x4 x5 x6 x7 54 55 (by norm_num) (by norm_num) slices_S256x64_o0_54_S256x1 slices_S256x64_o0_55_S256x1 rfl 3584 rfl inb_S256x4224_S256x128_0_3584 x
  · exact outer_store x0 x1 x2 x3 x4 x5 x6 x7 52 53 (by norm_num) (by norm_num) slices_S256x64_o0_52_S256x1 slices_S256x64_o0_53_S256x1 rfl 3456 rfl inb_S256x4224_S256x128_0_3456 x
  · exact outer_store x0 x1 x2 x3 x4 x5 x6 x7 50 51 (by norm_num) (by norm_num) slices_S256x64_o0_50_S256x1 slices_S256x64_o0_51_S256x1 rfl 3328 rfl inb_S256x4224_S256x128_0_3328 x
  · exact outer_store x0 x1 x2 x3 x4 x5 x6 x7 48 49 (by norm_num) (by norm_num) slices_S256x64_o0_48_S256x1 slices_S256x64_o0_49_S256x1 rfl 3200 rfl inb_S256x4224_S256x128_0_3200 x
  · exact outer_store x0 x1 x2 x3 x4 x5 x6 x7 46 47 (by norm_num) (by norm_num) slices_S256x64_o0_46_S256x1 slices_S256x64_o0_47_S256x1 rfl 3072 rfl inb_S256x4224_S256x128_0_3072 x
  · exact outer_store x0 x1 x2 x3 x4 x5 x6 x7 44 45 (by norm_num) (by norm_num) slices_S256x64_o0_44_S256x1 slices_S256x64_o0_45_S256x1 rfl 2944 rfl inb_S256x4224_S256x128_0_2944 x
  · exact outer_store x0 x1 x2 x3 x4 x5 x6 x7 42 43 (by norm_num) (by norm_num) slices_S256x64_o0_42_S256x1 slices_S256x64_o0_43_S256x1 rfl 2816 rfl inb_S256x4224_S256x128_0_2816 x
  · exact outer_store x0 x1 x2 x3 x4 x5 x6 x7 40 41 (by norm_num) (by norm_num) slices_S256x64_o0_40_S256x1 slices_S256x64_o0_41_S256x1 rfl 2688 rfl inb_S256x4224_S256x128_0_2688 x
  · exact outer_store x0 x1 x2 x3 x4 x5 x6 x7 38 39 (by norm_num) (by norm_num) slices_S256x64_o0_38_S256x1 slices_S256x64_o0_39_S256x1 rfl 2560 rfl inb_S256x4224_S256x128_0_2560 x
  · exact outer_store x0 x1 x2 x3 x4 x5 x6 x7 36 37 (by norm_num) (by norm_num) slices_S256x64_o0_36_S256x1 slices_S256x64_o0_37_S256x1 rfl 2432 rfl inb_S256x4224_S256x128_0_2432 x
  · exact outer_store x0 x1 x2 x3 x4 x5 x6 x7 34 35 (by norm_num) (by norm_num) slices_S256x64_o0_34_S256x1 slices_S256x64_o0_35_S256x1 rfl 2304 rfl inb_S256x4224_S256x128_0_2304 x
  · exact outer_store x0 x1 x2 x3 x4 x5 x6 x7 32 33 (by norm_num) (by norm_num) slices_S256x64_o0_32_S256x1 slices_S256x64_o0_33_S256x1 rfl 2176 rfl inb_S256x4224_S256x128_0_2176 x
  · exact outer_store x0 x1 x2 x3 x4 x5 x6 x7 30 31 (by norm_num) (by norm_num) slices_S256x64_o0_30_S256x1 slices_S256x64_o0_31_S256x1 rfl 2048 rfl inb_S256x4224_S256x128_0_2048 x
  · exact outer_store x0 x1 x2 x3 x4 x5 x6 x7 28 29 (by norm_num) (by norm_num) slices_S256x64_o0_28_S256x1 slices_S256x64_o0_29_S256x1 rfl 1920 rfl inb_S256x4224_S256x128_0_1920 x
  · exact outer_store x0 x1 x2 x3 x4 x5 x6 x7 26 27 (by norm_num) (by norm_num) slices_S256x64_o0_26_S256x1 slices_S256x64_o0_27_S256x1 rfl 1792 rfl inb_S256x4224_S256x128_0_1792 x
  · exact outer_store x0 x1 x2 x3 x4 x5 x6 x7 24 25 (by norm_num) (by norm_num) slices_S256x64_o0_24_S256x1 slices_S256x64_o0_25_S256x1 rfl 1664 rfl inb_S256x4224_S256x128_0_1664 x
  · exact outer_store x0 x1 x2 x3 x4 x5 x6 x7 22 23 (by norm_num) (by norm_num) slices_S256x64_o0_22_S256x1 slices_S256x64_o0_23_S256x1 rfl 1536 rfl inb_S256x4224_S256x128_0_1536 x
  · exact outer_store x0 x1 x2 x3 x4 x5 x6 x7 20 21 (by norm_num) (by norm_num) slices_S256x64_o0_20_S256x1 slices_S256x64_o0_21_S256x1 rfl 1408 rfl inb_S256x4224_S256x128_0_1408 x
  · exact outer_store x0 x1 x2 x3 x4 x5 x6 x7 18 19 (by norm_num) (by norm_num) slices_S256x64_o0_18_S256x1 slices_S256x64_o0_19_S256x1 rfl 1280 rfl inb_S256x4224_S256x128_0_1280 x
  · exact outer_store x0 x1 x2 x3 x4 x5 x6 x7 16 17 (by norm_num) (by norm_num) slices_S256x64_o0_16_S256x1 slices_S256x64_o0_17_S256x1 rfl 1152 rfl inb_S256x4224_S256x128_0_1152 x
  · exact outer_store x0 x1 x2 x3 x4 x5 x6 x7 14 15 (by norm_num) (by norm_num) slices_S256x64_o0_14_S256x1 slices_S256x64_o0_15_S256x1 rfl 1024 rfl inb_S256x4224_S256x128_0_1024 x
  · exact outer_store x0 x1 x2 x3 x4 x5 x6 x7 12 13 (by norm_num) (by norm_num) slices_S256x64_o0_12_S256x1 slices_S256x64_o0_13_S256x1 rfl 896 rfl inb_S256x4224_S256x128_0_896 x
  · exact outer_store x0 x1 x2 x3 x4 x5 x6 x7 10 11 (by norm_num) (by norm_num) slices_S256x64_o0_10_S256x1 slices_S256x64_o0_11_S256x1 rfl 768 rfl inb_S256x4224_S256x128_0_768 x
  · exact outer_store x0 x1 x2 x3 x4 x5 x6 x7 8 9 (by norm_num) (by norm_num) slices_S256x64_o0_8_S256x1 slices_S256x64_o0_9_S256x1 rfl 640 rfl inb_S256x4224_S256x128_0_640 x
  · exact outer_store x0 x1 x2 x3 x4 x5 x6 x7 6 7 (by norm_num) (by norm_num) slices_S256x64_o0_6_S256x1 slices_S256x64_o0_7_S256x1 rfl 512 rfl inb_S256x4224_S256x128_0_512 x
  · exact outer_store x0 x1 x2 x3 x4 x5 x6 x7 4 5 (by norm_num) (by norm_num) slices_S256x64_o0_4_S256x1 slices_S256x64_o0_5_S256x1 rfl 384 rfl inb_S256x4224_S256x128_0_384 x
  · exact outer_store x0 x1 x2 x3 x4 x5 x6 x7 2 3 (by norm_num) (by norm_num) slices_S256x64_o0_2_S256x1 slices_S256x64_o0_3_S256x1 rfl 256 rfl inb_S256x4224_S256x128_0_256 x
  · exact outer_store x0 x1 x2 x3 x4 x5 x6 x7 0 1 (by norm_num) (by norm_num) slices_S256x64_o0_0_S256x1 slices_S256x64_o0_1_S256x1 rfl 128 rfl inb_S256x4224_S256x128_0_128 x
  · exact first_store x0 x1 x2 x3 x4 x5 x6 x7 inb_S256x4224_S256x128_0_0 x

end Cert.KernelIdeal.AttnBlock

end
-- ==== Proof.AttnArray.lean ====
/-
  The attention region's result array after the region: the attention stage of the eight arrays it read.

  The body leaves, at every grid point, the stage's block of 256 rows of the blocks it read; the sixteen blocks
  written back tile the result array; so the array ends holding the stage over all 4096 rows.
-/
import proofs.«152010_j7541962572380_2_alg».proof.Proof.AttnArrRead
import proofs.«152010_j7541962572380_2_alg».proof.Proof.AttnBlock

noncomputable section

namespace Cert.KernelIdeal.AttnArray

open Cert.KernelIdeal Cert.KernelIdeal.Gen Idealize.ShloMosaic Idealize.ShloMosaic.TcCoe Idealize.SL.Sem

theorem final (V : (c : Dev nD) → (b : Ref sig .tc) → Buf (Elt Ideal) ((c : Thread nD τ).loc b)) (c : Dev nD) :
    (dat1 (F := Ideal) V c).arrAt 8 cfg1.N = CoAttn.attnK (V c main_v0_0) (V c main_v0_3) (V c main_v0_1) (V c main_v0_2) (V c main_v0_4) (V c main_v0_5) (V c main_arg0) (V c main_arg1) :=
  final_of V Cert.KernelIdeal.AttnBlock.out_eq c

end Cert.KernelIdeal.AttnArray

end
-- ==== Proof.KernelValue.lean ====
/-
  The idealized kernel's result array is the network of its arguments, normalising after the sums.

  After the two regions the result array holds what the second region's pipeline leaves (`Gen.W2` at `main_v1`): the
  attention stage `CoAttn.attnK` of the arrays the second region finds — the six projected arrays, each of which the
  first region left at the linear layer `CoAttn.lin` of its input, weight and bias, and the two inputs X_I and X_M, which
  no region writes. Composed, that is `CoAttn.specK` of the fourteen launch arrays.
-/
import proofs.«152010_j7541962572380_2_alg».proof.Proof.KernelRun
import proofs.«152010_j7541962572380_2_alg».proof.Proof.ProjFinal
import proofs.«152010_j7541962572380_2_alg».proof.Proof.AttnArray

set_option maxRecDepth 16384

noncomputable section

namespace Cert.KernelIdeal.KernelValue

open Cert.KernelIdeal Cert.KernelIdeal.Gen CoAttn
open Idealize.ShloMosaic Idealize.ShloMosaic.TcCoe Idealize.SL.Sem

variable (m : (ℓ : Loc nD τ sig) → Buf (Elt Ideal) ℓ) (ρ : Dev nD → PrngReg)

/-- X_I as the second region finds it is the launch array: the first region only reads it. -/
theorem entry_arg0 (c : Dev nD) : V1 m ρ c main_arg0 = m ((c : Thread nD τ).loc main_arg0) :=
  ((W1_arr m ρ c 0).trans (((dat0 (V0 m ρ) c).arrAt_in 0 rfl _).trans (A_eq0 (V0 m ρ) c 0))).trans rfl

/-- X_M likewise. -/
theorem entry_arg1 (c : Dev nD) : V1 m ρ c main_arg1 = m ((c : Thread nD τ).loc main_arg1) :=
  ((W1_arr m ρ c 1).trans (((dat0 (V0 m ρ) c).arrAt_in 1 rfl _).trans (A_eq0 (V0 m ρ) c 1))).trans rfl

/-- The six projected arrays as the second region finds them: the linear layers of the launch arrays. -/
theorem entry_qi (c : Dev nD) : V1 m ρ c main_v0_0
    = lin (m ((c : Thread nD τ).loc main_arg0)) (m ((c : Thread nD τ).loc main_arg2)) (m ((c : Thread nD τ).loc main_arg3)) :=
  (W1_arr m ρ c 14).trans (Cert.ProjSide.final_14 (V0 m ρ) c)
theorem entry_ki (c : Dev nD) : V1 m ρ c main_v0_1
    = lin (m ((c : Thread nD τ).loc main_arg0)) (m ((c : Thread nD τ).loc main_arg4)) (m ((c : Thread nD τ).loc main_arg5)) :=
  (W1_arr m ρ c 15).trans (Cert.ProjSide.final_15 (V0 m ρ) c)
theorem entry_vi (c : Dev nD) : V1 m ρ c main_v0_2
    = lin (m ((c : Thread nD τ).loc main_arg0)) (m ((c : Thread nD τ).loc main_arg6)) (m ((c : Thread nD τ).loc main_arg7)) :=
  (W1_arr m ρ c 16).trans (Cert.ProjSide.final_16 (V0 m ρ) c)
theorem entry_qm (c : Dev nD) : V1 m ρ c main_v0_3
    = lin (m ((c : Thread nD τ).loc main_arg1)) (m ((c : Thread nD τ).loc main_arg8)) (m ((c : Thread nD τ).loc main_arg9)) :=
  (W1_arr m ρ c 17).trans (Cert.ProjSide.final_17 (V0 m ρ) c)
theorem entry_km (c : Dev nD) : V1 m ρ c main_v0_4
    = lin (m ((c : Thread nD τ).loc main_arg1)) (m ((c : Thread nD τ).loc main_arg10)) (m ((c : Thread nD τ).loc main_arg11)) :=
  (W1_arr m ρ c 18).trans (Cert.ProjSide.final_18 (V0 m ρ) c)
theorem entry_vm (c : Dev nD) : V1 m ρ c main_v0_5
    = lin (m ((c : Thread nD τ).loc main_arg1)) (m ((c : Thread nD τ).loc main_arg12)) (m ((c : Thread nD τ).loc main_arg13)) :=
  (W1_arr m ρ c 19).trans (Cert.ProjSide.final_19 (V0 m ρ) c)

/-- The result array after the run: the network of the fourteen launch arrays. -/
theorem result (c : Dev nD) : W2 m ρ c (Proc.devRef .tc main_v1)
    = specK (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) (m ((c : Thread nD τ).loc main_arg13)) := by
  refine (W2_arr m ρ c 8).trans ?_
  rw [Cert.KernelIdeal.AttnArray.final (V1 m ρ) c, entry_qi, entry_qm, entry_ki, entry_vi, entry_km, entry_vm, entry_arg0, entry_arg1]
  rfl

end Cert.KernelIdeal.KernelValue

end
-- ==== Proof.LawReal.lean ====
/-
  Real-valued arrays on the extended reals.

  An array is real-valued when every one of its entries is the coercion of a real number. A sum, a product and a
  finite sum of such numbers are again real, so a linear layer  X W + b  of real-valued arrays is real-valued, and
  every scaled score  (Σ_d Q[n,d] K[k,d]) · (1/8)  of two real-valued arrays is a real number.
-/
import proofs.«152010_j7541962572380_2_alg».proof.Proof.Spec

namespace CoAttn

open Idealize.ShloMosaic Idealize.ShloMosaic.ValueIdx

/-- Every entry of the array is a real number. -/
abbrev RealValued {ι : Type*} (A : ι → EReal) : Prop := ∀ i, ∃ r : ℝ, A i = (r : EReal)

theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

theorem real_sum {ι : Type*} (t : Finset ι) (f : ι → EReal) (h : ∀ k ∈ t, ∃ r : ℝ, f k = (r : EReal)) :
    ∃ r : ℝ, ∑ k ∈ t, f k = (r : EReal) := by
  classical
  induction t using Finset.induction_on with
  | empty => exact ⟨0, by simp⟩
  | insert k t hk ih =>
    rw [Finset.sum_insert hk]
    exact real_add (h k (Finset.mem_insert_self k t)) (ih fun j hj => h j (Finset.mem_insert_of_mem hj))

/-- The score scale is the real number one eighth. -/
theorem scale_eq : scale = (((1 : ℝ) / 8 : ℝ) : EReal) := by
  unfold scale
  simp [Ideal.ofBits, Ideal.ieee, -EReal.coe_mul]; norm_num

theorem scale_real : ∃ r : ℝ, scale = (r : EReal) := ⟨_, scale_eq⟩

/-- A linear layer of real-valued arrays is real-valued. -/
theorem lin_real {X : SND.Idx → EReal} {W : SDD.Idx → EReal} {b : SD.Idx → EReal}
    (hX : RealValued X) (hW : RealValued W) (hb : RealValued b) : RealValued (lin X W b) := fun i =>
  real_add (real_sum _ _ fun k _ => real_mul (hX (ix2 (i 0) k)) (hW (ix2 k (i 1)))) (hb (ix1 (i 1)))

/-- Every scaled score of two real-valued arrays is a real number. -/
theorem score_real {Q K : SND.Idx → EReal} (hQ : RealValued Q) (hK : RealValued K) (n k : Fin 4096) :
    ∃ r : ℝ, score Q K n k = (r : EReal) :=
  real_mul (real_sum _ _ fun d _ => real_mul (hQ (ix2 n d)) (hK (ix2 k d))) scale_real

end CoAttn
-- ==== Proof.LibSoftmaxRow.lean ====
/-
  Row softmax on the extended reals, for any row length and any value vectors.

  A row of scores `s : Fin n → EReal` is shifted by a number `m`, exponentiated (`p k = exp (s k - m)`, with
  `exp ⊥ = 0`, `exp ⊤ = ⊤`) and normalised by the row sum `l = ∑ k, p k`. Two spellings of the normalisation occur:
  dividing every entry by `l`, and multiplying it by the reciprocal `1 / l`; and a weighted sum `∑ k, w k * v k` may be
  normalised entry by entry before the sum or once after it. On the extended reals these agree as soon as `l` is not
  zero — division by zero has its own corner — and multiplication by `l⁻¹`, a nonnegative number that is never `⊤`,
  distributes over any sum, infinite terms included. When every score is a real number and the shift is not `⊤` each
  `s k - m` is not `⊥`, so each `p k` is positive and `l` is positive: that is the only use of finiteness.
-/
import Idealize.ShloMosaic.PureOps.Ideal

namespace Cert.Lib.SoftmaxRow

open Idealize.ShloMosaic

/-- A finite nonnegative factor comes out of a finite sum of extended reals, whatever the terms. -/
theorem sum_mul_of_nonneg_of_ne_top {ι : Type*} (t : Finset ι) (a : ι → EReal) {c : EReal} (h0 : 0 ≤ c) (ht : c ≠ ⊤) :
    (∑ k ∈ t, a k) * c = ∑ k ∈ t, a k * c := by
  classical
  induction t using Finset.induction_on with
  | empty => simp
  | insert k t hk ih =>
    rw [Finset.sum_insert hk, Finset.sum_insert hk, EReal.right_distrib_of_nonneg_of_ne_top h0 ht, ih]

/-- A dot product whose left factors were each scaled by a finite nonnegative `c` is the dot product scaled by `c`. -/
theorem scaled_dot {n : Nat} (a b : Fin n → EReal) {c : EReal} (h0 : 0 ≤ c) (ht : c ≠ ⊤) :
    ∑ d, (a d * c) * b d = (∑ d, a d * b d) * c := by
  rw [sum_mul_of_nonneg_of_ne_top _ _ h0 ht]
  exact Finset.sum_congr rfl fun d _ => mul_right_comm _ _ _

theorem exp_nonneg (x : EReal) : 0 ≤ Ideal.exp x := by
  induction x using EReal.rec with
  | bot => exact le_of_eq Ideal.exp_bot.symm
  | coe r => rw [Ideal.exp_coe]; exact EReal.coe_nonneg.2 (Real.exp_pos r).le
  | top => rw [Ideal.exp_top]; exact le_top

theorem exp_pos_of_ne_bot {x : EReal} (h : x ≠ ⊥) : 0 < Ideal.exp x := by
  induction x using EReal.rec with
  | bot => exact absurd rfl h
  | coe r => rw [Ideal.exp_coe]; exact EReal.coe_pos.2 (Real.exp_pos r)
  | top => rw [Ideal.exp_top]; exact EReal.zero_lt_top

/-- A real number minus anything but `⊤` is not `⊥`. -/
theorem coe_sub_ne_bot (r : ℝ) {m : EReal} (hm : m ≠ ⊤) : (r : EReal) - m ≠ ⊥ := by
  induction m using EReal.rec with
  | bot => simp
  | coe q => rw [← EReal.coe_sub]; exact EReal.coe_ne_bot _
  | top => exact absurd rfl hm

/-- The running maximum of a row none of whose entries is `⊤`, started below `⊤`, is not `⊤`. -/
theorem fold_max_ne_top {n : Nat} {b : EReal} (hb : b ≠ ⊤) (s : Fin n → EReal) (hs : ∀ k, s k ≠ ⊤) :
    (Finset.univ : Finset (Fin n)).fold max b s ≠ ⊤ := by
  apply ne_of_lt
  rw [Finset.fold_max_lt]
  exact ⟨lt_top_iff_ne_top.2 hb, fun k _ => lt_top_iff_ne_top.2 (hs k)⟩

section Row

variable {n : Nat} (s : Fin n → EReal) (m : EReal)

/-- The row sum of the shifted exponentials is positive when the row is not empty, its scores are real and the shift
    is not `⊤`. -/
theorem rowsum_pos (hn : 0 < n) (hs : ∀ k, ∃ r : ℝ, s k = r) (hm : m ≠ ⊤) :
    0 < ∑ k, Ideal.exp (s k - m) := by
  have h0 : 0 < Ideal.exp (s ⟨0, hn⟩ - m) := by
    obtain ⟨r, hr⟩ := hs ⟨0, hn⟩
    rw [hr]
    exact exp_pos_of_ne_bot (coe_sub_ne_bot r hm)
  exact lt_of_lt_of_le h0
    (Finset.single_le_sum (f := fun k => Ideal.exp (s k - m)) (fun k _ => exp_nonneg _) (Finset.mem_univ _))

/-- An entry times the reciprocal of a nonzero row sum is the entry divided by the row sum. -/
theorem mul_one_div {l : EReal} (hl : l ≠ 0) (p : EReal) : p * Ideal.div 1 l = Ideal.div p l := by
  unfold Ideal.div
  rw [if_neg hl, if_neg hl, one_mul]

/-- A weighted sum normalised once after the sum, by the reciprocal of a positive row sum, is the sum of the
    entrywise-normalised weights times the values — for any values, infinite ones included. -/
theorem sum_mul_one_div {l : EReal} (hl : 0 < l) (p v : Fin n → EReal) :
    (∑ k, p k * v k) * Ideal.div 1 l = ∑ k, Ideal.div (p k) l * v k := by
  have hl0 : l ≠ 0 := hl.ne'
  have e1 : Ideal.div 1 l = l⁻¹ := by unfold Ideal.div; rw [if_neg hl0, one_mul]
  rw [e1, sum_mul_of_nonneg_of_ne_top _ _ (EReal.inv_nonneg_of_nonneg hl.le) (EReal.inv_lt_top l).ne]
  refine Finset.sum_congr rfl fun k _ => ?_
  unfold Ideal.div
  rw [if_neg hl0]
  exact mul_right_comm _ _ _

end Row

end Cert.Lib.SoftmaxRow
-- ==== Proof.LawSoftmax.lean ====
/-
  The two arrangements of the softmax normalisation agree when the scores are real.

  With real scores S[n,k] the row maximum m_n, a maximum over 4096 > 0 reals folded from -∞, is not +∞; every
  p[n,k] = exp (S[n,k] - m_n) is then a positive number and the row sum l_n = Σ_k p[n,k] is positive, in
  particular not zero. Division by l_n is therefore multiplication by l_n⁻¹, a nonnegative number that is never +∞,
  and such a factor distributes over any finite sum of extended reals:
    (Σ_k p_k v_k) / l = Σ_k (p_k / l) v_k   for any values v_k, and
    (Σ_k p_k p'_k) / (l l') = Σ_k (p_k / l)(p'_k / l'),  since (l l')⁻¹ = l⁻¹ l'⁻¹.
-/
import proofs.«152010_j7541962572380_2_alg».proof.Proof.LawReal
import proofs.«152010_j7541962572380_2_alg».proof.Proof.LibSoftmaxRow

namespace CoAttn

open Idealize.ShloMosaic Idealize.ShloMosaic.ValueIdx Cert.Lib.SoftmaxRow

variable {S S' : Fin 4096 → Fin 4096 → EReal}

/-- The row maximum of real scores is not +∞. -/
theorem rowmax_ne_top (hS : ∀ n k, ∃ r : ℝ, S n k = (r : EReal)) (n : Fin 4096) : rowmax S n ≠ ⊤ :=
  fold_max_ne_top bot_ne_top (S n) fun k => by
    obtain ⟨r, hr⟩ := hS n k
    rw [hr]
    exact EReal.coe_ne_top r

/-- The row sum of the shifted exponentials of real scores is positive. -/
theorem rowsum_pos_of_real (hS : ∀ n k, ∃ r : ℝ, S n k = (r : EReal)) (n : Fin 4096) : 0 < rowsum S n :=
  rowsum_pos (S n) (rowmax S n) (by norm_num) (hS n) (rowmax_ne_top hS n)

/-- Attended values: normalising once after the sum over the keys, or every weight before it. -/
theorem attK_eq_attR (hS : ∀ n k, ∃ r : ℝ, S n k = (r : EReal)) (V : SND.Idx → EReal) : attK S V = attR S V := by
  funext n e
  have hl := rowsum_pos_of_real hS n
  unfold attK attR
  exact (mul_one_div hl.ne' _).symm.trans (sum_mul_one_div hl (pexp S n) fun k => V (ix2 k e))

/-- The row overlap: normalising once by the product of the two row sums, or each weight by its own row sum. -/
theorem ovlK_eq_ovlR (hS : ∀ n k, ∃ r : ℝ, S n k = (r : EReal)) (hS' : ∀ n k, ∃ r : ℝ, S' n k = (r : EReal)) :
    ovlK S S' = ovlR S S' := by
  funext n
  have hl := rowsum_pos_of_real hS n
  have hl' := rowsum_pos_of_real hS' n
  have hll : 0 < rowsum S n * rowsum S' n := EReal.mul_pos hl hl'
  unfold ovlK ovlR Ideal.div
  rw [if_neg hll.ne', sum_mul_of_nonneg_of_ne_top _ _ (EReal.inv_nonneg_of_nonneg hll.le) (EReal.inv_lt_top _).ne]
  refine Finset.sum_congr rfl fun k _ => ?_
  rw [if_neg hl.ne', if_neg hl'.ne', EReal.mul_inv]
  exact mul_mul_mul_comm _ _ _ _

end CoAttn
-- ==== Proof.LawSpec.lean ====
/-
  The whole network in its two arrangements: equal on real-valued inputs.

  The two arrangements differ only in where the softmax weights are divided by their row sums; the layout of a
  result row and its bilinear third part are the same function of the attended blocks and the row overlap in both.
  The scores are real as soon as the query and key projections are, and those are linear layers of real-valued
  inputs, weights and biases. The value projections may be anything.
-/
import proofs.«152010_j7541962572380_2_alg».proof.Proof.LawSoftmax

namespace CoAttn

open Idealize.ShloMosaic Idealize.ShloMosaic.ValueIdx

/-- The attention stage: the two arrangements agree when the query and key arrays are real-valued. -/
theorem attnK_eq_attnR (QI QM KI VI KM VM XI XM : SND.Idx → EReal)
    (hQI : RealValued QI) (hQM : RealValued QM) (hKI : RealValued KI) (hKM : RealValued KM) :
    attnK QI QM KI VI KM VM XI XM = attnR QI QM KI VI KM VM XI XM := by
  unfold attnK attnR
  rw [attK_eq_attR (score_real hQM hKI) VI, attK_eq_attR (score_real hQI hKM) VM,
    ovlK_eq_ovlR (score_real hQM hKI) (score_real hQI hKM)]

/-- The whole network: the two arrangements agree when the inputs and the query and key weights and biases are
    real-valued. -/
theorem specK_eq_specR (XI XM : SND.Idx → EReal) (WqI : SDD.Idx → EReal) (bqI : SD.Idx → EReal) (WkI : SDD.Idx → EReal)
    (bkI : SD.Idx → EReal) (WvI : SDD.Idx → EReal) (bvI : SD.Idx → EReal) (WqM : SDD.Idx → EReal) (bqM : SD.Idx → EReal)
    (WkM : SDD.Idx → EReal) (bkM : SD.Idx → EReal) (WvM : SDD.Idx → EReal) (bvM : SD.Idx → EReal)
    (hXI : RealValued XI) (hXM : RealValued XM) (hWqI : RealValued WqI) (hbqI : RealValued bqI)
    (hWkI : RealValued WkI) (hbkI : RealValued bkI) (hWqM : RealValued WqM) (hbqM : RealValued bqM)
    (hWkM : RealValued WkM) (hbkM : RealValued bkM) :
    specK XI XM WqI bqI WkI bkI WvI bvI WqM bqM WkM bkM WvM bvM
      = specR XI XM WqI bqI WkI bkI WvI bvI WqM bqM WkM bkM WvM bvM :=
  attnK_eq_attnR _ _ _ _ _ _ _ _ (lin_real hXI hWqI hbqI) (lin_real hXM hWqM hbqM) (lin_real hXI hWkI hbkI)
    (lin_real hXM hWkM hbkM)

end CoAttn
-- ==== Proof.FinElement.lean ====
/-
  The finiteness precondition, read back.

  The printed predicate tests, for each of the fourteen argument arrays, that every entry x satisfies |x| < +∞
  (|x| = max x (-x), the bound the float word 0x7F800000 = +∞), takes the conjunction over all entries of an
  array (a reduction by "and" from 1) and the conjunction of the fourteen results. When the predicate is 1 every
  one of the fourteen reductions is 1, so every entry of every array passes its test; and an extended real whose
  absolute value is below +∞ is neither +∞ nor -∞: it is a real number.
-/
import proofs.«152010_j7541962572380_2_alg».proof.Pre_finite_inputs
import Idealize.ShloMosaic.PureOps.Ideal
import Idealize.ShloMosaic.Lib.ValueIdx
import Idealize.ShloMosaic.Lib.ReduceAll

namespace Cert.FinSide

open Idealize.ShloMosaic Cert.Pre_finite_inputs

/-- The float word 0x7F800000 denotes +∞. -/
theorem ofBits_inf : Ideal.ofBits .f32 0x7F800000#32 = (⊤ : EReal) := by simp [Ideal.ofBits, Ideal.ieee]

/-- An extended real whose absolute value is below +∞ is a real number. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

instance : Subsingleton S_.Idx := ⟨fun a b => funext fun d => d.elim0⟩

/-- One array's test: if the conjunction over all its entries of |x| < +∞ is 1, every entry is a real number. -/
theorem all_real {s : Shape} {axes : List (Fin s.rank)} (hb : S_.BroadcastsInDim s (![] : Fin 0 → Fin s.rank))
    (hr : s.ReducesTo axes S_) (hu : 0 < S_.numel) (a : FVec Ideal s .f32)
    (e : Host.reduce IntOp.andi
          (cmpf .olt (Host.absf a) (broadcastInDim s ![] hb (constant (F := Ideal) S_ .f32 0x7F800000#32)))
          (constantI S_ 1 1#1) hr hu ValueIdx.ix0 = 1#1) (i : s.Idx) : ∃ r : ℝ, a i = (r : EReal) :=
  real_of_abs_lt_inf (a i) (Host.reduce_andi_all _ _ hr hu _ e i)

/-- A conjunction of two one-bit results that is 1 has both parts 1. -/
theorem and_split {x y : IVec S_ 1} (h : andi x y ValueIdx.ix0 = 1#1) :
    x ValueIdx.ix0 = 1#1 ∧ y ValueIdx.ix0 = 1#1 := IntOp.andi_eq_one.1 h

end Cert.FinSide
-- ==== Proof.FinPre.lean ====
/-
  The printed finiteness predicate over its fourteen arguments, decoded: if it evaluates to 1, every entry of
  every argument array is a real number.

  The predicate is a left-nested conjunction  ((((t₀ ∧ t₁) ∧ t₂) ∧ …) ∧ t₁₃)  of the fourteen per-array tests
  t_K = "all entries x of argument K have |x| < +∞"; it is peeled from the right, one test at a time.
-/
import proofs.«152010_j7541962572380_2_alg».proof.Proof.FinElement

namespace Cert.FinSide

open Idealize.ShloMosaic Cert.Pre_finite_inputs

variable [Facts]

theorem fn_real (a0 : FVec Ideal S4096x64 .f32) (a1 : FVec Ideal S4096x64 .f32) (a2 : FVec Ideal S64x64 .f32) (a3 : FVec Ideal S64 .f32) (a4 : FVec Ideal S64x64 .f32) (a5 : FVec Ideal S64 .f32) (a6 : FVec Ideal S64x64 .f32) (a7 : FVec Ideal S64 .f32) (a8 : FVec Ideal S64x64 .f32) (a9 : FVec Ideal S64 .f32) (a10 : FVec Ideal S64x64 .f32) (a11 : FVec Ideal S64 .f32) (a12 : FVec Ideal S64x64 .f32) (a13 : FVec Ideal S64 .f32)
    (h : fn (F := Ideal) a0 a1 a2 a3 a4 a5 a6 a7 a8 a9 a10 a11 a12 a13 = fun _ => 1#1) :
    (∀ i, ∃ r : ℝ, a0 i = (r : EReal))
      ∧ (∀ i, ∃ r : ℝ, a1 i = (r : EReal))
      ∧ (∀ i, ∃ r : ℝ, a2 i = (r : EReal))
      ∧ (∀ i, ∃ r : ℝ, a3 i = (r : EReal))
      ∧ (∀ i, ∃ r : ℝ, a4 i = (r : EReal))
      ∧ (∀ i, ∃ r : ℝ, a5 i = (r : EReal))
      ∧ (∀ i, ∃ r : ℝ, a6 i = (r : EReal))
      ∧ (∀ i, ∃ r : ℝ, a7 i = (r : EReal))
      ∧ (∀ i, ∃ r : ℝ, a8 i = (r : EReal))
      ∧ (∀ i, ∃ r : ℝ, a9 i = (r : EReal))
      ∧ (∀ i, ∃ r : ℝ, a10 i = (r : EReal))
      ∧ (∀ i, ∃ r : ℝ, a11 i = (r : EReal))
      ∧ (∀ i, ∃ r : ℝ, a12 i = (r : EReal))
      ∧ (∀ i, ∃ r : ℝ, a13 i = (r : EReal)) := by
  have h0 := congrFun h ValueIdx.ix0
  dsimp only [fn, fn_part1, fn_part2, fn_part3, fn_part4] at h0
  obtain ⟨h0, e13⟩ := and_split h0
  obtain ⟨h0, e12⟩ := and_split h0
  obtain ⟨h0, e11⟩ := and_split h0
  obtain ⟨h0, e10⟩ := and_split h0
  obtain ⟨h0, e9⟩ := and_split h0
  obtain ⟨h0, e8⟩ := and_split h0
  obtain ⟨h0, e7⟩ := and_split h0
  obtain ⟨h0, e6⟩ := and_split h0
  obtain ⟨h0, e5⟩ := and_split h0
  obtain ⟨h0, e4⟩ := and_split h0
  obtain ⟨h0, e3⟩ := and_split h0
  obtain ⟨h0, e2⟩ := and_split h0
  obtain ⟨e0, e1⟩ := and_split h0
  exact ⟨all_real _ _ _ a0 e0,
    all_real _ _ _ a1 e1,
    all_real _ _ _ a2 e2,
    all_real _ _ _ a3 e3,
    all_real _ _ _ a4 e4,
    all_real _ _ _ a5 e5,
    all_real _ _ _ a6 e6,
    all_real _ _ _ a7 e7,
    all_real _ _ _ a8 e8,
    all_real _ _ _ a9 e9,
    all_real _ _ _ a10 e10,
    all_real _ _ _ a11 e11,
    all_real _ _ _ a12 e12,
    all_real _ _ _ a13 e13⟩

end Cert.FinSide
-- ==== Proof.FinKernel.lean ====
/-
  Finiteness of the kernel's arguments from its precondition: on every device each of the fourteen argument
  arrays, as the initial memory holds it, has only real entries.

  The precondition says that the printed finiteness predicate, applied to the fourteen argument arrays of the
  initial memory, is 1 on every device; the decoded predicate gives the fourteen statements.
-/
import proofs.«152010_j7541962572380_2_alg».proof.Defs
import proofs.«152010_j7541962572380_2_alg».proof.Proof.FinPre

namespace Cert.FinSide

open Idealize.ShloMosaic Idealize.SL.Sem

theorem real_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal))
      ∧ (∀ i, ∃ r : ℝ, m ((c.tc : Thread Cert.KernelIdeal.nD Cert.KernelIdeal.τ).loc Cert.KernelIdeal.main_arg4) i = (r : EReal))
      ∧ (∀ i, ∃ r : ℝ, m ((c.tc : Thread Cert.KernelIdeal.nD Cert.KernelIdeal.τ).loc Cert.KernelIdeal.main_arg5) i = (r : EReal))
      ∧ (∀ i, ∃ r : ℝ, m ((c.tc : Thread Cert.KernelIdeal.nD Cert.KernelIdeal.τ).loc Cert.KernelIdeal.main_arg6) i = (r : EReal))
      ∧ (∀ i, ∃ r : ℝ, m ((c.tc : Thread Cert.KernelIdeal.nD Cert.KernelIdeal.τ).loc Cert.KernelIdeal.main_arg7) i = (r : EReal))
      ∧ (∀ i, ∃ r : ℝ, m ((c.tc : Thread Cert.KernelIdeal.nD Cert.KernelIdeal.τ).loc Cert.KernelIdeal.main_arg8) i = (r : EReal))
      ∧ (∀ i, ∃ r : ℝ, m ((c.tc : Thread Cert.KernelIdeal.nD Cert.KernelIdeal.τ).loc Cert.KernelIdeal.main_arg9) i = (r : EReal))
      ∧ (∀ i, ∃ r : ℝ, m ((c.tc : Thread Cert.KernelIdeal.nD Cert.KernelIdeal.τ).loc Cert.KernelIdeal.main_arg10) i = (r : EReal))
      ∧ (∀ i, ∃ r : ℝ, m ((c.tc : Thread Cert.KernelIdeal.nD Cert.KernelIdeal.τ).loc Cert.KernelIdeal.main_arg11) i = (r : EReal))
      ∧ (∀ i, ∃ r : ℝ, m ((c.tc : Thread Cert.KernelIdeal.nD Cert.KernelIdeal.τ).loc Cert.KernelIdeal.main_arg12) i = (r : EReal))
      ∧ (∀ i, ∃ r : ℝ, m ((c.tc : Thread Cert.KernelIdeal.nD Cert.KernelIdeal.τ).loc Cert.KernelIdeal.main_arg13) i = (r : EReal)) :=
  fn_real _ _ _ _ _ _ _ _ _ _ _ _ _ _ (h c)

end Cert.FinSide
-- ==== Proof.FinSpec.lean ====
/-
  Under the precondition the two arrangements of the network agree on the kernel's own argument arrays.

  The precondition makes every argument array real-valued; the law of the two arrangements needs that of the
  two inputs and of the query and key weights and biases (arguments 0 to 5 and 8 to 11).
-/
import proofs.«152010_j7541962572380_2_alg».proof.Proof.LawSpec
import proofs.«152010_j7541962572380_2_alg».proof.Proof.FinKernel

namespace Cert.FinSide

open Idealize.ShloMosaic Idealize.SL.Sem

theorem specK_eq_specR_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    CoAttn.specK
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))
      = CoAttn.specR
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13)) := by
  obtain ⟨h0, h1, h2, h3, h4, h5, -, -, h8, h9, h10, h11, -, -⟩ := real_of_pre m h c
  exact CoAttn.specK_eq_specR _ _ _ _ _ _ _ _ _ _ _ _ _ _ h0 h1 h2 h3 h4 h5 h8 h9 h10 h11

end Cert.FinSide
-- ==== Proof.lean ====
/-
  The certificate of the co-attention kernel against its reference.

  Both programs compute, from two [4096, 64] inputs and six weight matrices with their biases, six linear layers, two
  matrices of scaled scores, a softmax along each row of the scores, the two attended arrays, the row overlap of the two
  attention matrices and the bilinear term built from it, laid out as a [4096, 4224] array.

  The kernel is two pipelined regions: the first writes the six projected arrays block by block, the second, per block of
  256 query rows, holds the key-side arrays whole and writes the result block in 33 stores. It normalises AFTER the sums
  over the keys: (Σ_k p_k v_k) / l and (Σ_k p_k p'_k) / (l l'), where p_k = exp (s_k - max s) and l = Σ_k p_k. The reference
  divides every weight first: Σ_k (p_k / l) v_k and Σ_k (p_k / l)(p'_k / l'); its score scale is 1 / √64 where the kernel
  multiplies by the constant 1/8. On the extended reals the two arrangements agree when l is a positive real, which the
  precondition gives: every input finite makes every score a real, so every p_k a positive real and l a positive real.

  * the frames of the two kernel programs are the generated frame certificates; the reference's frame is its run with the
    result dropped (RefRun.lean);
  * preserves: the idealization rewrote nothing;
  * algebraic: the idealized kernel's result array is `CoAttn.specK` of the launch arrays (KernelRun.lean, KernelValue.lean
    over ProjFinal.lean, AttnBlock.lean, AttnArray.lean), the reference's is `CoAttn.specR` of them (RefRun.lean,
    RefSpec.lean), and the two agree under the precondition (FinSpec.lean over LawSpec.lean).
-/
import proofs.«152010_j7541962572380_2_alg».proof.Defs
import proofs.«152010_j7541962572380_2_alg».proof.Proof.Gen.Kernel
import proofs.«152010_j7541962572380_2_alg».proof.Proof.Gen.Kernel.Skeleton
import proofs.«152010_j7541962572380_2_alg».proof.Proof.Gen.Kernel.Launch
import proofs.«152010_j7541962572380_2_alg».proof.Proof.Gen.Kernel.Points
import proofs.«152010_j7541962572380_2_alg».proof.Proof.Gen.Kernel.Frame
import proofs.«152010_j7541962572380_2_alg».proof.Proof.Gen.KernelIdeal
import proofs.«152010_j7541962572380_2_alg».proof.Proof.Gen.KernelIdeal.Skeleton
import proofs.«152010_j7541962572380_2_alg».proof.Proof.Gen.KernelIdeal.Launch
import proofs.«152010_j7541962572380_2_alg».proof.Proof.Gen.KernelIdeal.Points
import proofs.«152010_j7541962572380_2_alg».proof.Proof.Gen.KernelIdeal.Frame
import proofs.«152010_j7541962572380_2_alg».proof.Proof.Gen.ReferenceIdeal
import proofs.«152010_j7541962572380_2_alg».proof.Proof.Gen.Pre_finite_inputs
import proofs.«152010_j7541962572380_2_alg».proof.Proof.RefRunP
import proofs.«152010_j7541962572380_2_alg».proof.Proof.RefRun
import proofs.«152010_j7541962572380_2_alg».proof.Proof.RefReadP
import proofs.«152010_j7541962572380_2_alg».proof.Proof.RefSpec
import proofs.«152010_j7541962572380_2_alg».proof.Proof.KernelRun
import proofs.«152010_j7541962572380_2_alg».proof.Proof.KernelValue
import proofs.«152010_j7541962572380_2_alg».proof.Proof.FinSpec
import Idealize.ShloMosaic.Adequacy
import Idealize.ShloMosaic.Init

noncomputable section

namespace Cert.Proof

open Idealize.ShloMosaic Idealize.SL.Sem

/-- The word-level kernel's frame: the generated frame certificate. -/
theorem frame_kernel : Cert.frame_Kernel := fun m ρ _ => Cert.Kernel.Gen.frame m ρ

/-- The idealized kernel's frame: the generated frame certificate. -/
theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments, under the precondition, both idealized programs end with the network of the
    arguments in their result arrays: the kernel's arrangement of it and the reference's, equal on finite inputs. -/
theorem algebraic : Cert.algebraic_KernelIdeal_ReferenceIdeal := by
  intro m ρ m' ρ' hpre hagree
  refine ⟨fun c => CoAttn.specK
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.KernelValue.result m ρ c), (h c).2⟩)
      (Cert.KernelIdeal.RunValue.run (F := Ideal) m ρ)
  · refine (θ_run Cert.ReferenceIdeal.defs _ _).mono (fun r h c => ⟨?_, (h c).2⟩)
      (Cert.ReferenceIdeal.ValueP.run (F := Ideal) m' ρ')
    obtain ⟨a0, a1, a2, a3, a4, a5, a6, a7, a8, a9, a10, a11, a12, a13⟩ := hagree c
    rw [(h c).1, Cert.ReferenceIdeal.ReadP.val_main_v69_eq, Cert.RefSide.ref_eq, a0, a1, a2, a3, a4, a5, a6, a7, a8, a9, a10, a11, a12, a13]
    exact (Cert.FinSide.specK_eq_specR_of_pre m hpre c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
